-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩

class Facts : Prop where
  bcast_S_S512x64x128 : S_.BroadcastsInDim S512x64x128 (![] : Fin 0 → Fin S512x64x128.rank)
  reducesTo_S512x64x128_S_d0_1_2 : S512x64x128.ReducesTo [0, 1, 2] S_
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  bcast_S_S512x192x128 : S_.BroadcastsInDim S512x192x128 (![] : Fin 0 → Fin S512x192x128.rank)
  reducesTo_S512x192x128_S_d0_1_2 : S512x192x128.ReducesTo [0, 1, 2] S_
  bcast_S_S512x256x128 : S_.BroadcastsInDim S512x256x128 (![] : Fin 0 → Fin S512x256x128.rank)
  reducesTo_S512x256x128_S_d0_1_2 : S512x256x128.ReducesTo [0, 1, 2] S_
  bcast_S_S512x320x128 : S_.BroadcastsInDim S512x320x128 (![] : Fin 0 → Fin S512x320x128.rank)
  reducesTo_S512x320x128_S_d0_1_2 : S512x320x128.ReducesTo [0, 1, 2] S_
  bcast_S_S512x384x128 : S_.BroadcastsInDim S512x384x128 (![] : Fin 0 → Fin S512x384x128.rank)
  reducesTo_S512x384x128_S_d0_1_2 : S512x384x128.ReducesTo [0, 1, 2] S_
  bcast_S_S512x448x128 : S_.BroadcastsInDim S512x448x128 (![] : Fin 0 → Fin S512x448x128.rank)
  reducesTo_S512x448x128_S_d0_1_2 : S512x448x128.ReducesTo [0, 1, 2] S_
  bcast_S_S512x512x128 : S_.BroadcastsInDim S512x512x128 (![] : Fin 0 → Fin S512x512x128.rank)
  reducesTo_S512x512x128_S_d0_1_2 : S512x512x128.ReducesTo [0, 1, 2] S_

variable [Facts]

def fn_part2 {F : FTy → Type} [FloatOps F] (main_arg7 : FVec F S512x512x128 .f32) (main_v33 : IVec S_ 1) : IVec S_ 1 :=
  let main_v34 : FVec F S512x512x128 .f32 := Host.absf main_arg7
  let main_cst_12 : FVec F S_ .f32 := constant S_ .f32 0x7F800000#32
  let main_v35 : FVec F S512x512x128 .f32 := broadcastInDim S512x512x128 ![] bcast_S_S512x512x128 main_cst_12
  let main_v36 : IVec S512x512x128 1 := cmpf .olt main_v34 main_v35
  let main_c_13 : IVec S_ 1 := constantI S_ 1 1#1
  let main_v37 : IVec S_ 1 := (fun x v => Host.reduce IntOp.andi x v reducesTo_S512x512x128_S_d0_1_2 h_S_) main_v36 main_c_13
  let main_v38 : IVec S_ 1 := andi main_v33 main_v37
  main_v38

def fn_part1 {F : FTy → Type} [FloatOps F] (main_arg4 : FVec F S512x320x128 .f32) (main_arg5 : FVec F S512x384x128 .f32) (main_arg6 : FVec F S512x448x128 .f32) (main_arg7 : FVec F S512x512x128 .f32) (main_v13 : IVec S_ 1) (main_v16 : IVec S512x256x128 1) : IVec S_ 1 :=
  let main_c_5 : IVec S_ 1 := constantI S_ 1 1#1
  let main_v17 : IVec S_ 1 := (fun x v => Host.reduce IntOp.andi x v reducesTo_S512x256x128_S_d0_1_2 h_S_) main_v16 main_c_5
  let main_v18 : IVec S_ 1 := andi main_v13 main_v17
  let main_v19 : FVec F S512x320x128 .f32 := Host.absf main_arg4
  let main_cst_6 : FVec F S_ .f32 := constant S_ .f32 0x7F800000#32
  let main_v20 : FVec F S512x320x128 .f32 := broadcastInDim S512x320x128 ![] bcast_S_S512x320x128 main_cst_6
  let main_v21 : IVec S512x320x128 1 := cmpf .olt main_v19 main_v20
  let main_c_7 : IVec S_ 1 := constantI S_ 1 1#1
  let main_v22 : IVec S_ 1 := (fun x v => Host.reduce IntOp.andi x v reducesTo_S512x320x128_S_d0_1_2 h_S_) main_v21 main_c_7
  let main_v23 : IVec S_ 1 := andi main_v18 main_v22
  let main_v24 : FVec F S512x384x128 .f32 := Host.absf main_arg5
  let main_cst_8 : FVec F S_ .f32 := constant S_ .f32 0x7F800000#32
  let main_v25 : FVec F S512x384x128 .f32 := broadcastInDim S512x384x128 ![] bcast_S_S512x384x128 main_cst_8
  let main_v26 : IVec S512x384x128 1 := cmpf .olt main_v24 main_v25
  let main_c_9 : IVec S_ 1 := constantI S_ 1 1#1
  let main_v27 : IVec S_ 1 := (fun x v => Host.reduce IntOp.andi x v reducesTo_S512x384x128_S_d0_1_2 h_S_) main_v26 main_c_9
  let main_v28 : IVec S_ 1 := andi main_v23 main_v27
  let main_v29 : FVec F S512x448x128 .f32 := Host.absf main_arg6
  let main_cst_10 : FVec F S_ .f32 := constant S_ .f32 0x7F800000#32
  let main_v30 : FVec F S512x448x128 .f32 := broadcastInDim S512x448x128 ![] bcast_S_S512x448x128 main_cst_10
  let main_v31 : IVec S512x448x128 1 := cmpf .olt main_v29 main_v30
  let main_c_11 : IVec S_ 1 := constantI S_ 1 1#1
  let main_v32 : IVec S_ 1 := (fun x v => Host.reduce IntOp.andi x v reducesTo_S512x448x128_S_d0_1_2 h_S_) main_v31 main_c_11
  let main_v33 : IVec S_ 1 := andi main_v28 main_v32
  fn_part2 (F := F) main_arg7 main_v33

def fn {F : FTy → Type} [FloatOps F] (main_arg0 : FVec F S512x64x128 .f32) (main_arg1 : FVec F S512x128x128 .f32) (main_arg2 : FVec F S512x192x128 .f32) (main_arg3 : FVec F S512x256x128 .f32) (main_arg4 : FVec F S512x320x128 .f32) (main_arg5 : FVec F S512x384x128 .f32) (main_arg6 : FVec F S512x448x128 .f32) (main_arg7 : FVec F S512x512x128 .f32) : IVec S_ 1 :=
  let main_v0 : FVec F S512x64x128 .f32 := Host.absf main_arg0
  let main_cst : FVec F S_ .f32 := constant S_ .f32 0x7F800000#32
  let main_v1 : FVec F S512x64x128 .f32 := broadcastInDim S512x64x128 ![] bcast_S_S512x64x128 main_cst
  let main_v2 : IVec S512x64x128 1 := cmpf .olt main_v0 main_v1
  let main_c : IVec S_ 1 := constantI S_ 1 1#1
  let main_v3 : IVec S_ 1 := (fun x v => Host.reduce IntOp.andi x v reducesTo_S512x64x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x192x128 .f32 := Host.absf main_arg2
  let main_cst_2 : FVec F S_ .f32 := constant S_ .f32 0x7F800000#32
  let main_v10 : FVec F S512x192x128 .f32 := broadcastInDim S512x192x128 ![] bcast_S_S512x192x128 main_cst_2
  let main_v11 : IVec S512x192x128 1 := cmpf .olt main_v9 main_v10
  let main_c_3 : IVec S_ 1 := constantI S_ 1 1#1
  let main_v12 : IVec S_ 1 := (fun x v => Host.reduce IntOp.andi x v reducesTo_S512x192x128_S_d0_1_2 h_S_) main_v11 main_c_3
  let main_v13 : IVec S_ 1 := andi main_v8 main_v12
  let main_v14 : FVec F S512x256x128 .f32 := Host.absf main_arg3
  let main_cst_4 : FVec F S_ .f32 := constant S_ .f32 0x7F800000#32
  let main_v15 : FVec F S512x256x128 .f32 := broadcastInDim S512x256x128 ![] bcast_S_S512x256x128 main_cst_4
  let main_v16 : IVec S512x256x128 1 := cmpf .olt main_v14 main_v15
  fn_part1 (F := F) main_arg4 main_arg5 main_arg6 main_arg7 main_v13 main_v16
-- ==== Kernel.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S512x128 : Shape := ⟨2, ![512, 128]⟩
abbrev S256x64x128 : Shape := ⟨3, ![256, 64, 128]⟩
abbrev S256x128 : Shape := ⟨2, ![256, 128]⟩
abbrev S512x1x128 : Shape := ⟨3, ![512, 1, 128]⟩
abbrev S512x8x128 : Shape := ⟨3, ![512, 8, 128]⟩

abbrev nBuf : Space → Nat
  | .hbm => 25
  | .vmem => 32
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S512x1x128, .f32⟩
  | .hbm, ⟨17, _⟩ => ⟨S512x1x128, .f32⟩
  | .hbm, ⟨18, _⟩ => ⟨S512x1x128, .f32⟩
  | .hbm, ⟨19, _⟩ => ⟨S512x1x128, .f32⟩
  | .hbm, ⟨20, _⟩ => ⟨S512x1x128, .f32⟩
  | .hbm, ⟨21, _⟩ => ⟨S512x1x128, .f32⟩
  | .hbm, ⟨22, _⟩ => ⟨S512x1x128, .f32⟩
  | .hbm, ⟨23, _⟩ => ⟨S512x1x128, .f32⟩
  | .hbm, ⟨24, _⟩ => ⟨S512x8x128, .f32⟩
  | .local _ .vmem, ⟨0, _⟩ => ⟨S256x64x128, .f32⟩
  | .local _ .vmem, ⟨1, _⟩ => ⟨S256x64x128, .f32⟩
  | .local _ .vmem, ⟨2, _⟩ => ⟨S256x128, .f32⟩
  | .local _ .vmem, ⟨3, _⟩ => ⟨S256x128, .f32⟩
  | .local _ .vmem, ⟨4, _⟩ => ⟨S256x64x128, .f32⟩
  | .local _ .vmem, ⟨5, _⟩ => ⟨S256x64x128, .f32⟩
  | .local _ .vmem, ⟨6, _⟩ => ⟨S256x128, .f32⟩
  | .local _ .vmem, ⟨7, _⟩ => ⟨S256x128, .f32⟩
  | .local _ .vmem, ⟨8, _⟩ => ⟨S256x64x128, .f32⟩
  | .local _ .vmem, ⟨9, _⟩ => ⟨S256x64x128, .f32⟩
  | .local _ .vmem, ⟨10, _⟩ => ⟨S256x128, .f32⟩
  | .local _ .vmem, ⟨11, _⟩ => ⟨S256x128, .f32⟩
  | .local _ .vmem, ⟨12, _⟩ => ⟨S256x64x128, .f32⟩
  | .local _ .vmem, ⟨13, _⟩ => ⟨S256x64x128, .f32⟩
  | .local _ .vmem, ⟨14, _⟩ => ⟨S256x128, .f32⟩
  | .local _ .vmem, ⟨15, _⟩ => ⟨S256x128, .f32⟩
  | .local _ .vmem, ⟨16, _⟩ => ⟨S256x64x128, .f32⟩
  | .local _ .vmem, ⟨17, _⟩ => ⟨S256x64x128, .f32⟩
  | .local _ .vmem, ⟨18, _⟩ => ⟨S256x128, .f32⟩
  | .local _ .vmem, ⟨19, _⟩ => ⟨S256x128, .f32⟩
  | .local _ .vmem, ⟨20, _⟩ => ⟨S256x64x128, .f32⟩
  | .local _ .vmem, ⟨21, _⟩ => ⟨S256x64x128, .f32⟩
  | .local _ .vmem, ⟨22, _⟩ => ⟨S256x128, .f32⟩
  | .local _ .vmem, ⟨23, _⟩ => ⟨S256x128, .f32⟩
  | .local _ .vmem, ⟨24, _⟩ => ⟨S256x64x128, .f32⟩
  | .local _ .vmem, ⟨25, _⟩ => ⟨S256x64x128, .f32⟩
  | .local _ .vmem, ⟨26, _⟩ => ⟨S256x128, .f32⟩
  | .local _ .vmem, ⟨27, _⟩ => ⟨S256x128, .f32⟩
  | .local _ .vmem, ⟨28, _⟩ => ⟨S256x64x128, .f32⟩
  | .local _ .vmem, ⟨29, _⟩ => ⟨S256x64x128, .f32⟩
  | .local _ .vmem, ⟨30, _⟩ => ⟨S256x128, .f32⟩
  | .local _ .vmem, ⟨31, _⟩ => ⟨S256x128, .f32⟩
  | _, _ => ⟨S512x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc7_stg0_0 : Ref sig .tc := ⟨.vmem, 28, rfl⟩
abbrev cc7_stg0_1 : Ref sig .tc := ⟨.vmem, 29, rfl⟩
abbrev cc7_stg1_0 : Ref sig .tc := ⟨.vmem, 30, rfl⟩
abbrev cc7_stg1_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27
abbrev cc7_sem0_0 : DmaSem sig := 28
abbrev cc7_sem0_1 : DmaSem sig := 29
abbrev cc7_sem1_0 : DmaSem sig := 30
abbrev cc7_sem1_1 : DmaSem sig := 31

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 3], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev grid4 : Pipeline.Grid := ⟨2, ![2, 5], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S256x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev grid5 : Pipeline.Grid := ⟨2, ![2, 6], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S256x64x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev grid6 : Pipeline.Grid := ⟨2, ![2, 7], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S256x64x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S256x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev grid7 : Pipeline.Grid := ⟨2, ![2, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S256x64x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S256x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

class Facts₀ : Prop where
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x64x128_S256x64x128_0_0_0 : ∀ a, (![0, 0, 0] : Fin 3 → Nat) a + S256x64x128.size a ≤ S256x64x128.size a
  h_S256x64x128 : 0 < S256x64x128.numel
  reduces_S256x64x128_S256x128 : S256x64x128.Reduces [1] S256x128
  bcast_S512x128_S512x1x128_0_2 : S512x128.BroadcastsInDim S512x1x128 (![0, 2] : Fin 2 → Fin S512x1x128.rank)
  concatenates_S512x1x128_S512x1x128_S512x1x128_S512x1x128_S512x1x128_S512x1x128_S512x1x128_S512x1x128_S512x8x128_d1 : Shape.Concatenates [S512x1x128, S512x1x128, S512x1x128, S512x1x128, S512x1x128, S512x1x128, S512x1x128, S512x1x128] S512x8x128 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S512x64x128.size a
  hwx0_0 : ∀ i : grid0.Coords, EltTy.bits .f32 = 32 ∨ (Rect.block (s := S512x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S512x128.size a
  hwx0_1 : ∀ i : grid0.Coords, EltTy.bits .f32 = 32 ∨ (Rect.block (s := S512x128) S256x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64x128.size a ≤ S512x128x128.size a
  hwx1_0 : ∀ i : grid1.Coords, EltTy.bits .f32 = 32 ∨ (Rect.block (s := S512x128x128) S256x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S512x128.size a
  hwx1_1 : ∀ i : grid1.Coords, EltTy.bits .f32 = 32 ∨ (Rect.block (s := S512x128) S256x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x64x128.size a ≤ S512x192x128.size a
  hwx2_0 : ∀ i : grid2.Coords, EltTy.bits .f32 = 32 ∨ (Rect.block (s := S512x192x128) S256x64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S512x128.size a
  hwx2_1 : ∀ i : grid2.Coords, EltTy.bits .f32 = 32 ∨ (Rect.block (s := S512x128) S256x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x64x128.size a ≤ S512x256x128.size a
  hwx3_0 : ∀ i : grid3.Coords, EltTy.bits .f32 = 32 ∨ (Rect.block (s := S512x256x128) S256x64x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S512x128.size a
  hwx3_1 : ∀ i : grid3.Coords, EltTy.bits .f32 = 32 ∨ (Rect.block (s := S512x128) S256x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x64x128.size a ≤ S512x320x128.size a
  hwx4_0 : ∀ i : grid4.Coords, EltTy.bits .f32 = 32 ∨ (Rect.block (s := S512x320x128) S256x64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S512x128.size a
  hwx4_1 : ∀ i : grid4.Coords, EltTy.bits .f32 = 32 ∨ (Rect.block (s := S512x128) S256x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x64x128.size a ≤ S512x384x128.size a
  hwx5_0 : ∀ i : grid5.Coords, EltTy.bits .f32 = 32 ∨ (Rect.block (s := S512x384x128) S256x64x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S512x128.size a
  hwx5_1 : ∀ i : grid5.Coords, EltTy.bits .f32 = 32 ∨ (Rect.block (s := S512x128) S256x128.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x64x128.size a ≤ S512x448x128.size a
  hwx6_0 : ∀ i : grid6.Coords, EltTy.bits .f32 = 32 ∨ (Rect.block (s := S512x448x128) S256x64x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S512x128.size a
  hwx6_1 : ∀ i : grid6.Coords, EltTy.bits .f32 = 32 ∨ (Rect.block (s := S512x128) S256x128.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x64x128.size a ≤ S512x512x128.size a
  hwx7_0 : ∀ i : grid7.Coords, EltTy.bits .f32 = 32 ∨ (Rect.block (s := S512x512x128) S256x64x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S512x128.size a
  hwx7_1 : ∀ i : grid7.Coords, EltTy.bits .f32 = 32 ∨ (Rect.block (s := S512x128) S256x128.size (cc7_transform_1 i) (hinb7_1 i)).WholeWords (EltTy.packing .f32)

variable [Facts₀]

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S256x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S256x64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S256x64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S256x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_arg4) S256x64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S256x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_arg5) S256x64x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S256x128.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_arg6) S256x64x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S256x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_arg7) S256x64x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v7) S256x128.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S512x64x128 : Shape := ⟨3, ![512, 64, 128]⟩
abbrev S512x128x128 : Shape := ⟨3, ![512, 128, 128]⟩
abbrev S512x192x128 : Shape := ⟨3, ![512, 192, 128]⟩
abbrev S512x256x128 : Shape := ⟨3, ![512, 256, 128]⟩
abbrev S512x320x128 : Shape := ⟨3, ![512, 320, 128]⟩
abbrev S512x384x128 : Shape := ⟨3, ![512, 384, 128]⟩
abbrev S512x448x128 : Shape := ⟨3, ![512, 448, 128]⟩
abbrev S512x512x128 : Shape := ⟨3, ![512, 512, 128]⟩
abbrev S_ : Shape := ⟨0, ![]⟩
abbrev S512x128 : Shape := ⟨2, ![512, 128]⟩
abbrev S512x1x128 : Shape := ⟨3, ![512, 1, 128]⟩
abbrev S512x8x128 : Shape := ⟨3, ![512, 8, 128]⟩

abbrev nBuf : Space → Nat
  | .hbm => 33
  | .vmem => 0
  | .smem => 0
  | _ => 0

abbrev bufTy : (tb : Table) → Fin (tcTables nBuf tb) → BufTy
  | .hbm, ⟨0, _⟩ => ⟨S512x64x128, .f32⟩
  | .hbm, ⟨1, _⟩ => ⟨S512x128x128, .f32⟩
  | .hbm, ⟨2, _⟩ => ⟨S512x192x128, .f32⟩
  | .hbm, ⟨3, _⟩ => ⟨S512x256x128, .f32⟩
  | .hbm, ⟨4, _⟩ => ⟨S512x320x128, .f32⟩
  | .hbm, ⟨5, _⟩ => ⟨S512x384x128, .f32⟩
  | .hbm, ⟨6, _⟩ => ⟨S512x448x128, .f32⟩
  | .hbm, ⟨7, _⟩ => ⟨S512x512x128, .f32⟩
  | .hbm, ⟨8, _⟩ => ⟨S_, .f32⟩
  | .hbm, ⟨9, _⟩ => ⟨S512x128, .f32⟩
  | .hbm, ⟨10, _⟩ => ⟨S512x1x128, .f32⟩
  | .hbm, ⟨11, _⟩ => ⟨S_, .f32⟩
  | .hbm, ⟨12, _⟩ => ⟨S512x128, .f32⟩
  | .hbm, ⟨13, _⟩ => ⟨S512x1x128, .f32⟩
  | .hbm, ⟨14, _⟩ => ⟨S_, .f32⟩
  | .hbm, ⟨15, _⟩ => ⟨S512x128, .f32⟩
  | .hbm, ⟨16, _⟩ => ⟨S512x1x128, .f32⟩
  | .hbm, ⟨17, _⟩ => ⟨S_, .f32⟩
  | .hbm, ⟨18, _⟩ => ⟨S512x128, .f32⟩
  | .hbm, ⟨19, _⟩ => ⟨S512x1x128, .f32⟩
  | .hbm, ⟨20, _⟩ => ⟨S_, .f32⟩
  | .hbm, ⟨21, _⟩ => ⟨S512x128, .f32⟩
  | .hbm, ⟨22, _⟩ => ⟨S512x1x128, .f32⟩
  | .hbm, ⟨23, _⟩ => ⟨S_, .f32⟩
  | .hbm, ⟨24, _⟩ => ⟨S512x128, .f32⟩
  | .hbm, ⟨25, _⟩ => ⟨S512x1x128, .f32⟩
  | .hbm, ⟨26, _⟩ => ⟨S_, .f32⟩
  | .hbm, ⟨27, _⟩ => ⟨S512x128, .f32⟩
  | .hbm, ⟨28, _⟩ => ⟨S512x1x128, .f32⟩
  | .hbm, ⟨29, _⟩ => ⟨S_, .f32⟩
  | .hbm, ⟨30, _⟩ => ⟨S512x128, .f32⟩
  | .hbm, ⟨31, _⟩ => ⟨S512x1x128, .f32⟩
  | .hbm, ⟨32, _⟩ => ⟨S512x8x128, .f32⟩
  | _, _ => ⟨S512x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  reducesTo_S512x64x128_S512x128_d1 : S512x64x128.ReducesTo [1] S512x128
  h_S_ : 0 < S_.numel
  bcast_S512x128_S512x1x128_0_2 : S512x128.BroadcastsInDim S512x1x128 (![0, 2] : Fin 2 → Fin S512x1x128.rank)
  reducesTo_S512x128x128_S512x128_d1 : S512x128x128.ReducesTo [1] S512x128
  reducesTo_S512x192x128_S512x128_d1 : S512x192x128.ReducesTo [1] S512x128
  reducesTo_S512x256x128_S512x128_d1 : S512x256x128.ReducesTo [1] S512x128
  reducesTo_S512x320x128_S512x128_d1 : S512x320x128.ReducesTo [1] S512x128
  reducesTo_S512x384x128_S512x128_d1 : S512x384x128.ReducesTo [1] S512x128
  reducesTo_S512x448x128_S512x128_d1 : S512x448x128.ReducesTo [1] S512x128
  reducesTo_S512x512x128_S512x128_d1 : S512x512x128.ReducesTo [1] S512x128
  concatenates_S512x1x128_S512x1x128_S512x1x128_S512x1x128_S512x1x128_S512x1x128_S512x1x128_S512x1x128_S512x8x128_d1 : Shape.Concatenates [S512x1x128, S512x1x128, S512x1x128, S512x1x128, S512x1x128, S512x1x128, S512x1x128, S512x1x128] S512x8x128 1

variable [Facts₀]

class Facts : Prop extends Facts₀ where

variable [Facts]
-- ==== Proof.KernelRegion0.lean ====
/-
  Pallas call 0 of the program: a kernel over a grid of 2 × 1 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt0`, by recursion on the point), the proof data of the pipeline (`dat0`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose input array is
    `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one condition: the sequence-tile coordinate is zero. -/
abbrev cond0 (i : grid0.Coords) : Prop := (Scalar.cmpi .ne (Scalar.extui (Scalar.cmpi .eq (BitVec.ofNat 32 (i 1).val) 0#32)) 0#32) = 1#1
/-- Over the grid, in row-major order, it holds exactly at the points whose position is a multiple of 1. -/
theorem hcond0 : ∀ t : Fin cfg0.N, cond0 (grid0.coords t) ↔ t.val % 1 = 0 :=
  (by decide +kernel : ∀ t : Fin grid0.N, cond0 (grid0.coords t) ↔ t.val % 1 = 0)

/-- One staging buffer of the output window, through which its contents are stated. -/
abbrev VO0 : View sig .tc .vmem S256x128 .f32 := (Memref.whole cc0_stg1_0 : Memref sig .tc .vmem S256x128 .f32).view
/-- Each window's current staging memref at point `t`, as the pipeline passes it, and its wholeness. -/
abbrev ms0_0 (t : Fin cfg0.N) : Memref sig .tc .vmem S256x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sum_kernel i arg2 harg2 arg3 harg3) K } := by
  refine ⟨?_, fun E K => ?run⟩
  case run =>
    simp only [cc0__sum_kernel_eq_skeleton]; unfold cc0__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sum_kernel i arg2 harg2 arg3 harg3) K } := by
  refine ⟨?_, fun E K => ?run⟩
  case run =>
    simp only [cc0__sum_kernel_eq_skeleton]; unfold cc0__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) (y : S256x128.Idx) :
    ∃ pc ∈ (kernelRun0_A c i arg2 harg2 arg3 harg3 hc0 x0).1, y ∈ pc.1.set :=
  View.cover_of_tiledL (kernelRun0_A c i arg2 harg2 arg3 harg3 hc0 x0).1 S256x128.size (by sl_kernel_rfl) y

/-- The output block after a point where the condition holds. -/
def out0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) : Vec F S256x128 .f32 :=
  VO0.read (Elt F) (VO0.writes (Elt F) VO0.junk (kernelRun0_A c i arg2 harg2 arg3 harg3 hc0 x0).1)

/-- The piece stored where the condition fails covers the output block. -/
theorem cover0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) (y : S256x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S256x128.size (by sl_kernel_rfl) y

/-- The output block after a point where the condition fails, from its contents before the point. -/
def out0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) : Vec F S256x128 .f32 :=
  VO0.read (Elt F) (VO0.writes (Elt F) VO0.junk (kernelRun0_B c i arg2 harg2 arg3 harg3 hc0 x0 xo1).1)

/-! ## The running sum, point by point -/

/-- What the output's staging buffer holds after the body at position `n` of the grid: restarted where `n` is a multiple
    of 1, and otherwise continued from what position `n - 1` left. -/
def outsAt0 (c : Dev nD) : (n : ℕ) → n < cfg0.N → Vec F S256x128 .f32
  | 0, hn => out0_A c (grid0.coords ⟨0, hn⟩) (ms0_0 ⟨0, hn⟩) (hs0_0 ⟨0, hn⟩) (ms0_1 ⟨0, hn⟩) (hs0_1 ⟨0, hn⟩) ((hcond0 ⟨0, hn⟩).mpr (Nat.zero_mod _)) (iblk0 V c 0 ⟨0, hn⟩)
  | n + 1, hn =>
    if h0 : (n + 1) % 1 = 0 then
      out0_A c (grid0.coords ⟨n + 1, hn⟩) (ms0_0 ⟨n + 1, hn⟩) (hs0_0 ⟨n + 1, hn⟩) (ms0_1 ⟨n + 1, hn⟩) (hs0_1 ⟨n + 1, hn⟩) ((hcond0 ⟨n + 1, hn⟩).mpr h0) (iblk0 V c 0 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0 ⟨n + 1, hn⟩).mp h)) (iblk0 V c 0 ⟨n + 1, hn⟩) (outsAt0 c n (Nat.lt_of_succ_lt hn))

theorem outsAt0_A (c : Dev nD) (t : Fin cfg0.N) (h0 : t.val % 1 = 0) :
    outsAt0 V c t.val t.isLt = out0_A c (grid0.coords t) (ms0_0 t) (hs0_0 t) (ms0_1 t) (hs0_1 t) ((hcond0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 1 = 0) :
    outsAt0 V c t.val t.isLt = out0_B c (grid0.coords t) (ms0_0 t) (hs0_0 t) (ms0_1 t) (hs0_1 t) (fun h => h0 ((hcond0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a point that does not restart the sum the output's staging buffer holds what the point before left: that point
    did not write the block back. -/
theorem before0_1_B (c : Dev nD) (t : Fin cfg0.N) (h0 : ¬t.val % 1 = 0) (d) :
    (dat0 V c).before 1 t d = (outsAt0 V c (t.val - 1) (Nat.lt_of_le_of_lt (Nat.sub_le _ _) t.isLt)) := by
  exact absurd (Nat.mod_one _) h0

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the position says which run applies, and where the sum
    continues the output's memref holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 2 := lt_of_lt_of_eq t.isLt (show cfg0.N = 2 from N_0)
  by_cases h0 : t.val % 1 = 0
  · rw [outsAt0_A V c t h0]
    unfold out0_A
    iintro ⟨HΦ, Ho, ⟨%d0, H0⟩, ⟨%d1, H1⟩⟩
    iapply ((kernelRun0_A c (grid0.coords t) _ _ _ _ ((hcond0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A c _ _ _ _ _ _ _)
  · rw [outsAt0_B V c t h0]
    simp only [before0_1_B V c t h0]
    unfold out0_B
    iintro ⟨HΦ, Ho, ⟨%d0, H0⟩, ⟨%d1, H1⟩⟩
    iapply ((kernelRun0_B c (grid0.coords t) _ _ _ _ (fun h => h0 ((hcond0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B c _ _ _ _ _ _ _ _)

/-- The obligation the pipelined launch asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/-
  Pallas call 1 of the program: a kernel over a grid of 2 × 2 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt1`, by recursion on the point), the proof data of the pipeline (`dat1`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose input array is
    `V`'s and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one condition: the sequence-tile coordinate is zero. -/
abbrev cond1 (i : grid1.Coords) : Prop := (Scalar.cmpi .ne (Scalar.extui (Scalar.cmpi .eq (BitVec.ofNat 32 (i 1).val) 0#32)) 0#32) = 1#1
/-- Over the grid, in row-major order, it holds exactly at the points whose position is a multiple of 2. -/
theorem hcond1 : ∀ t : Fin cfg1.N, cond1 (grid1.coords t) ↔ t.val % 2 = 0 :=
  (by decide +kernel : ∀ t : Fin grid1.N, cond1 (grid1.coords t) ↔ t.val % 2 = 0)

/-- One staging buffer of the output window, through which its contents are stated. -/
abbrev VO1 : View sig .tc .vmem S256x128 .f32 := (Memref.whole cc1_stg1_0 : Memref sig .tc .vmem S256x128 .f32).view
/-- Each window's current staging memref at point `t`, as the pipeline passes it, and its wholeness. -/
abbrev ms1_0 (t : Fin cfg1.N) : Memref sig .tc .vmem S256x64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__sum_kernel i arg2 harg2 arg3 harg3) K } := by
  refine ⟨?_, fun E K => ?run⟩
  case run =>
    simp only [cc1__sum_kernel_eq_skeleton]; unfold cc1__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__sum_kernel i arg2 harg2 arg3 harg3) K } := by
  refine ⟨?_, fun E K => ?run⟩
  case run =>
    simp only [cc1__sum_kernel_eq_skeleton]; unfold cc1__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) (y : S256x128.Idx) :
    ∃ pc ∈ (kernelRun1_A c i arg2 harg2 arg3 harg3 hc0 x0).1, y ∈ pc.1.set :=
  View.cover_of_tiledL (kernelRun1_A c i arg2 harg2 arg3 harg3 hc0 x0).1 S256x128.size (by sl_kernel_rfl) y

/-- The output block after a point where the condition holds. -/
def out1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) : Vec F S256x128 .f32 :=
  VO1.read (Elt F) (VO1.writes (Elt F) VO1.junk (kernelRun1_A c i arg2 harg2 arg3 harg3 hc0 x0).1)

/-- The piece stored where the condition fails covers the output block. -/
theorem cover1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) (y : S256x128.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S256x128.size (by sl_kernel_rfl) y

/-- The output block after a point where the condition fails, from its contents before the point. -/
def out1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) : Vec F S256x128 .f32 :=
  VO1.read (Elt F) (VO1.writes (Elt F) VO1.junk (kernelRun1_B c i arg2 harg2 arg3 harg3 hc0 x0 xo1).1)

/-! ## The running sum, point by point -/

/-- What the output's staging buffer holds after the body at position `n` of the grid: restarted where `n` is a multiple
    of 2, and otherwise continued from what position `n - 1` left. -/
def outsAt1 (c : Dev nD) : (n : ℕ) → n < cfg1.N → Vec F S256x128 .f32
  | 0, hn => out1_A c (grid1.coords ⟨0, hn⟩) (ms1_0 ⟨0, hn⟩) (hs1_0 ⟨0, hn⟩) (ms1_1 ⟨0, hn⟩) (hs1_1 ⟨0, hn⟩) ((hcond1 ⟨0, hn⟩).mpr (Nat.zero_mod _)) (iblk1 V c 0 ⟨0, hn⟩)
  | n + 1, hn =>
    if h0 : (n + 1) % 2 = 0 then
      out1_A c (grid1.coords ⟨n + 1, hn⟩) (ms1_0 ⟨n + 1, hn⟩) (hs1_0 ⟨n + 1, hn⟩) (ms1_1 ⟨n + 1, hn⟩) (hs1_1 ⟨n + 1, hn⟩) ((hcond1 ⟨n + 1, hn⟩).mpr h0) (iblk1 V c 0 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1 ⟨n + 1, hn⟩).mp h)) (iblk1 V c 0 ⟨n + 1, hn⟩) (outsAt1 c n (Nat.lt_of_succ_lt hn))

theorem outsAt1_A (c : Dev nD) (t : Fin cfg1.N) (h0 : t.val % 2 = 0) :
    outsAt1 V c t.val t.isLt = out1_A c (grid1.coords t) (ms1_0 t) (hs1_0 t) (ms1_1 t) (hs1_1 t) ((hcond1 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = out1_B c (grid1.coords t) (ms1_0 t) (hs1_0 t) (ms1_1 t) (hs1_1 t) (fun h => h0 ((hcond1 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-- At a point that does not restart the sum the output's staging buffer holds what the point before left: that point
    did not write the block back. -/
theorem before1_1_B (c : Dev nD) (t : Fin cfg1.N) (h0 : ¬t.val % 2 = 0) (d) :
    (dat1 V c).before 1 t d = (outsAt1 V c (t.val - 1) (Nat.lt_of_le_of_lt (Nat.sub_le _ _) t.isLt)) := by
  have hN : t.val < 4 := lt_of_lt_of_eq t.isLt (show cfg1.N = 4 from N_1)
  rw [Dat.before_out_kept _ 1 rfl t (by omega) (Bool.eq_false_iff.mpr fun h => by have := (flush1_1 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
/-- The body at any point: the input's memref holds its block; the position says which run applies, and where the sum
    continues the output's memref holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 4 := lt_of_lt_of_eq t.isLt (show cfg1.N = 4 from N_1)
  by_cases h0 : t.val % 2 = 0
  · rw [outsAt1_A V c t h0]
    unfold out1_A
    iintro ⟨HΦ, Ho, ⟨%d0, H0⟩, ⟨%d1, H1⟩⟩
    iapply ((kernelRun1_A c (grid1.coords t) _ _ _ _ ((hcond1 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A c _ _ _ _ _ _ _)
  · rw [outsAt1_B V c t h0]
    simp only [before1_1_B V c t h0]
    unfold out1_B
    iintro ⟨HΦ, Ho, ⟨%d0, H0⟩, ⟨%d1, H1⟩⟩
    iapply ((kernelRun1_B c (grid1.coords t) _ _ _ _ (fun h => h0 ((hcond1 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B c _ _ _ _ _ _ _ _)

/-- The obligation the pipelined launch asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRegion2.lean ====
/-
  Pallas call 2 of the program: a kernel over a grid of 2 × 3 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt2`, by recursion on the point), the proof data of the pipeline (`dat2`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose input array is
    `V`'s and whose body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's one condition: the sequence-tile coordinate is zero. -/
abbrev cond2 (i : grid2.Coords) : Prop := (Scalar.cmpi .ne (Scalar.extui (Scalar.cmpi .eq (BitVec.ofNat 32 (i 1).val) 0#32)) 0#32) = 1#1
/-- Over the grid, in row-major order, it holds exactly at the points whose position is a multiple of 3. -/
theorem hcond2 : ∀ t : Fin cfg2.N, cond2 (grid2.coords t) ↔ t.val % 3 = 0 :=
  (by decide +kernel : ∀ t : Fin grid2.N, cond2 (grid2.coords t) ↔ t.val % 3 = 0)

/-- One staging buffer of the output window, through which its contents are stated. -/
abbrev VO2 : View sig .tc .vmem S256x128 .f32 := (Memref.whole cc2_stg1_0 : Memref sig .tc .vmem S256x128 .f32).view
/-- Each window's current staging memref at point `t`, as the pipeline passes it, and its wholeness. -/
abbrev ms2_0 (t : Fin cfg2.N) : Memref sig .tc .vmem S256x64x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__sum_kernel i arg2 harg2 arg3 harg3) K } := by
  refine ⟨?_, fun E K => ?run⟩
  case run =>
    simp only [cc2__sum_kernel_eq_skeleton]; unfold cc2__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__sum_kernel i arg2 harg2 arg3 harg3) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) (y : S256x128.Idx) :
    ∃ pc ∈ (kernelRun2_A c i arg2 harg2 arg3 harg3 hc0 x0).1, y ∈ pc.1.set :=
  View.cover_of_tiledL (kernelRun2_A c i arg2 harg2 arg3 harg3 hc0 x0).1 S256x128.size (by sl_kernel_rfl) y

/-- The output block after a point where the condition holds. -/
def out2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) : Vec F S256x128 .f32 :=
  VO2.read (Elt F) (VO2.writes (Elt F) VO2.junk (kernelRun2_A c i arg2 harg2 arg3 harg3 hc0 x0).1)

/-- The piece stored where the condition fails covers the output block. -/
theorem cover2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) (y : S256x128.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S256x128.size (by sl_kernel_rfl) y

/-- The output block after a point where the condition fails, from its contents before the point. -/
def out2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) : Vec F S256x128 .f32 :=
  VO2.read (Elt F) (VO2.writes (Elt F) VO2.junk (kernelRun2_B c i arg2 harg2 arg3 harg3 hc0 x0 xo1).1)

/-! ## The running sum, point by point -/

/-- What the output's staging buffer holds after the body at position `n` of the grid: restarted where `n` is a multiple
    of 3, and otherwise continued from what position `n - 1` left. -/
def outsAt2 (c : Dev nD) : (n : ℕ) → n < cfg2.N → Vec F S256x128 .f32
  | 0, hn => out2_A c (grid2.coords ⟨0, hn⟩) (ms2_0 ⟨0, hn⟩) (hs2_0 ⟨0, hn⟩) (ms2_1 ⟨0, hn⟩) (hs2_1 ⟨0, hn⟩) ((hcond2 ⟨0, hn⟩).mpr (Nat.zero_mod _)) (iblk2 V c 0 ⟨0, hn⟩)
  | n + 1, hn =>
    if h0 : (n + 1) % 3 = 0 then
      out2_A c (grid2.coords ⟨n + 1, hn⟩) (ms2_0 ⟨n + 1, hn⟩) (hs2_0 ⟨n + 1, hn⟩) (ms2_1 ⟨n + 1, hn⟩) (hs2_1 ⟨n + 1, hn⟩) ((hcond2 ⟨n + 1, hn⟩).mpr h0) (iblk2 V c 0 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2 ⟨n + 1, hn⟩).mp h)) (iblk2 V c 0 ⟨n + 1, hn⟩) (outsAt2 c n (Nat.lt_of_succ_lt hn))

theorem outsAt2_A (c : Dev nD) (t : Fin cfg2.N) (h0 : t.val % 3 = 0) :
    outsAt2 V c t.val t.isLt = out2_A c (grid2.coords t) (ms2_0 t) (hs2_0 t) (ms2_1 t) (hs2_1 t) ((hcond2 t).mpr h0) (iblk2 V c 0 t) := by
  obtain ⟨n, hn⟩ := t
  cases n with
  | zero => exact rfl
  | succ n => exact (dif_pos h0).trans rfl

theorem outsAt2_B (c : Dev nD) (t : Fin cfg2.N) (h0 : ¬t.val % 3 = 0) :
    outsAt2 V c t.val t.isLt = out2_B c (grid2.coords t) (ms2_0 t) (hs2_0 t) (ms2_1 t) (hs2_1 t) (fun h => h0 ((hcond2 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d

/-- At a point that does not restart the sum the output's staging buffer holds what the point before left: that point
    did not write the block back. -/
theorem before2_1_B (c : Dev nD) (t : Fin cfg2.N) (h0 : ¬t.val % 3 = 0) (d) :
    (dat2 V c).before 1 t d = (outsAt2 V c (t.val - 1) (Nat.lt_of_le_of_lt (Nat.sub_le _ _) t.isLt)) := by
  have hN : t.val < 6 := lt_of_lt_of_eq t.isLt (show cfg2.N = 6 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
/-- The body at any point: the input's memref holds its block; the position says which run applies, and where the sum
    continues the output's memref holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 6 := lt_of_lt_of_eq t.isLt (show cfg2.N = 6 from N_2)
  by_cases h0 : t.val % 3 = 0
  · rw [outsAt2_A V c t h0]
    unfold out2_A
    iintro ⟨HΦ, Ho, ⟨%d0, H0⟩, ⟨%d1, H1⟩⟩
    iapply ((kernelRun2_A c (grid2.coords t) _ _ _ _ ((hcond2 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A c _ _ _ _ _ _ _)
  · rw [outsAt2_B V c t h0]
    simp only [before2_1_B V c t h0]
    unfold out2_B
    iintro ⟨HΦ, Ho, ⟨%d0, H0⟩, ⟨%d1, H1⟩⟩
    iapply ((kernelRun2_B c (grid2.coords t) _ _ _ _ (fun h => h0 ((hcond2 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B c _ _ _ _ _ _ _ _)

/-- The obligation the pipelined launch asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRegion3.lean ====
/-
  Pallas call 3 of the program: a kernel over a grid of 2 × 4 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt3`, by recursion on the point), the proof data of the pipeline (`dat3`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose input array is
    `V`'s and whose body leaves the input block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The reset condition -/

/-- The body's one condition: the sequence-tile coordinate is zero. -/
abbrev cond3 (i : grid3.Coords) : Prop := (Scalar.cmpi .ne (Scalar.extui (Scalar.cmpi .eq (BitVec.ofNat 32 (i 1).val) 0#32)) 0#32) = 1#1
/-- Over the grid, in row-major order, it holds exactly at the points whose position is a multiple of 4. -/
theorem hcond3 : ∀ t : Fin cfg3.N, cond3 (grid3.coords t) ↔ t.val % 4 = 0 :=
  (by decide +kernel : ∀ t : Fin grid3.N, cond3 (grid3.coords t) ↔ t.val % 4 = 0)

/-- One staging buffer of the output window, through which its contents are stated. -/
abbrev VO3 : View sig .tc .vmem S256x128 .f32 := (Memref.whole cc3_stg1_0 : Memref sig .tc .vmem S256x128 .f32).view
/-- Each window's current staging memref at point `t`, as the pipeline passes it, and its wholeness. -/
abbrev ms3_0 (t : Fin cfg3.N) : Memref sig .tc .vmem S256x64x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x128 .f32 := win3_1.stage (cfg3.slots t 1)
abbrev hs3_1 (t : Fin cfg3.N) : (ms3_1 t).IsWhole := hstage3_1 ((cfg3.slots t 1).cast nbuf3_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc3__sum_kernel i arg2 harg2 arg3 harg3) K } := by
  refine ⟨?_, fun E K => ?run⟩
  case run =>
    simp only [cc3__sum_kernel_eq_skeleton]; unfold cc3__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc3__sum_kernel i arg2 harg2 arg3 harg3) K } := by
  refine ⟨?_, fun E K => ?run⟩
  case run =>
    simp only [cc3__sum_kernel_eq_skeleton]; unfold cc3__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) (y : S256x128.Idx) :
    ∃ pc ∈ (kernelRun3_A c i arg2 harg2 arg3 harg3 hc0 x0).1, y ∈ pc.1.set :=
  View.cover_of_tiledL (kernelRun3_A c i arg2 harg2 arg3 harg3 hc0 x0).1 S256x128.size (by sl_kernel_rfl) y

/-- The output block after a point where the condition holds. -/
def out3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) : Vec F S256x128 .f32 :=
  VO3.read (Elt F) (VO3.writes (Elt F) VO3.junk (kernelRun3_A c i arg2 harg2 arg3 harg3 hc0 x0).1)

/-- The piece stored where the condition fails covers the output block. -/
theorem cover3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) (y : S256x128.Idx) :
    ∃ pc ∈ (kernelRun3_B c i arg2 harg2 arg3 harg3 hc0 x0 xo1).1, y ∈ pc.1.set :=
  View.cover_of_tiledL (kernelRun3_B c i arg2 harg2 arg3 harg3 hc0 x0 xo1).1 S256x128.size (by sl_kernel_rfl) y

/-- The output block after a point where the condition fails, from its contents before the point. -/
def out3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) : Vec F S256x128 .f32 :=
  VO3.read (Elt F) (VO3.writes (Elt F) VO3.junk (kernelRun3_B c i arg2 harg2 arg3 harg3 hc0 x0 xo1).1)

/-! ## The running sum, point by point -/

/-- What the output's staging buffer holds after the body at position `n` of the grid: restarted where `n` is a multiple
    of 4, and otherwise continued from what position `n - 1` left. -/
def outsAt3 (c : Dev nD) : (n : ℕ) → n < cfg3.N → Vec F S256x128 .f32
  | 0, hn => out3_A c (grid3.coords ⟨0, hn⟩) (ms3_0 ⟨0, hn⟩) (hs3_0 ⟨0, hn⟩) (ms3_1 ⟨0, hn⟩) (hs3_1 ⟨0, hn⟩) ((hcond3 ⟨0, hn⟩).mpr (Nat.zero_mod _)) (iblk3 V c 0 ⟨0, hn⟩)
  | n + 1, hn =>
    if h0 : (n + 1) % 4 = 0 then
      out3_A c (grid3.coords ⟨n + 1, hn⟩) (ms3_0 ⟨n + 1, hn⟩) (hs3_0 ⟨n + 1, hn⟩) (ms3_1 ⟨n + 1, hn⟩) (hs3_1 ⟨n + 1, hn⟩) ((hcond3 ⟨n + 1, hn⟩).mpr h0) (iblk3 V c 0 ⟨n + 1, hn⟩)
    else
      out3_B c (grid3.coords ⟨n + 1, hn⟩) (ms3_0 ⟨n + 1, hn⟩) (hs3_0 ⟨n + 1, hn⟩) (ms3_1 ⟨n + 1, hn⟩) (hs3_1 ⟨n + 1, hn⟩) (fun h => h0 ((hcond3 ⟨n + 1, hn⟩).mp h)) (iblk3 V c 0 ⟨n + 1, hn⟩) (outsAt3 c n (Nat.lt_of_succ_lt hn))

theorem outsAt3_A (c : Dev nD) (t : Fin cfg3.N) (h0 : t.val % 4 = 0) :
    outsAt3 V c t.val t.isLt = out3_A c (grid3.coords t) (ms3_0 t) (hs3_0 t) (ms3_1 t) (hs3_1 t) ((hcond3 t).mpr h0) (iblk3 V c 0 t) := by
  obtain ⟨n, hn⟩ := t
  cases n with
  | zero => exact rfl
  | succ n => exact (dif_pos h0).trans rfl

theorem outsAt3_B (c : Dev nD) (t : Fin cfg3.N) (h0 : ¬t.val % 4 = 0) :
    outsAt3 V c t.val t.isLt = out3_B c (grid3.coords t) (ms3_0 t) (hs3_0 t) (ms3_1 t) (hs3_1 t) (fun h => h0 ((hcond3 t).mp h)) (iblk3 V c 0 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d

/-- At a point that does not restart the sum the output's staging buffer holds what the point before left: that point
    did not write the block back. -/
theorem before3_1_B (c : Dev nD) (t : Fin cfg3.N) (h0 : ¬t.val % 4 = 0) (d) :
    (dat3 V c).before 1 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 1 rfl t (by omega) (Bool.eq_false_iff.mpr fun h => by have := (flush3_1 _).mp h; dsimp only at this; omega)
    (fun _ => rfl) (fun _ _ => rfl)]
  dsimp only [dat3]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t))

set_option maxHeartbeats 800000 in
/-- The body at any point: the input's memref holds its block; the position says which run applies, and where the sum
    continues the output's memref holds what the point before left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  have hN : t.val < 8 := lt_of_lt_of_eq t.isLt (show cfg3.N = 8 from N_3)
  by_cases h0 : t.val % 4 = 0
  · rw [outsAt3_A V c t h0]
    unfold out3_A
    iintro ⟨HΦ, Ho, ⟨%d0, H0⟩, ⟨%d1, H1⟩⟩
    iapply ((kernelRun3_A c (grid3.coords t) _ _ _ _ ((hcond3 t).mpr h0) (iblk3 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_A c _ _ _ _ _ _ _)
  · rw [outsAt3_B V c t h0]
    simp only [before3_1_B V c t h0]
    unfold out3_B
    iintro ⟨HΦ, Ho, ⟨%d0, H0⟩, ⟨%d1, H1⟩⟩
    iapply ((kernelRun3_B c (grid3.coords t) _ _ _ _ (fun h => h0 ((hcond3 t).mp h)) (iblk3 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_B c _ _ _ _ _ _ _ _)

/-- The obligation the pipelined launch asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KernelRegion4.lean ====
/-
  Pallas call 4 of the program: a kernel over a grid of 2 × 5 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt4`, by recursion on the point), the proof data of the pipeline (`dat4`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose input array is
    `V`'s and whose body leaves the input block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The reset condition -/

/-- The body's one condition: the sequence-tile coordinate is zero. -/
abbrev cond4 (i : grid4.Coords) : Prop := (Scalar.cmpi .ne (Scalar.extui (Scalar.cmpi .eq (BitVec.ofNat 32 (i 1).val) 0#32)) 0#32) = 1#1
/-- Over the grid, in row-major order, it holds exactly at the points whose position is a multiple of 5. -/
theorem hcond4 : ∀ t : Fin cfg4.N, cond4 (grid4.coords t) ↔ t.val % 5 = 0 :=
  (by decide +kernel : ∀ t : Fin grid4.N, cond4 (grid4.coords t) ↔ t.val % 5 = 0)

/-- One staging buffer of the output window, through which its contents are stated. -/
abbrev VO4 : View sig .tc .vmem S256x128 .f32 := (Memref.whole cc4_stg1_0 : Memref sig .tc .vmem S256x128 .f32).view
/-- Each window's current staging memref at point `t`, as the pipeline passes it, and its wholeness. -/
abbrev ms4_0 (t : Fin cfg4.N) : Memref sig .tc .vmem S256x64x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x128 .f32 := win4_1.stage (cfg4.slots t 1)
abbrev hs4_1 (t : Fin cfg4.N) : (ms4_1 t).IsWhole := hstage4_1 ((cfg4.slots t 1).cast nbuf4_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc4__sum_kernel i arg2 harg2 arg3 harg3) K } := by
  refine ⟨?_, fun E K => ?run⟩
  case run =>
    simp only [cc4__sum_kernel_eq_skeleton]; unfold cc4__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc4__sum_kernel i arg2 harg2 arg3 harg3) K } := by
  refine ⟨?_, fun E K => ?run⟩
  case run =>
    simp only [cc4__sum_kernel_eq_skeleton]; unfold cc4__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) (y : S256x128.Idx) :
    ∃ pc ∈ (kernelRun4_A c i arg2 harg2 arg3 harg3 hc0 x0).1, y ∈ pc.1.set :=
  View.cover_of_tiledL (kernelRun4_A c i arg2 harg2 arg3 harg3 hc0 x0).1 S256x128.size (by sl_kernel_rfl) y

/-- The output block after a point where the condition holds. -/
def out4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) : Vec F S256x128 .f32 :=
  VO4.read (Elt F) (VO4.writes (Elt F) VO4.junk (kernelRun4_A c i arg2 harg2 arg3 harg3 hc0 x0).1)

/-- The piece stored where the condition fails covers the output block. -/
theorem cover4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) (y : S256x128.Idx) :
    ∃ pc ∈ (kernelRun4_B c i arg2 harg2 arg3 harg3 hc0 x0 xo1).1, y ∈ pc.1.set :=
  View.cover_of_tiledL (kernelRun4_B c i arg2 harg2 arg3 harg3 hc0 x0 xo1).1 S256x128.size (by sl_kernel_rfl) y

/-- The output block after a point where the condition fails, from its contents before the point. -/
def out4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) : Vec F S256x128 .f32 :=
  VO4.read (Elt F) (VO4.writes (Elt F) VO4.junk (kernelRun4_B c i arg2 harg2 arg3 harg3 hc0 x0 xo1).1)

/-! ## The running sum, point by point -/

/-- What the output's staging buffer holds after the body at position `n` of the grid: restarted where `n` is a multiple
    of 5, and otherwise continued from what position `n - 1` left. -/
def outsAt4 (c : Dev nD) : (n : ℕ) → n < cfg4.N → Vec F S256x128 .f32
  | 0, hn => out4_A c (grid4.coords ⟨0, hn⟩) (ms4_0 ⟨0, hn⟩) (hs4_0 ⟨0, hn⟩) (ms4_1 ⟨0, hn⟩) (hs4_1 ⟨0, hn⟩) ((hcond4 ⟨0, hn⟩).mpr (Nat.zero_mod _)) (iblk4 V c 0 ⟨0, hn⟩)
  | n + 1, hn =>
    if h0 : (n + 1) % 5 = 0 then
      out4_A c (grid4.coords ⟨n + 1, hn⟩) (ms4_0 ⟨n + 1, hn⟩) (hs4_0 ⟨n + 1, hn⟩) (ms4_1 ⟨n + 1, hn⟩) (hs4_1 ⟨n + 1, hn⟩) ((hcond4 ⟨n + 1, hn⟩).mpr h0) (iblk4 V c 0 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (fun h => h0 ((hcond4 ⟨n + 1, hn⟩).mp h)) (iblk4 V c 0 ⟨n + 1, hn⟩) (outsAt4 c n (Nat.lt_of_succ_lt hn))

theorem outsAt4_A (c : Dev nD) (t : Fin cfg4.N) (h0 : t.val % 5 = 0) :
    outsAt4 V c t.val t.isLt = out4_A c (grid4.coords t) (ms4_0 t) (hs4_0 t) (ms4_1 t) (hs4_1 t) ((hcond4 t).mpr h0) (iblk4 V c 0 t) := by
  obtain ⟨n, hn⟩ := t
  cases n with
  | zero => exact rfl
  | succ n => exact (dif_pos h0).trans rfl

theorem outsAt4_B (c : Dev nD) (t : Fin cfg4.N) (h0 : ¬t.val % 5 = 0) :
    outsAt4 V c t.val t.isLt = out4_B c (grid4.coords t) (ms4_0 t) (hs4_0 t) (ms4_1 t) (hs4_1 t) (fun h => h0 ((hcond4 t).mp h)) (iblk4 V c 0 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d

/-- At a point that does not restart the sum the output's staging buffer holds what the point before left: that point
    did not write the block back. -/
theorem before4_1_B (c : Dev nD) (t : Fin cfg4.N) (h0 : ¬t.val % 5 = 0) (d) :
    (dat4 V c).before 1 t d = (outsAt4 V c (t.val - 1) (Nat.lt_of_le_of_lt (Nat.sub_le _ _) t.isLt)) := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
/-- The body at any point: the input's memref holds its block; the position says which run applies, and where the sum
    continues the output's memref holds what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 10 := lt_of_lt_of_eq t.isLt (show cfg4.N = 10 from N_4)
  by_cases h0 : t.val % 5 = 0
  · rw [outsAt4_A V c t h0]
    unfold out4_A
    iintro ⟨HΦ, Ho, ⟨%d0, H0⟩, ⟨%d1, H1⟩⟩
    iapply ((kernelRun4_A c (grid4.coords t) _ _ _ _ ((hcond4 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A c _ _ _ _ _ _ _)
  · rw [outsAt4_B V c t h0]
    simp only [before4_1_B V c t h0]
    unfold out4_B
    iintro ⟨HΦ, Ho, ⟨%d0, H0⟩, ⟨%d1, H1⟩⟩
    iapply ((kernelRun4_B c (grid4.coords t) _ _ _ _ (fun h => h0 ((hcond4 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B c _ _ _ _ _ _ _ _)

/-- The obligation the pipelined launch asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KernelRegion5.lean ====
/-
  Pallas call 5 of the program: a kernel over a grid of 2 × 6 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt5`, by recursion on the point), the proof data of the pipeline (`dat5`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose input array is
    `V`'s and whose body leaves the input block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## The reset condition -/

/-- The body's one condition: the sequence-tile coordinate is zero. -/
abbrev cond5 (i : grid5.Coords) : Prop := (Scalar.cmpi .ne (Scalar.extui (Scalar.cmpi .eq (BitVec.ofNat 32 (i 1).val) 0#32)) 0#32) = 1#1
/-- Over the grid, in row-major order, it holds exactly at the points whose position is a multiple of 6. -/
theorem hcond5 : ∀ t : Fin cfg5.N, cond5 (grid5.coords t) ↔ t.val % 6 = 0 :=
  (by decide +kernel : ∀ t : Fin grid5.N, cond5 (grid5.coords t) ↔ t.val % 6 = 0)

/-- One staging buffer of the output window, through which its contents are stated. -/
abbrev VO5 : View sig .tc .vmem S256x128 .f32 := (Memref.whole cc5_stg1_0 : Memref sig .tc .vmem S256x128 .f32).view
/-- Each window's current staging memref at point `t`, as the pipeline passes it, and its wholeness. -/
abbrev ms5_0 (t : Fin cfg5.N) : Memref sig .tc .vmem S256x64x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x128 .f32 := win5_1.stage (cfg5.slots t 1)
abbrev hs5_1 (t : Fin cfg5.N) : (ms5_1 t).IsWhole := hstage5_1 ((cfg5.slots t 1).cast nbuf5_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc5__sum_kernel i arg2 harg2 arg3 harg3) K } := by
  refine ⟨?_, fun E K => ?run⟩
  case run =>
    simp only [cc5__sum_kernel_eq_skeleton]; unfold cc5__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc5__sum_kernel i arg2 harg2 arg3 harg3) K } := by
  refine ⟨?_, fun E K => ?run⟩
  case run =>
    simp only [cc5__sum_kernel_eq_skeleton]; unfold cc5__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) (y : S256x128.Idx) :
    ∃ pc ∈ (kernelRun5_A c i arg2 harg2 arg3 harg3 hc0 x0).1, y ∈ pc.1.set :=
  View.cover_of_tiledL (kernelRun5_A c i arg2 harg2 arg3 harg3 hc0 x0).1 S256x128.size (by sl_kernel_rfl) y

/-- The output block after a point where the condition holds. -/
def out5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) : Vec F S256x128 .f32 :=
  VO5.read (Elt F) (VO5.writes (Elt F) VO5.junk (kernelRun5_A c i arg2 harg2 arg3 harg3 hc0 x0).1)

/-- The piece stored where the condition fails covers the output block. -/
theorem cover5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) (y : S256x128.Idx) :
    ∃ pc ∈ (kernelRun5_B c i arg2 harg2 arg3 harg3 hc0 x0 xo1).1, y ∈ pc.1.set :=
  View.cover_of_tiledL (kernelRun5_B c i arg2 harg2 arg3 harg3 hc0 x0 xo1).1 S256x128.size (by sl_kernel_rfl) y

/-- The output block after a point where the condition fails, from its contents before the point. -/
def out5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) : Vec F S256x128 .f32 :=
  VO5.read (Elt F) (VO5.writes (Elt F) VO5.junk (kernelRun5_B c i arg2 harg2 arg3 harg3 hc0 x0 xo1).1)

/-! ## The running sum, point by point -/

/-- What the output's staging buffer holds after the body at position `n` of the grid: restarted where `n` is a multiple
    of 6, and otherwise continued from what position `n - 1` left. -/
def outsAt5 (c : Dev nD) : (n : ℕ) → n < cfg5.N → Vec F S256x128 .f32
  | 0, hn => out5_A c (grid5.coords ⟨0, hn⟩) (ms5_0 ⟨0, hn⟩) (hs5_0 ⟨0, hn⟩) (ms5_1 ⟨0, hn⟩) (hs5_1 ⟨0, hn⟩) ((hcond5 ⟨0, hn⟩).mpr (Nat.zero_mod _)) (iblk5 V c 0 ⟨0, hn⟩)
  | n + 1, hn =>
    if h0 : (n + 1) % 6 = 0 then
      out5_A c (grid5.coords ⟨n + 1, hn⟩) (ms5_0 ⟨n + 1, hn⟩) (hs5_0 ⟨n + 1, hn⟩) (ms5_1 ⟨n + 1, hn⟩) (hs5_1 ⟨n + 1, hn⟩) ((hcond5 ⟨n + 1, hn⟩).mpr h0) (iblk5 V c 0 ⟨n + 1, hn⟩)
    else
      out5_B c (grid5.coords ⟨n + 1, hn⟩) (ms5_0 ⟨n + 1, hn⟩) (hs5_0 ⟨n + 1, hn⟩) (ms5_1 ⟨n + 1, hn⟩) (hs5_1 ⟨n + 1, hn⟩) (fun h => h0 ((hcond5 ⟨n + 1, hn⟩).mp h)) (iblk5 V c 0 ⟨n + 1, hn⟩) (outsAt5 c n (Nat.lt_of_succ_lt hn))

theorem outsAt5_A (c : Dev nD) (t : Fin cfg5.N) (h0 : t.val % 6 = 0) :
    outsAt5 V c t.val t.isLt = out5_A c (grid5.coords t) (ms5_0 t) (hs5_0 t) (ms5_1 t) (hs5_1 t) ((hcond5 t).mpr h0) (iblk5 V c 0 t) := by
  obtain ⟨n, hn⟩ := t
  cases n with
  | zero => exact rfl
  | succ n => exact (dif_pos h0).trans rfl

theorem outsAt5_B (c : Dev nD) (t : Fin cfg5.N) (h0 : ¬t.val % 6 = 0) :
    outsAt5 V c t.val t.isLt = out5_B c (grid5.coords t) (ms5_0 t) (hs5_0 t) (ms5_1 t) (hs5_1 t) (fun h => h0 ((hcond5 t).mp h)) (iblk5 V c 0 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d

/-- At a point that does not restart the sum the output's staging buffer holds what the point before left: that point
    did not write the block back. -/
theorem before5_1_B (c : Dev nD) (t : Fin cfg5.N) (h0 : ¬t.val % 6 = 0) (d) :
    (dat5 V c).before 1 t d = (outsAt5 V c (t.val - 1) (Nat.lt_of_le_of_lt (Nat.sub_le _ _) t.isLt)) := by
  have hN : t.val < 12 := lt_of_lt_of_eq t.isLt (show cfg5.N = 12 from N_5)
  rw [Dat.before_out_kept _ 1 rfl t (by omega) (Bool.eq_false_iff.mpr fun h => by have := (flush5_1 _).mp h; dsimp only at this; omega)
    (fun _ => rfl) (fun _ _ => rfl)]
  dsimp only [dat5]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t))

set_option maxHeartbeats 800000 in
/-- The body at any point: the input's memref holds its block; the position says which run applies, and where the sum
    continues the output's memref holds what the point before left. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  have hN : t.val < 12 := lt_of_lt_of_eq t.isLt (show cfg5.N = 12 from N_5)
  by_cases h0 : t.val % 6 = 0
  · rw [outsAt5_A V c t h0]
    unfold out5_A
    iintro ⟨HΦ, Ho, ⟨%d0, H0⟩, ⟨%d1, H1⟩⟩
    iapply ((kernelRun5_A c (grid5.coords t) _ _ _ _ ((hcond5 t).mpr h0) (iblk5 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover5_A c _ _ _ _ _ _ _)
  · rw [outsAt5_B V c t h0]
    simp only [before5_1_B V c t h0]
    unfold out5_B
    iintro ⟨HΦ, Ho, ⟨%d0, H0⟩, ⟨%d1, H1⟩⟩
    iapply ((kernelRun5_B c (grid5.coords t) _ _ _ _ (fun h => h0 ((hcond5 t).mp h)) (iblk5 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover5_B c _ _ _ _ _ _ _ _)

/-- The obligation the pipelined launch asks of the body, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KernelRegion6.lean ====
/-
  Pallas call 6 of the program: a kernel over a grid of 2 × 7 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt6`, by recursion on the point), the proof data of the pipeline (`dat6`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose input array is
    `V`'s and whose body leaves the input block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The reset condition -/

/-- The body's one condition: the sequence-tile coordinate is zero. -/
abbrev cond6 (i : grid6.Coords) : Prop := (Scalar.cmpi .ne (Scalar.extui (Scalar.cmpi .eq (BitVec.ofNat 32 (i 1).val) 0#32)) 0#32) = 1#1
/-- Over the grid, in row-major order, it holds exactly at the points whose position is a multiple of 7. -/
theorem hcond6 : ∀ t : Fin cfg6.N, cond6 (grid6.coords t) ↔ t.val % 7 = 0 :=
  (by decide +kernel : ∀ t : Fin grid6.N, cond6 (grid6.coords t) ↔ t.val % 7 = 0)

/-- One staging buffer of the output window, through which its contents are stated. -/
abbrev VO6 : View sig .tc .vmem S256x128 .f32 := (Memref.whole cc6_stg1_0 : Memref sig .tc .vmem S256x128 .f32).view
/-- Each window's current staging memref at point `t`, as the pipeline passes it, and its wholeness. -/
abbrev ms6_0 (t : Fin cfg6.N) : Memref sig .tc .vmem S256x64x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x128 .f32 := win6_1.stage (cfg6.slots t 1)
abbrev hs6_1 (t : Fin cfg6.N) : (ms6_1 t).IsWhole := hstage6_1 ((cfg6.slots t 1).cast nbuf6_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc6__sum_kernel i arg2 harg2 arg3 harg3) K } := by
  refine ⟨?_, fun E K => ?run⟩
  case run =>
    simp only [cc6__sum_kernel_eq_skeleton]; unfold cc6__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc6__sum_kernel i arg2 harg2 arg3 harg3) K } := by
  refine ⟨?_, fun E K => ?run⟩
  case run =>
    simp only [cc6__sum_kernel_eq_skeleton]; unfold cc6__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) (y : S256x128.Idx) :
    ∃ pc ∈ (kernelRun6_A c i arg2 harg2 arg3 harg3 hc0 x0).1, y ∈ pc.1.set :=
  View.cover_of_tiledL (kernelRun6_A c i arg2 harg2 arg3 harg3 hc0 x0).1 S256x128.size (by sl_kernel_rfl) y

/-- The output block after a point where the condition holds. -/
def out6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) : Vec F S256x128 .f32 :=
  VO6.read (Elt F) (VO6.writes (Elt F) VO6.junk (kernelRun6_A c i arg2 harg2 arg3 harg3 hc0 x0).1)

/-- The piece stored where the condition fails covers the output block. -/
theorem cover6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) (y : S256x128.Idx) :
    ∃ pc ∈ (kernelRun6_B c i arg2 harg2 arg3 harg3 hc0 x0 xo1).1, y ∈ pc.1.set :=
  View.cover_of_tiledL (kernelRun6_B c i arg2 harg2 arg3 harg3 hc0 x0 xo1).1 S256x128.size (by sl_kernel_rfl) y

/-- The output block after a point where the condition fails, from its contents before the point. -/
def out6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) : Vec F S256x128 .f32 :=
  VO6.read (Elt F) (VO6.writes (Elt F) VO6.junk (kernelRun6_B c i arg2 harg2 arg3 harg3 hc0 x0 xo1).1)

/-! ## The running sum, point by point -/

/-- What the output's staging buffer holds after the body at position `n` of the grid: restarted where `n` is a multiple
    of 7, and otherwise continued from what position `n - 1` left. -/
def outsAt6 (c : Dev nD) : (n : ℕ) → n < cfg6.N → Vec F S256x128 .f32
  | 0, hn => out6_A c (grid6.coords ⟨0, hn⟩) (ms6_0 ⟨0, hn⟩) (hs6_0 ⟨0, hn⟩) (ms6_1 ⟨0, hn⟩) (hs6_1 ⟨0, hn⟩) ((hcond6 ⟨0, hn⟩).mpr (Nat.zero_mod _)) (iblk6 V c 0 ⟨0, hn⟩)
  | n + 1, hn =>
    if h0 : (n + 1) % 7 = 0 then
      out6_A c (grid6.coords ⟨n + 1, hn⟩) (ms6_0 ⟨n + 1, hn⟩) (hs6_0 ⟨n + 1, hn⟩) (ms6_1 ⟨n + 1, hn⟩) (hs6_1 ⟨n + 1, hn⟩) ((hcond6 ⟨n + 1, hn⟩).mpr h0) (iblk6 V c 0 ⟨n + 1, hn⟩)
    else
      out6_B c (grid6.coords ⟨n + 1, hn⟩) (ms6_0 ⟨n + 1, hn⟩) (hs6_0 ⟨n + 1, hn⟩) (ms6_1 ⟨n + 1, hn⟩) (hs6_1 ⟨n + 1, hn⟩) (fun h => h0 ((hcond6 ⟨n + 1, hn⟩).mp h)) (iblk6 V c 0 ⟨n + 1, hn⟩) (outsAt6 c n (Nat.lt_of_succ_lt hn))

theorem outsAt6_A (c : Dev nD) (t : Fin cfg6.N) (h0 : t.val % 7 = 0) :
    outsAt6 V c t.val t.isLt = out6_A c (grid6.coords t) (ms6_0 t) (hs6_0 t) (ms6_1 t) (hs6_1 t) ((hcond6 t).mpr h0) (iblk6 V c 0 t) := by
  obtain ⟨n, hn⟩ := t
  cases n with
  | zero => exact rfl
  | succ n => exact (dif_pos h0).trans rfl

theorem outsAt6_B (c : Dev nD) (t : Fin cfg6.N) (h0 : ¬t.val % 7 = 0) :
    outsAt6 V c t.val t.isLt = out6_B c (grid6.coords t) (ms6_0 t) (hs6_0 t) (ms6_1 t) (hs6_1 t) (fun h => h0 ((hcond6 t).mp h)) (iblk6 V c 0 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = (outsAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d

/-- At a point that does not restart the sum the output's staging buffer holds what the point before left: that point
    did not write the block back. -/
theorem before6_1_B (c : Dev nD) (t : Fin cfg6.N) (h0 : ¬t.val % 7 = 0) (d) :
    (dat6 V c).before 1 t d = (outsAt6 V c (t.val - 1) (Nat.lt_of_le_of_lt (Nat.sub_le _ _) t.isLt)) := by
  have hN : t.val < 14 := lt_of_lt_of_eq t.isLt (show cfg6.N = 14 from N_6)
  rw [Dat.before_out_kept _ 1 rfl t (by omega) (Bool.eq_false_iff.mpr fun h => by have := (flush6_1 _).mp h; dsimp only at this; omega)
    (fun _ => rfl) (fun _ _ => rfl)]
  dsimp only [dat6]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t))

set_option maxHeartbeats 800000 in
/-- The body at any point: the input's memref holds its block; the position says which run applies, and where the sum
    continues the output's memref holds what the point before left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  have hN : t.val < 14 := lt_of_lt_of_eq t.isLt (show cfg6.N = 14 from N_6)
  by_cases h0 : t.val % 7 = 0
  · rw [outsAt6_A V c t h0]
    unfold out6_A
    iintro ⟨HΦ, Ho, ⟨%d0, H0⟩, ⟨%d1, H1⟩⟩
    iapply ((kernelRun6_A c (grid6.coords t) _ _ _ _ ((hcond6 t).mpr h0) (iblk6 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover6_A c _ _ _ _ _ _ _)
  · rw [outsAt6_B V c t h0]
    simp only [before6_1_B V c t h0]
    unfold out6_B
    iintro ⟨HΦ, Ho, ⟨%d0, H0⟩, ⟨%d1, H1⟩⟩
    iapply ((kernelRun6_B c (grid6.coords t) _ _ _ _ (fun h => h0 ((hcond6 t).mp h)) (iblk6 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover6_B c _ _ _ _ _ _ _ _)

/-- The obligation the pipelined launch asks of the body, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KernelRegion7.lean ====
/-
  Pallas call 7 of the program: a kernel over a grid of 2 × 8 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt7`, by recursion on the point), the proof data of the pipeline (`dat7`) and the body
  obligation the pipelined launch asks of the body. The body's run is symbolic: one run for the points with l = 0, one for the others.
-/
import proofs.«145553_j48773648613703_2_alg».proof.Proof.Gen.Kernel.Launch
import proofs.«145553_j48773648613703_2_alg».proof.Proof.Gen.Kernel.Skeleton
import proofs.«145553_j48773648613703_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose input array is
    `V`'s and whose body leaves the input block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The reset condition -/

/-- The body's one condition: the sequence-tile coordinate is zero. -/
abbrev cond7 (i : grid7.Coords) : Prop := (Scalar.cmpi .ne (Scalar.extui (Scalar.cmpi .eq (BitVec.ofNat 32 (i 1).val) 0#32)) 0#32) = 1#1
/-- Over the grid, in row-major order, it holds exactly at the points whose position is a multiple of 8. -/
theorem hcond7 : ∀ t : Fin cfg7.N, cond7 (grid7.coords t) ↔ t.val % 8 = 0 :=
  (by decide +kernel : ∀ t : Fin grid7.N, cond7 (grid7.coords t) ↔ t.val % 8 = 0)

/-- One staging buffer of the output window, through which its contents are stated. -/
abbrev VO7 : View sig .tc .vmem S256x128 .f32 := (Memref.whole cc7_stg1_0 : Memref sig .tc .vmem S256x128 .f32).view
/-- Each window's current staging memref at point `t`, as the pipeline passes it, and its wholeness. -/
abbrev ms7_0 (t : Fin cfg7.N) : Memref sig .tc .vmem S256x64x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S256x128 .f32 := win7_1.stage (cfg7.slots t 1)
abbrev hs7_1 (t : Fin cfg7.N) : (ms7_1 t).IsWhole := hstage7_1 ((cfg7.slots t 1).cast nbuf7_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc7__sum_kernel i arg2 harg2 arg3 harg3) K } := by
  refine ⟨?_, fun E K => ?run⟩
  case run =>
    simp only [cc7__sum_kernel_eq_skeleton]; unfold cc7__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc7__sum_kernel i arg2 harg2 arg3 harg3) K } := by
  refine ⟨?_, fun E K => ?run⟩
  case run =>
    simp only [cc7__sum_kernel_eq_skeleton]; unfold cc7__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) (y : S256x128.Idx) :
    ∃ pc ∈ (kernelRun7_A c i arg2 harg2 arg3 harg3 hc0 x0).1, y ∈ pc.1.set :=
  View.cover_of_tiledL (kernelRun7_A c i arg2 harg2 arg3 harg3 hc0 x0).1 S256x128.size (by sl_kernel_rfl) y

/-- The output block after a point where the condition holds. -/
def out7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) : Vec F S256x128 .f32 :=
  VO7.read (Elt F) (VO7.writes (Elt F) VO7.junk (kernelRun7_A c i arg2 harg2 arg3 harg3 hc0 x0).1)

/-- The piece stored where the condition fails covers the output block. -/
theorem cover7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) (y : S256x128.Idx) :
    ∃ pc ∈ (kernelRun7_B c i arg2 harg2 arg3 harg3 hc0 x0 xo1).1, y ∈ pc.1.set :=
  View.cover_of_tiledL (kernelRun7_B c i arg2 harg2 arg3 harg3 hc0 x0 xo1).1 S256x128.size (by sl_kernel_rfl) y

/-- The output block after a point where the condition fails, from its contents before the point. -/
def out7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) : Vec F S256x128 .f32 :=
  VO7.read (Elt F) (VO7.writes (Elt F) VO7.junk (kernelRun7_B c i arg2 harg2 arg3 harg3 hc0 x0 xo1).1)

/-! ## The running sum, point by point -/

/-- What the output's staging buffer holds after the body at position `n` of the grid: restarted where `n` is a multiple
    of 8, and otherwise continued from what position `n - 1` left. -/
def outsAt7 (c : Dev nD) : (n : ℕ) → n < cfg7.N → Vec F S256x128 .f32
  | 0, hn => out7_A c (grid7.coords ⟨0, hn⟩) (ms7_0 ⟨0, hn⟩) (hs7_0 ⟨0, hn⟩) (ms7_1 ⟨0, hn⟩) (hs7_1 ⟨0, hn⟩) ((hcond7 ⟨0, hn⟩).mpr (Nat.zero_mod _)) (iblk7 V c 0 ⟨0, hn⟩)
  | n + 1, hn =>
    if h0 : (n + 1) % 8 = 0 then
      out7_A c (grid7.coords ⟨n + 1, hn⟩) (ms7_0 ⟨n + 1, hn⟩) (hs7_0 ⟨n + 1, hn⟩) (ms7_1 ⟨n + 1, hn⟩) (hs7_1 ⟨n + 1, hn⟩) ((hcond7 ⟨n + 1, hn⟩).mpr h0) (iblk7 V c 0 ⟨n + 1, hn⟩)
    else
      out7_B c (grid7.coords ⟨n + 1, hn⟩) (ms7_0 ⟨n + 1, hn⟩) (hs7_0 ⟨n + 1, hn⟩) (ms7_1 ⟨n + 1, hn⟩) (hs7_1 ⟨n + 1, hn⟩) (fun h => h0 ((hcond7 ⟨n + 1, hn⟩).mp h)) (iblk7 V c 0 ⟨n + 1, hn⟩) (outsAt7 c n (Nat.lt_of_succ_lt hn))

theorem outsAt7_A (c : Dev nD) (t : Fin cfg7.N) (h0 : t.val % 8 = 0) :
    outsAt7 V c t.val t.isLt = out7_A c (grid7.coords t) (ms7_0 t) (hs7_0 t) (ms7_1 t) (hs7_1 t) ((hcond7 t).mpr h0) (iblk7 V c 0 t) := by
  obtain ⟨n, hn⟩ := t
  cases n with
  | zero => exact rfl
  | succ n => exact (dif_pos h0).trans rfl

theorem outsAt7_B (c : Dev nD) (t : Fin cfg7.N) (h0 : ¬t.val % 8 = 0) :
    outsAt7 V c t.val t.isLt = out7_B c (grid7.coords t) (ms7_0 t) (hs7_0 t) (ms7_1 t) (hs7_1 t) (fun h => h0 ((hcond7 t).mp h)) (iblk7 V c 0 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt) := by dsimp only [dat7]

theorem before7_0 (c : Dev nD) (t : Fin cfg7.N) (d) : (dat7 V c).before 0 t d = iblk7 V c 0 t :=
  before7_0_of V (dat7 V c) (A_eq7 V c 0) (after7_0 V c) t d

/-- At a point that does not restart the sum the output's staging buffer holds what the point before left: that point
    did not write the block back. -/
theorem before7_1_B (c : Dev nD) (t : Fin cfg7.N) (h0 : ¬t.val % 8 = 0) (d) :
    (dat7 V c).before 1 t d = (outsAt7 V c (t.val - 1) (Nat.lt_of_le_of_lt (Nat.sub_le _ _) t.isLt)) := by
  have hN : t.val < 16 := lt_of_lt_of_eq t.isLt (show cfg7.N = 16 from N_7)
  rw [Dat.before_out_kept _ 1 rfl t (by omega) (Bool.eq_false_iff.mpr fun h => by have := (flush7_1 _).mp h; dsimp only at this; omega)
    (fun _ => rfl) (fun _ _ => rfl)]
  dsimp only [dat7]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t))

set_option maxHeartbeats 800000 in
/-- The body at any point: the input's memref holds its block; the position says which run applies, and where the sum
    continues the output's memref holds what the point before left. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  have hN : t.val < 16 := lt_of_lt_of_eq t.isLt (show cfg7.N = 16 from N_7)
  by_cases h0 : t.val % 8 = 0
  · rw [outsAt7_A V c t h0]
    unfold out7_A
    iintro ⟨HΦ, Ho, ⟨%d0, H0⟩, ⟨%d1, H1⟩⟩
    iapply ((kernelRun7_A c (grid7.coords t) _ _ _ _ ((hcond7 t).mpr h0) (iblk7 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover7_A c _ _ _ _ _ _ _)
  · rw [outsAt7_B V c t h0]
    simp only [before7_1_B V c t h0]
    unfold out7_B
    iintro ⟨HΦ, Ho, ⟨%d0, H0⟩, ⟨%d1, H1⟩⟩
    iapply ((kernelRun7_B c (grid7.coords t) _ _ _ _ (fun h => h0 ((hcond7 t).mp h)) (iblk7 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover7_B c _ _ _ _ _ _ _ _)

/-- The obligation the pipelined launch asks of the body, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KernelRun.lean ====
/-
  The whole program as nine segments: the eight pallas calls, in order, then the host operations that give each call's
  [512, 128] result a unit middle axis and lay the eight results side by side along it.

  Between two segments every unscoped buffer of the device is held whole at known contents: at launch the launch memory;
  after call k the contents before it with call k's arrays replaced by what its pipeline leaves (the input as entered,
  the output after all its write-backs); after the host operations their composed effect. Beside the buffers ride the
  generator register (at some state) and the fact that the core owes nothing. The run's post reads every unscoped buffer of
  the final state off the last contents; the frame claim and the result's value are read from it.
-/
import proofs.«145553_j48773648613703_2_alg».proof.Proof.Gen.Kernel.Regions
import proofs.«145553_j48773648613703_2_alg».proof.Proof.KernelRegion0
import proofs.«145553_j48773648613703_2_alg».proof.Proof.KernelRegion1
import proofs.«145553_j48773648613703_2_alg».proof.Proof.KernelRegion2
import proofs.«145553_j48773648613703_2_alg».proof.Proof.KernelRegion3
import proofs.«145553_j48773648613703_2_alg».proof.Proof.KernelRegion4
import proofs.«145553_j48773648613703_2_alg».proof.Proof.KernelRegion5
import proofs.«145553_j48773648613703_2_alg».proof.Proof.KernelRegion6
import proofs.«145553_j48773648613703_2_alg».proof.Proof.KernelRegion7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev E0 : Dev nD → Valuation τ sig (Elt F) := fun c b => (s₀ m ρ).mem ((c : Dev nD), b)
abbrev VE0 : (c : Dev nD) → (b : Ref sig .tc) → Buf (Elt F) ((c : Thread nD τ).loc b) := fun c b => E0 m ρ c b

/-- After call 0: its arrays at what its pipeline leaves, every other buffer as before it. -/
def E1 (c : Dev nD) : Valuation τ sig (Elt F) :=
  Pipeline.withArrays spec0 c (E0 m ρ c) fun w => (dat0 (VE0 m ρ) c).arrAt w cfg0.N
theorem E1_arr (c : Dev nD) (w : Fin cfg0.W) :
    E1 m ρ c (Proc.devRef .tc (Pipeline.arrRef spec0 w)) = (dat0 (VE0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev VE1 : (c : Dev nD) → (b : Ref sig .tc) → Buf (Elt F) ((c : Thread nD τ).loc b) := fun c b => E1 m ρ c b
theorem hF0 (c : Dev nD) (w : Fin cfg0.W) : (dat0 (VE0 m ρ) c).arrAt w cfg0.N = VE1 m ρ c (Pipeline.arrRef spec0 w) :=
  (E1_arr m ρ c w).symm
theorem hrest0 (c : Dev nD) : ∀ b, b ∉ Finset.univ.image (Pipeline.arrRef spec0) → VE1 m ρ c b = VE0 m ρ c b :=
  fun b hb => E1_of_ne m ρ c b fun w e => hb (Finset.mem_image.mpr ⟨w, Finset.mem_univ _, e⟩)

/-- After call 1: its arrays at what its pipeline leaves, every other buffer as before it. -/
def E2 (c : Dev nD) : Valuation τ sig (Elt F) :=
  Pipeline.withArrays spec1 c (E1 m ρ c) fun w => (dat1 (VE1 m ρ) c).arrAt w cfg1.N
theorem E2_arr (c : Dev nD) (w : Fin cfg1.W) :
    E2 m ρ c (Proc.devRef .tc (Pipeline.arrRef spec1 w)) = (dat1 (VE1 m ρ) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb
abbrev VE2 : (c : Dev nD) → (b : Ref sig .tc) → Buf (Elt F) ((c : Thread nD τ).loc b) := fun c b => E2 m ρ c b
theorem hF1 (c : Dev nD) (w : Fin cfg1.W) : (dat1 (VE1 m ρ) c).arrAt w cfg1.N = VE2 m ρ c (Pipeline.arrRef spec1 w) :=
  (E2_arr m ρ c w).symm
theorem hrest1 (c : Dev nD) : ∀ b, b ∉ Finset.univ.image (Pipeline.arrRef spec1) → VE2 m ρ c b = VE1 m ρ c b :=
  fun b hb => E2_of_ne m ρ c b fun w e => hb (Finset.mem_image.mpr ⟨w, Finset.mem_univ _, e⟩)

/-- After call 2: its arrays at what its pipeline leaves, every other buffer as before it. -/
def E3 (c : Dev nD) : Valuation τ sig (Elt F) :=
  Pipeline.withArrays spec2 c (E2 m ρ c) fun w => (dat2 (VE2 m ρ) c).arrAt w cfg2.N
theorem E3_arr (c : Dev nD) (w : Fin cfg2.W) :
    E3 m ρ c (Proc.devRef .tc (Pipeline.arrRef spec2 w)) = (dat2 (VE2 m ρ) c).arrAt w cfg2.N := by
  unfold E3; exact Pipeline.withArrays_arr spec2 launch2.win.arr_inj c _ _ w
theorem E3_of_ne (c : Dev nD) (b : Ref sig .tc) (hb : ∀ w, Pipeline.arrRef spec2 w ≠ b) :
    E3 m ρ c (Proc.devRef .tc b) = E2 m ρ c (Proc.devRef .tc b) := by
  unfold E3; exact Pipeline.withArrays_of_ne spec2 c _ _ b hb
abbrev VE3 : (c : Dev nD) → (b : Ref sig .tc) → Buf (Elt F) ((c : Thread nD τ).loc b) := fun c b => E3 m ρ c b
theorem hF2 (c : Dev nD) (w : Fin cfg2.W) : (dat2 (VE2 m ρ) c).arrAt w cfg2.N = VE3 m ρ c (Pipeline.arrRef spec2 w) :=
  (E3_arr m ρ c w).symm
theorem hrest2 (c : Dev nD) : ∀ b, b ∉ Finset.univ.image (Pipeline.arrRef spec2) → VE3 m ρ c b = VE2 m ρ c b :=
  fun b hb => E3_of_ne m ρ c b fun w e => hb (Finset.mem_image.mpr ⟨w, Finset.mem_univ _, e⟩)

/-- After call 3: its arrays at what its pipeline leaves, every other buffer as before it. -/
def E4 (c : Dev nD) : Valuation τ sig (Elt F) :=
  Pipeline.withArrays spec3 c (E3 m ρ c) fun w => (dat3 (VE3 m ρ) c).arrAt w cfg3.N
theorem E4_arr (c : Dev nD) (w : Fin cfg3.W) :
    E4 m ρ c (Proc.devRef .tc (Pipeline.arrRef spec3 w)) = (dat3 (VE3 m ρ) c).arrAt w cfg3.N := by
  unfold E4; exact Pipeline.withArrays_arr spec3 launch3.win.arr_inj c _ _ w
theorem E4_of_ne (c : Dev nD) (b : Ref sig .tc) (hb : ∀ w, Pipeline.arrRef spec3 w ≠ b) :
    E4 m ρ c (Proc.devRef .tc b) = E3 m ρ c (Proc.devRef .tc b) := by
  unfold E4; exact Pipeline.withArrays_of_ne spec3 c _ _ b hb
abbrev VE4 : (c : Dev nD) → (b : Ref sig .tc) → Buf (Elt F) ((c : Thread nD τ).loc b) := fun c b => E4 m ρ c b
theorem hF3 (c : Dev nD) (w : Fin cfg3.W) : (dat3 (VE3 m ρ) c).arrAt w cfg3.N = VE4 m ρ c (Pipeline.arrRef spec3 w) :=
  (E4_arr m ρ c w).symm
theorem hrest3 (c : Dev nD) : ∀ b, b ∉ Finset.univ.image (Pipeline.arrRef spec3) → VE4 m ρ c b = VE3 m ρ c b :=
  fun b hb => E4_of_ne m ρ c b fun w e => hb (Finset.mem_image.mpr ⟨w, Finset.mem_univ _, e⟩)

/-- After call 4: its arrays at what its pipeline leaves, every other buffer as before it. -/
def E5 (c : Dev nD) : Valuation τ sig (Elt F) :=
  Pipeline.withArrays spec4 c (E4 m ρ c) fun w => (dat4 (VE4 m ρ) c).arrAt w cfg4.N
theorem E5_arr (c : Dev nD) (w : Fin cfg4.W) :
    E5 m ρ c (Proc.devRef .tc (Pipeline.arrRef spec4 w)) = (dat4 (VE4 m ρ) c).arrAt w cfg4.N := by
  unfold E5; exact Pipeline.withArrays_arr spec4 launch4.win.arr_inj c _ _ w
theorem E5_of_ne (c : Dev nD) (b : Ref sig .tc) (hb : ∀ w, Pipeline.arrRef spec4 w ≠ b) :
    E5 m ρ c (Proc.devRef .tc b) = E4 m ρ c (Proc.devRef .tc b) := by
  unfold E5; exact Pipeline.withArrays_of_ne spec4 c _ _ b hb
abbrev VE5 : (c : Dev nD) → (b : Ref sig .tc) → Buf (Elt F) ((c : Thread nD τ).loc b) := fun c b => E5 m ρ c b
theorem hF4 (c : Dev nD) (w : Fin cfg4.W) : (dat4 (VE4 m ρ) c).arrAt w cfg4.N = VE5 m ρ c (Pipeline.arrRef spec4 w) :=
  (E5_arr m ρ c w).symm
theorem hrest4 (c : Dev nD) : ∀ b, b ∉ Finset.univ.image (Pipeline.arrRef spec4) → VE5 m ρ c b = VE4 m ρ c b :=
  fun b hb => E5_of_ne m ρ c b fun w e => hb (Finset.mem_image.mpr ⟨w, Finset.mem_univ _, e⟩)

/-- After call 5: its arrays at what its pipeline leaves, every other buffer as before it. -/
def E6 (c : Dev nD) : Valuation τ sig (Elt F) :=
  Pipeline.withArrays spec5 c (E5 m ρ c) fun w => (dat5 (VE5 m ρ) c).arrAt w cfg5.N
theorem E6_arr (c : Dev nD) (w : Fin cfg5.W) :
    E6 m ρ c (Proc.devRef .tc (Pipeline.arrRef spec5 w)) = (dat5 (VE5 m ρ) c).arrAt w cfg5.N := by
  unfold E6; exact Pipeline.withArrays_arr spec5 launch5.win.arr_inj c _ _ w
theorem E6_of_ne (c : Dev nD) (b : Ref sig .tc) (hb : ∀ w, Pipeline.arrRef spec5 w ≠ b) :
    E6 m ρ c (Proc.devRef .tc b) = E5 m ρ c (Proc.devRef .tc b) := by
  unfold E6; exact Pipeline.withArrays_of_ne spec5 c _ _ b hb
abbrev VE6 : (c : Dev nD) → (b : Ref sig .tc) → Buf (Elt F) ((c : Thread nD τ).loc b) := fun c b => E6 m ρ c b
theorem hF5 (c : Dev nD) (w : Fin cfg5.W) : (dat5 (VE5 m ρ) c).arrAt w cfg5.N = VE6 m ρ c (Pipeline.arrRef spec5 w) :=
  (E6_arr m ρ c w).symm
theorem hrest5 (c : Dev nD) : ∀ b, b ∉ Finset.univ.image (Pipeline.arrRef spec5) → VE6 m ρ c b = VE5 m ρ c b :=
  fun b hb => E6_of_ne m ρ c b fun w e => hb (Finset.mem_image.mpr ⟨w, Finset.mem_univ _, e⟩)

/-- After call 6: its arrays at what its pipeline leaves, every other buffer as before it. -/
def E7 (c : Dev nD) : Valuation τ sig (Elt F) :=
  Pipeline.withArrays spec6 c (E6 m ρ c) fun w => (dat6 (VE6 m ρ) c).arrAt w cfg6.N
theorem E7_arr (c : Dev nD) (w : Fin cfg6.W) :
    E7 m ρ c (Proc.devRef .tc (Pipeline.arrRef spec6 w)) = (dat6 (VE6 m ρ) c).arrAt w cfg6.N := by
  unfold E7; exact Pipeline.withArrays_arr spec6 launch6.win.arr_inj c _ _ w
theorem E7_of_ne (c : Dev nD) (b : Ref sig .tc) (hb : ∀ w, Pipeline.arrRef spec6 w ≠ b) :
    E7 m ρ c (Proc.devRef .tc b) = E6 m ρ c (Proc.devRef .tc b) := by
  unfold E7; exact Pipeline.withArrays_of_ne spec6 c _ _ b hb
abbrev VE7 : (c : Dev nD) → (b : Ref sig .tc) → Buf (Elt F) ((c : Thread nD τ).loc b) := fun c b => E7 m ρ c b
theorem hF6 (c : Dev nD) (w : Fin cfg6.W) : (dat6 (VE6 m ρ) c).arrAt w cfg6.N = VE7 m ρ c (Pipeline.arrRef spec6 w) :=
  (E7_arr m ρ c w).symm
theorem hrest6 (c : Dev nD) : ∀ b, b ∉ Finset.univ.image (Pipeline.arrRef spec6) → VE7 m ρ c b = VE6 m ρ c b :=
  fun b hb => E7_of_ne m ρ c b fun w e => hb (Finset.mem_image.mpr ⟨w, Finset.mem_univ _, e⟩)

/-- After call 7: its arrays at what its pipeline leaves, every other buffer as before it. -/
def E8 (c : Dev nD) : Valuation τ sig (Elt F) :=
  Pipeline.withArrays spec7 c (E7 m ρ c) fun w => (dat7 (VE7 m ρ) c).arrAt w cfg7.N
theorem E8_arr (c : Dev nD) (w : Fin cfg7.W) :
    E8 m ρ c (Proc.devRef .tc (Pipeline.arrRef spec7 w)) = (dat7 (VE7 m ρ) c).arrAt w cfg7.N := by
  unfold E8; exact Pipeline.withArrays_arr spec7 launch7.win.arr_inj c _ _ w
theorem E8_of_ne (c : Dev nD) (b : Ref sig .tc) (hb : ∀ w, Pipeline.arrRef spec7 w ≠ b) :
    E8 m ρ c (Proc.devRef .tc b) = E7 m ρ c (Proc.devRef .tc b) := by
  unfold E8; exact Pipeline.withArrays_of_ne spec7 c _ _ b hb
abbrev VE8 : (c : Dev nD) → (b : Ref sig .tc) → Buf (Elt F) ((c : Thread nD τ).loc b) := fun c b => E8 m ρ c b
theorem hF7 (c : Dev nD) (w : Fin cfg7.W) : (dat7 (VE7 m ρ) c).arrAt w cfg7.N = VE8 m ρ c (Pipeline.arrRef spec7 w) :=
  (E8_arr m ρ c w).symm
theorem hrest7 (c : Dev nD) : ∀ b, b ∉ Finset.univ.image (Pipeline.arrRef spec7) → VE8 m ρ c b = VE7 m ρ c b :=
  fun b hb => E8_of_ne m ρ c b fun w e => hb (Finset.mem_image.mpr ⟨w, Finset.mem_univ _, e⟩)

/-- After the host operations. -/
abbrev EF : Dev nD → Valuation τ sig (Elt F) := fun c => StableHlo.after hostOps8 (E8 m ρ c)

/-! ## The arguments end as launched

No host operation writes an argument, and a call only reads its own argument through its input window. -/

theorem EF_main_arg0 (c : Dev nD) : EF m ρ c (Proc.devRef .tc main_arg0) = m ((c : Thread nD τ).loc main_arg0) :=
  calc EF m ρ c (Proc.devRef .tc main_arg0)
    _ = E8 m ρ c (Proc.devRef .tc main_arg0) := StableHlo.after_of_writes_sub hostOps8 _ hostOps8_writes (by decide)
    _ = E7 m ρ c (Proc.devRef .tc main_arg0) := E8_of_ne m ρ c main_arg0 (by decide)
    _ = E6 m ρ c (Proc.devRef .tc main_arg0) := E7_of_ne m ρ c main_arg0 (by decide)
    _ = E5 m ρ c (Proc.devRef .tc main_arg0) := E6_of_ne m ρ c main_arg0 (by decide)
    _ = E4 m ρ c (Proc.devRef .tc main_arg0) := E5_of_ne m ρ c main_arg0 (by decide)
    _ = E3 m ρ c (Proc.devRef .tc main_arg0) := E4_of_ne m ρ c main_arg0 (by decide)
    _ = E2 m ρ c (Proc.devRef .tc main_arg0) := E3_of_ne m ρ c main_arg0 (by decide)
    _ = E1 m ρ c (Proc.devRef .tc main_arg0) := E2_of_ne m ρ c main_arg0 (by decide)
    _ = E0 m ρ c (Proc.devRef .tc main_arg0) := (E1_arr m ρ c 0).trans (((dat0 (VE0 m ρ) c).arrAt_in 0 rfl _).trans (A_eq0 (VE0 m ρ) c 0))
    _ = m ((c : Thread nD τ).loc main_arg0) := rfl

theorem EF_main_arg1 (c : Dev nD) : EF m ρ c (Proc.devRef .tc main_arg1) = m ((c : Thread nD τ).loc main_arg1) :=
  calc EF m ρ c (Proc.devRef .tc main_arg1)
    _ = E8 m ρ c (Proc.devRef .tc main_arg1) := StableHlo.after_of_writes_sub hostOps8 _ hostOps8_writes (by decide)
    _ = E7 m ρ c (Proc.devRef .tc main_arg1) := E8_of_ne m ρ c main_arg1 (by decide)
    _ = E6 m ρ c (Proc.devRef .tc main_arg1) := E7_of_ne m ρ c main_arg1 (by decide)
    _ = E5 m ρ c (Proc.devRef .tc main_arg1) := E6_of_ne m ρ c main_arg1 (by decide)
    _ = E4 m ρ c (Proc.devRef .tc main_arg1) := E5_of_ne m ρ c main_arg1 (by decide)
    _ = E3 m ρ c (Proc.devRef .tc main_arg1) := E4_of_ne m ρ c main_arg1 (by decide)
    _ = E2 m ρ c (Proc.devRef .tc main_arg1) := E3_of_ne m ρ c main_arg1 (by decide)
    _ = E1 m ρ c (Proc.devRef .tc main_arg1) := (E2_arr m ρ c 0).trans (((dat1 (VE1 m ρ) c).arrAt_in 0 rfl _).trans (A_eq1 (VE1 m ρ) c 0))
    _ = E0 m ρ c (Proc.devRef .tc main_arg1) := E1_of_ne m ρ c main_arg1 (by decide)
    _ = m ((c : Thread nD τ).loc main_arg1) := rfl

theorem EF_main_arg2 (c : Dev nD) : EF m ρ c (Proc.devRef .tc main_arg2) = m ((c : Thread nD τ).loc main_arg2) :=
  calc EF m ρ c (Proc.devRef .tc main_arg2)
    _ = E8 m ρ c (Proc.devRef .tc main_arg2) := StableHlo.after_of_writes_sub hostOps8 _ hostOps8_writes (by decide)
    _ = E7 m ρ c (Proc.devRef .tc main_arg2) := E8_of_ne m ρ c main_arg2 (by decide)
    _ = E6 m ρ c (Proc.devRef .tc main_arg2) := E7_of_ne m ρ c main_arg2 (by decide)
    _ = E5 m ρ c (Proc.devRef .tc main_arg2) := E6_of_ne m ρ c main_arg2 (by decide)
    _ = E4 m ρ c (Proc.devRef .tc main_arg2) := E5_of_ne m ρ c main_arg2 (by decide)
    _ = E3 m ρ c (Proc.devRef .tc main_arg2) := E4_of_ne m ρ c main_arg2 (by decide)
    _ = E2 m ρ c (Proc.devRef .tc main_arg2) := (E3_arr m ρ c 0).trans (((dat2 (VE2 m ρ) c).arrAt_in 0 rfl _).trans (A_eq2 (VE2 m ρ) c 0))
    _ = E1 m ρ c (Proc.devRef .tc main_arg2) := E2_of_ne m ρ c main_arg2 (by decide)
    _ = E0 m ρ c (Proc.devRef .tc main_arg2) := E1_of_ne m ρ c main_arg2 (by decide)
    _ = m ((c : Thread nD τ).loc main_arg2) := rfl

theorem EF_main_arg3 (c : Dev nD) : EF m ρ c (Proc.devRef .tc main_arg3) = m ((c : Thread nD τ).loc main_arg3) :=
  calc EF m ρ c (Proc.devRef .tc main_arg3)
    _ = E8 m ρ c (Proc.devRef .tc main_arg3) := StableHlo.after_of_writes_sub hostOps8 _ hostOps8_writes (by decide)
    _ = E7 m ρ c (Proc.devRef .tc main_arg3) := E8_of_ne m ρ c main_arg3 (by decide)
    _ = E6 m ρ c (Proc.devRef .tc main_arg3) := E7_of_ne m ρ c main_arg3 (by decide)
    _ = E5 m ρ c (Proc.devRef .tc main_arg3) := E6_of_ne m ρ c main_arg3 (by decide)
    _ = E4 m ρ c (Proc.devRef .tc main_arg3) := E5_of_ne m ρ c main_arg3 (by decide)
    _ = E3 m ρ c (Proc.devRef .tc main_arg3) := (E4_arr m ρ c 0).trans (((dat3 (VE3 m ρ) c).arrAt_in 0 rfl _).trans (A_eq3 (VE3 m ρ) c 0))
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := E1_of_ne m ρ c main_arg3 (by decide)
    _ = m ((c : Thread nD τ).loc main_arg3) := rfl

theorem EF_main_arg4 (c : Dev nD) : EF m ρ c (Proc.devRef .tc main_arg4) = m ((c : Thread nD τ).loc main_arg4) :=
  calc EF m ρ c (Proc.devRef .tc main_arg4)
    _ = E8 m ρ c (Proc.devRef .tc main_arg4) := StableHlo.after_of_writes_sub hostOps8 _ hostOps8_writes (by decide)
    _ = E7 m ρ c (Proc.devRef .tc main_arg4) := E8_of_ne m ρ c main_arg4 (by decide)
    _ = E6 m ρ c (Proc.devRef .tc main_arg4) := E7_of_ne m ρ c main_arg4 (by decide)
    _ = E5 m ρ c (Proc.devRef .tc main_arg4) := E6_of_ne m ρ c main_arg4 (by decide)
    _ = E4 m ρ c (Proc.devRef .tc main_arg4) := (E5_arr m ρ c 0).trans (((dat4 (VE4 m ρ) c).arrAt_in 0 rfl _).trans (A_eq4 (VE4 m ρ) c 0))
    _ = E3 m ρ c (Proc.devRef .tc main_arg4) := E4_of_ne m ρ c main_arg4 (by decide)
    _ = E2 m ρ c (Proc.devRef .tc main_arg4) := E3_of_ne m ρ c main_arg4 (by decide)
    _ = E1 m ρ c (Proc.devRef .tc main_arg4) := E2_of_ne m ρ c main_arg4 (by decide)
    _ = E0 m ρ c (Proc.devRef .tc main_arg4) := E1_of_ne m ρ c main_arg4 (by decide)
    _ = m ((c : Thread nD τ).loc main_arg4) := rfl

theorem EF_main_arg5 (c : Dev nD) : EF m ρ c (Proc.devRef .tc main_arg5) = m ((c : Thread nD τ).loc main_arg5) :=
  calc EF m ρ c (Proc.devRef .tc main_arg5)
    _ = E8 m ρ c (Proc.devRef .tc main_arg5) := StableHlo.after_of_writes_sub hostOps8 _ hostOps8_writes (by decide)
    _ = E7 m ρ c (Proc.devRef .tc main_arg5) := E8_of_ne m ρ c main_arg5 (by decide)
    _ = E6 m ρ c (Proc.devRef .tc main_arg5) := E7_of_ne m ρ c main_arg5 (by decide)
    _ = E5 m ρ c (Proc.devRef .tc main_arg5) := (E6_arr m ρ c 0).trans (((dat5 (VE5 m ρ) c).arrAt_in 0 rfl _).trans (A_eq5 (VE5 m ρ) c 0))
    _ = E4 m ρ c (Proc.devRef .tc main_arg5) := E5_of_ne m ρ c main_arg5 (by decide)
    _ = E3 m ρ c (Proc.devRef .tc main_arg5) := E4_of_ne m ρ c main_arg5 (by decide)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := E1_of_ne m ρ c main_arg5 (by decide)
    _ = m ((c : Thread nD τ).loc main_arg5) := rfl

theorem EF_main_arg6 (c : Dev nD) : EF m ρ c (Proc.devRef .tc main_arg6) = m ((c : Thread nD τ).loc main_arg6) :=
  calc EF m ρ c (Proc.devRef .tc main_arg6)
    _ = E8 m ρ c (Proc.devRef .tc main_arg6) := StableHlo.after_of_writes_sub hostOps8 _ hostOps8_writes (by decide)
    _ = E7 m ρ c (Proc.devRef .tc main_arg6) := E8_of_ne m ρ c main_arg6 (by decide)
    _ = E6 m ρ c (Proc.devRef .tc main_arg6) := (E7_arr m ρ c 0).trans (((dat6 (VE6 m ρ) c).arrAt_in 0 rfl _).trans (A_eq6 (VE6 m ρ) c 0))
    _ = E5 m ρ c (Proc.devRef .tc main_arg6) := E6_of_ne m ρ c main_arg6 (by decide)
    _ = E4 m ρ c (Proc.devRef .tc main_arg6) := E5_of_ne m ρ c main_arg6 (by decide)
    _ = E3 m ρ c (Proc.devRef .tc main_arg6) := E4_of_ne m ρ c main_arg6 (by decide)
    _ = E2 m ρ c (Proc.devRef .tc main_arg6) := E3_of_ne m ρ c main_arg6 (by decide)
    _ = E1 m ρ c (Proc.devRef .tc main_arg6) := E2_of_ne m ρ c main_arg6 (by decide)
    _ = E0 m ρ c (Proc.devRef .tc main_arg6) := E1_of_ne m ρ c main_arg6 (by decide)
    _ = m ((c : Thread nD τ).loc main_arg6) := rfl

theorem EF_main_arg7 (c : Dev nD) : EF m ρ c (Proc.devRef .tc main_arg7) = m ((c : Thread nD τ).loc main_arg7) :=
  calc EF m ρ c (Proc.devRef .tc main_arg7)
    _ = E8 m ρ c (Proc.devRef .tc main_arg7) := StableHlo.after_of_writes_sub hostOps8 _ hostOps8_writes (by decide)
    _ = E7 m ρ c (Proc.devRef .tc main_arg7) := (E8_arr m ρ c 0).trans (((dat7 (VE7 m ρ) c).arrAt_in 0 rfl _).trans (A_eq7 (VE7 m ρ) c 0))
    _ = E6 m ρ c (Proc.devRef .tc main_arg7) := E7_of_ne m ρ c main_arg7 (by decide)
    _ = E5 m ρ c (Proc.devRef .tc main_arg7) := E6_of_ne m ρ c main_arg7 (by decide)
    _ = E4 m ρ c (Proc.devRef .tc main_arg7) := E5_of_ne m ρ c main_arg7 (by decide)
    _ = E3 m ρ c (Proc.devRef .tc main_arg7) := E4_of_ne m ρ c main_arg7 (by decide)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := E1_of_ne m ρ c main_arg7 (by decide)
    _ = m ((c : Thread nD τ).loc main_arg7) := rfl

/-! ## Each call's result reaches the host operations as its pipeline left it; its argument is as launched when it runs -/

theorem E8_main_v0 (c : Dev nD) : E8 m ρ c (Proc.devRef .tc main_v0) = (dat0 (VE0 m ρ) c).arrAt 1 cfg0.N :=
  calc E8 m ρ c (Proc.devRef .tc main_v0)
    _ = E7 m ρ c (Proc.devRef .tc main_v0) := E8_of_ne m ρ c main_v0 (by decide)
    _ = E6 m ρ c (Proc.devRef .tc main_v0) := E7_of_ne m ρ c main_v0 (by decide)
    _ = E5 m ρ c (Proc.devRef .tc main_v0) := E6_of_ne m ρ c main_v0 (by decide)
    _ = E4 m ρ c (Proc.devRef .tc main_v0) := E5_of_ne m ρ c main_v0 (by decide)
    _ = E3 m ρ c (Proc.devRef .tc main_v0) := E4_of_ne m ρ c main_v0 (by decide)
    _ = E2 m ρ c (Proc.devRef .tc main_v0) := E3_of_ne m ρ c main_v0 (by decide)
    _ = E1 m ρ c (Proc.devRef .tc main_v0) := E2_of_ne m ρ c main_v0 (by decide)
    _ = (dat0 (VE0 m ρ) c).arrAt 1 cfg0.N := E1_arr m ρ c 1

theorem VE0_main_arg0 (c : Dev nD) : VE0 m ρ c main_arg0 = m ((c : Thread nD τ).loc main_arg0) :=
  calc E0 m ρ c (Proc.devRef .tc main_arg0)
    _ = m ((c : Thread nD τ).loc main_arg0) := rfl

theorem E8_main_v1 (c : Dev nD) : E8 m ρ c (Proc.devRef .tc main_v1) = (dat1 (VE1 m ρ) c).arrAt 1 cfg1.N :=
  calc E8 m ρ c (Proc.devRef .tc main_v1)
    _ = E7 m ρ c (Proc.devRef .tc main_v1) := E8_of_ne m ρ c main_v1 (by decide)
    _ = E6 m ρ c (Proc.devRef .tc main_v1) := E7_of_ne m ρ c main_v1 (by decide)
    _ = E5 m ρ c (Proc.devRef .tc main_v1) := E6_of_ne m ρ c main_v1 (by decide)
    _ = E4 m ρ c (Proc.devRef .tc main_v1) := E5_of_ne m ρ c main_v1 (by decide)
    _ = E3 m ρ c (Proc.devRef .tc main_v1) := E4_of_ne m ρ c main_v1 (by decide)
    _ = E2 m ρ c (Proc.devRef .tc main_v1) := E3_of_ne m ρ c main_v1 (by decide)
    _ = (dat1 (VE1 m ρ) c).arrAt 1 cfg1.N := E2_arr m ρ c 1

theorem VE1_main_arg1 (c : Dev nD) : VE1 m ρ c main_arg1 = m ((c : Thread nD τ).loc main_arg1) :=
  calc E1 m ρ c (Proc.devRef .tc main_arg1)
    _ = E0 m ρ c (Proc.devRef .tc main_arg1) := E1_of_ne m ρ c main_arg1 (by decide)
    _ = m ((c : Thread nD τ).loc main_arg1) := rfl

theorem E8_main_v2 (c : Dev nD) : E8 m ρ c (Proc.devRef .tc main_v2) = (dat2 (VE2 m ρ) c).arrAt 1 cfg2.N :=
  calc E8 m ρ c (Proc.devRef .tc main_v2)
    _ = E7 m ρ c (Proc.devRef .tc main_v2) := E8_of_ne m ρ c main_v2 (by decide)
    _ = E6 m ρ c (Proc.devRef .tc main_v2) := E7_of_ne m ρ c main_v2 (by decide)
    _ = E5 m ρ c (Proc.devRef .tc main_v2) := E6_of_ne m ρ c main_v2 (by decide)
    _ = E4 m ρ c (Proc.devRef .tc main_v2) := E5_of_ne m ρ c main_v2 (by decide)
    _ = E3 m ρ c (Proc.devRef .tc main_v2) := E4_of_ne m ρ c main_v2 (by decide)
    _ = (dat2 (VE2 m ρ) c).arrAt 1 cfg2.N := E3_arr m ρ c 1

theorem VE2_main_arg2 (c : Dev nD) : VE2 m ρ c main_arg2 = m ((c : Thread nD τ).loc main_arg2) :=
  calc E2 m ρ c (Proc.devRef .tc main_arg2)
    _ = E1 m ρ c (Proc.devRef .tc main_arg2) := E2_of_ne m ρ c main_arg2 (by decide)
    _ = E0 m ρ c (Proc.devRef .tc main_arg2) := E1_of_ne m ρ c main_arg2 (by decide)
    _ = m ((c : Thread nD τ).loc main_arg2) := rfl

theorem E8_main_v3 (c : Dev nD) : E8 m ρ c (Proc.devRef .tc main_v3) = (dat3 (VE3 m ρ) c).arrAt 1 cfg3.N :=
  calc E8 m ρ c (Proc.devRef .tc main_v3)
    _ = E7 m ρ c (Proc.devRef .tc main_v3) := E8_of_ne m ρ c main_v3 (by decide)
    _ = E6 m ρ c (Proc.devRef .tc main_v3) := E7_of_ne m ρ c main_v3 (by decide)
    _ = E5 m ρ c (Proc.devRef .tc main_v3) := E6_of_ne m ρ c main_v3 (by decide)
    _ = E4 m ρ c (Proc.devRef .tc main_v3) := E5_of_ne m ρ c main_v3 (by decide)
    _ = (dat3 (VE3 m ρ) c).arrAt 1 cfg3.N := E4_arr m ρ c 1

theorem VE3_main_arg3 (c : Dev nD) : VE3 m ρ c main_arg3 = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := E1_of_ne m ρ c main_arg3 (by decide)
    _ = m ((c : Thread nD τ).loc main_arg3) := rfl

theorem E8_main_v4 (c : Dev nD) : E8 m ρ c (Proc.devRef .tc main_v4) = (dat4 (VE4 m ρ) c).arrAt 1 cfg4.N :=
  calc E8 m ρ c (Proc.devRef .tc main_v4)
    _ = E7 m ρ c (Proc.devRef .tc main_v4) := E8_of_ne m ρ c main_v4 (by decide)
    _ = E6 m ρ c (Proc.devRef .tc main_v4) := E7_of_ne m ρ c main_v4 (by decide)
    _ = E5 m ρ c (Proc.devRef .tc main_v4) := E6_of_ne m ρ c main_v4 (by decide)
    _ = (dat4 (VE4 m ρ) c).arrAt 1 cfg4.N := E5_arr m ρ c 1

theorem VE4_main_arg4 (c : Dev nD) : VE4 m ρ c main_arg4 = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := E3_of_ne m ρ c main_arg4 (by decide)
    _ = E1 m ρ c (Proc.devRef .tc main_arg4) := E2_of_ne m ρ c main_arg4 (by decide)
    _ = E0 m ρ c (Proc.devRef .tc main_arg4) := E1_of_ne m ρ c main_arg4 (by decide)
    _ = m ((c : Thread nD τ).loc main_arg4) := rfl

theorem E8_main_v5 (c : Dev nD) : E8 m ρ c (Proc.devRef .tc main_v5) = (dat5 (VE5 m ρ) c).arrAt 1 cfg5.N :=
  calc E8 m ρ c (Proc.devRef .tc main_v5)
    _ = E7 m ρ c (Proc.devRef .tc main_v5) := E8_of_ne m ρ c main_v5 (by decide)
    _ = E6 m ρ c (Proc.devRef .tc main_v5) := E7_of_ne m ρ c main_v5 (by decide)
    _ = (dat5 (VE5 m ρ) c).arrAt 1 cfg5.N := E6_arr m ρ c 1

theorem VE5_main_arg5 (c : Dev nD) : VE5 m ρ c main_arg5 = m ((c : Thread nD τ).loc main_arg5) :=
  calc E5 m ρ c (Proc.devRef .tc main_arg5)
    _ = E4 m ρ c (Proc.devRef .tc main_arg5) := E5_of_ne m ρ c main_arg5 (by decide)
    _ = E3 m ρ c (Proc.devRef .tc main_arg5) := E4_of_ne m ρ c main_arg5 (by decide)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := E1_of_ne m ρ c main_arg5 (by decide)
    _ = m ((c : Thread nD τ).loc main_arg5) := rfl

theorem E8_main_v6 (c : Dev nD) : E8 m ρ c (Proc.devRef .tc main_v6) = (dat6 (VE6 m ρ) c).arrAt 1 cfg6.N :=
  calc E8 m ρ c (Proc.devRef .tc main_v6)
    _ = E7 m ρ c (Proc.devRef .tc main_v6) := E8_of_ne m ρ c main_v6 (by decide)
    _ = (dat6 (VE6 m ρ) c).arrAt 1 cfg6.N := E7_arr m ρ c 1

theorem VE6_main_arg6 (c : Dev nD) : VE6 m ρ c main_arg6 = m ((c : Thread nD τ).loc main_arg6) :=
  calc E6 m ρ c (Proc.devRef .tc main_arg6)
    _ = E5 m ρ c (Proc.devRef .tc main_arg6) := E6_of_ne m ρ c main_arg6 (by decide)
    _ = E4 m ρ c (Proc.devRef .tc main_arg6) := E5_of_ne m ρ c main_arg6 (by decide)
    _ = E3 m ρ c (Proc.devRef .tc main_arg6) := E4_of_ne m ρ c main_arg6 (by decide)
    _ = E2 m ρ c (Proc.devRef .tc main_arg6) := E3_of_ne m ρ c main_arg6 (by decide)
    _ = E1 m ρ c (Proc.devRef .tc main_arg6) := E2_of_ne m ρ c main_arg6 (by decide)
    _ = E0 m ρ c (Proc.devRef .tc main_arg6) := E1_of_ne m ρ c main_arg6 (by decide)
    _ = m ((c : Thread nD τ).loc main_arg6) := rfl

theorem E8_main_v7 (c : Dev nD) : E8 m ρ c (Proc.devRef .tc main_v7) = (dat7 (VE7 m ρ) c).arrAt 1 cfg7.N :=
  calc E8 m ρ c (Proc.devRef .tc main_v7)
    _ = (dat7 (VE7 m ρ) c).arrAt 1 cfg7.N := E8_arr m ρ c 1

theorem VE7_main_arg7 (c : Dev nD) : VE7 m ρ c main_arg7 = m ((c : Thread nD τ).loc main_arg7) :=
  calc E7 m ρ c (Proc.devRef .tc main_arg7)
    _ = E6 m ρ c (Proc.devRef .tc main_arg7) := E7_of_ne m ρ c main_arg7 (by decide)
    _ = E5 m ρ c (Proc.devRef .tc main_arg7) := E6_of_ne m ρ c main_arg7 (by decide)
    _ = E4 m ρ c (Proc.devRef .tc main_arg7) := E5_of_ne m ρ c main_arg7 (by decide)
    _ = E3 m ρ c (Proc.devRef .tc main_arg7) := E4_of_ne m ρ c main_arg7 (by decide)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := E1_of_ne m ρ c main_arg7 (by decide)
    _ = m ((c : Thread nD τ).loc main_arg7) := rfl

/-! ## The proof data family and what rides beside the buffers -/

abbrev admH : (p : Fin 8) → (pcfgs (F := F) p).Adm := fun p => (cfgs p).toPCfg_adm
/-- Every pipeline's proof data, each at its call's entry contents. -/
def pdatsH : (p : Fin 8) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
abbrev 𝒱H : Variants := Variants.none
abbrev LH : GSem nD τ sig → Finset Unit := fun _ => ∅
abbrev lvH : GSem nD τ sig → Unit → ℕ := fun _ _ => 0
/-- The generator register at some state, and the core owing nothing. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt: every unscoped buffer at the final contents, the generator register. -/
abbrev TF (c : Dev nD) : sProp 𝕄 := iprop(StableHlo.held (c : Thread nD τ) (Pipeline.ucRefs τ sig) (EF m ρ c) ∗ ∃ r, prngReg c r)

/-- After the host operations the thread state is the last one beside the core owing nothing. -/
theorem lastStep (c : Dev nD) :
    (iprop(StableHlo.held (c : Thread nD τ) (Pipeline.ucRefs τ sig) (EF m ρ c) ∗ Rst c) : sProp 𝕄)
      ⊢ iprop(TF m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The calls as segments -/

set_option backward.isDefEq.respectTransparency.types false in
/-- Call 0: entered with every unscoped buffer at `E0`, left with them at `E1`. Its arrays are split out of the
    unscoped buffers and put back at the exit contents; the generator register goes into the pipeline's invariant and
    comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (E0 m ρ c) ∗ Rst c)
  post c := iprop(StableHlo.held (c : Thread nD τ) (Pipeline.ucRefs τ sig) (E1 m ρ c) ∗ Rst c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VE0 m ρ c) (VE1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every unscoped buffer at `E1`, left with them at `E2`. Its arrays are split out of the
    unscoped buffers and put back at the exit contents; the generator register goes into the pipeline's invariant and
    comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (E1 m ρ c) ∗ Rst c)
  post c := iprop(StableHlo.held (c : Thread nD τ) (Pipeline.ucRefs τ sig) (E2 m ρ c) ∗ Rst c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VE1 m ρ c) (VE2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered with every unscoped buffer at `E2`, left with them at `E3`. Its arrays are split out of the
    unscoped buffers and put back at the exit contents; the generator register goes into the pipeline's invariant and
    comes out; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ LH lvH 2 fun _ _ => rfl
  pre c := iprop(StableHlo.held (c : Thread nD τ) (Pipeline.ucRefs τ sig) (E2 m ρ c) ∗ Rst c)
  post c := iprop(StableHlo.held (c : Thread nD τ) (Pipeline.ucRefs τ sig) (E3 m ρ c) ∗ Rst c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (VE2 m ρ c) (VE3 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered with every unscoped buffer at `E3`, left with them at `E4`. Its arrays are split out of the
    unscoped buffers and put back at the exit contents; the generator register goes into the pipeline's invariant and
    comes out; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ LH lvH 3 fun _ _ => rfl
  pre c := iprop(StableHlo.held (c : Thread nD τ) (Pipeline.ucRefs τ sig) (E3 m ρ c) ∗ Rst c)
  post c := iprop(StableHlo.held (c : Thread nD τ) (Pipeline.ucRefs τ sig) (E4 m ρ c) ∗ Rst c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (VE3 m ρ c) (VE4 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered with every unscoped buffer at `E4`, left with them at `E5`. Its arrays are split out of the
    unscoped buffers and put back at the exit contents; the generator register goes into the pipeline's invariant and
    comes out; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ LH lvH 4 fun _ _ => rfl
  pre c := iprop(StableHlo.held (c : Thread nD τ) (Pipeline.ucRefs τ sig) (E4 m ρ c) ∗ Rst c)
  post c := iprop(StableHlo.held (c : Thread nD τ) (Pipeline.ucRefs τ sig) (E5 m ρ c) ∗ Rst c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (VE4 m ρ c) (VE5 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered with every unscoped buffer at `E5`, left with them at `E6`. Its arrays are split out of the
    unscoped buffers and put back at the exit contents; the generator register goes into the pipeline's invariant and
    comes out; nothing is owed; the kernel has no semaphore of its own. -/
def reg5 : Pipeline.RegionSeg (pcfgs (F := F)) admH (pdatsH m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ LH lvH 5 fun _ _ => rfl
  pre c := iprop(StableHlo.held (c : Thread nD τ) (Pipeline.ucRefs τ sig) (E5 m ρ c) ∗ Rst c)
  post c := iprop(StableHlo.held (c : Thread nD τ) (Pipeline.ucRefs τ sig) (E6 m ρ c) ∗ Rst c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (VE5 m ρ c) (VE6 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered with every unscoped buffer at `E6`, left with them at `E7`. Its arrays are split out of the
    unscoped buffers and put back at the exit contents; the generator register goes into the pipeline's invariant and
    comes out; nothing is owed; the kernel has no semaphore of its own. -/
def reg6 : Pipeline.RegionSeg (pcfgs (F := F)) admH (pdatsH m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ LH lvH 6 fun _ _ => rfl
  pre c := iprop(StableHlo.held (c : Thread nD τ) (Pipeline.ucRefs τ sig) (E6 m ρ c) ∗ Rst c)
  post c := iprop(StableHlo.held (c : Thread nD τ) (Pipeline.ucRefs τ sig) (E7 m ρ c) ∗ Rst c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (VE6 m ρ c) (VE7 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 7: entered with every unscoped buffer at `E7`, left with them at `E8`. Its arrays are split out of the
    unscoped buffers and put back at the exit contents; the generator register goes into the pipeline's invariant and
    comes out; nothing is owed; the kernel has no semaphore of its own. -/
def reg7 : Pipeline.RegionSeg (pcfgs (F := F)) admH (pdatsH m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ LH lvH 7 fun _ _ => rfl
  pre c := iprop(StableHlo.held (c : Thread nD τ) (Pipeline.ucRefs τ sig) (E7 m ρ c) ∗ Rst c)
  post c := iprop(StableHlo.held (c : Thread nD τ) (Pipeline.ucRefs τ sig) (E8 m ρ c) ∗ Rst c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (VE7 m ρ c) (VE8 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segsAll : List (Pipeline.Seg (pcfgs (F := F)) admH (pdatsH m ρ) () defs₀ 𝒱H LH lvH) :=
  [ .region (reg0 m ρ),
    .region (reg1 m ρ),
    .region (reg2 m ρ),
    .region (reg3 m ρ),
    .region (reg4 m ρ),
    .region (reg5 m ρ),
    .region (reg6 m ρ),
    .region (reg7 m ρ),
    .host (hsegH hostOps8 hostOps8_sub hostOps8_fresh (E8 m ρ)) ]

theorem main_runH (c : Dev nD) : main (F := F) c = Pipeline.Seg.run (segsAll m ρ) := (main_chain c).trans (by chain_rfl)

set_option backward.isDefEq.respectTransparency.types false in
/-- From any memory with zero counters every weakly fair execution of the program terminates, nothing faulting, and
    every unscoped buffer of every final state holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = EF m ρ c b) :=
  Pipeline.θ_run_regions_kit (pcfgs (F := F)) admH (pdatsH m ρ) () cellOf_inj emb₁ defs₀ 𝒱H LH lvH m ρ main (segsAll m ρ)
    (fun c Q => by rw [main_runH m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ Rst c)) (Tₙ := TF m ρ)
    (hch := ⟨fun _ => .rfl, fun _ => .rfl, fun _ => .rfl, fun _ => .rfl, fun _ => .rfl, fun _ => .rfl, fun _ => .rfl, fun _ => .rfl, fun _ => .rfl,
      fun c => lastStep m ρ c⟩)
    (hinit := by
      refine Pipeline.initEach LH lvH fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = EF m ρ c b)
    (hfin := fun c s' => by
      iintro ⟨⟨Hh, -⟩, HSI⟩
      unfold StableHlo.held
      imodintro
      iapply (pointsTo_read_all (Pipeline.ucRefs τ sig) (fun b => (((c : Thread nD τ)).1, b)) (EF m ρ c) s')
      isplitl [Hh] <;> iassumption)
    (hQ := fun s h => h)

/-- The frame claim's post: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (EF_main_arg0 m ρ c),
    (h c _ (mem_uc main_arg1 (by decide))).trans (EF_main_arg1 m ρ c),
    (h c _ (mem_uc main_arg2 (by decide))).trans (EF_main_arg2 m ρ c),
    (h c _ (mem_uc main_arg3 (by decide))).trans (EF_main_arg3 m ρ c),
    (h c _ (mem_uc main_arg4 (by decide))).trans (EF_main_arg4 m ρ c),
    (h c _ (mem_uc main_arg5 (by decide))).trans (EF_main_arg5 m ρ c),
    (h c _ (mem_uc main_arg6 (by decide))).trans (EF_main_arg6 m ρ c),
    (h c _ (mem_uc main_arg7 (by decide))).trans (EF_main_arg7 m ρ c)⟩) (run_all m ρ)

end Cert.Kernel.Hand

end
-- ==== Proof.KernelIdealRegion0.lean ====
/-
  Pallas call 0 of the program: a kernel over a grid of 2 × 1 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt0`, by recursion on the point), the proof data of the pipeline (`dat0`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose input array is
    `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The reset condition -/

/-- The body's one condition: the sequence-tile coordinate is zero. -/
abbrev cond0 (i : grid0.Coords) : Prop := (Scalar.cmpi .ne (Scalar.extui (Scalar.cmpi .eq (BitVec.ofNat 32 (i 1).val) 0#32)) 0#32) = 1#1
/-- Over the grid, in row-major order, it holds exactly at the points whose position is a multiple of 1. -/
theorem hcond0 : ∀ t : Fin cfg0.N, cond0 (grid0.coords t) ↔ t.val % 1 = 0 :=
  (by decide +kernel : ∀ t : Fin grid0.N, cond0 (grid0.coords t) ↔ t.val % 1 = 0)

/-- One staging buffer of the output window, through which its contents are stated. -/
abbrev VO0 : View sig .tc .vmem S256x128 .f32 := (Memref.whole cc0_stg1_0 : Memref sig .tc .vmem S256x128 .f32).view
/-- Each window's current staging memref at point `t`, as the pipeline passes it, and its wholeness. -/
abbrev ms0_0 (t : Fin cfg0.N) : Memref sig .tc .vmem S256x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sum_kernel i arg2 harg2 arg3 harg3) K } := by
  refine ⟨?_, fun E K => ?run⟩
  case run =>
    simp only [cc0__sum_kernel_eq_skeleton]; unfold cc0__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__sum_kernel i arg2 harg2 arg3 harg3) K } := by
  refine ⟨?_, fun E K => ?run⟩
  case run =>
    simp only [cc0__sum_kernel_eq_skeleton]; unfold cc0__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) (y : S256x128.Idx) :
    ∃ pc ∈ (kernelRun0_A c i arg2 harg2 arg3 harg3 hc0 x0).1, y ∈ pc.1.set :=
  View.cover_of_tiledL (kernelRun0_A c i arg2 harg2 arg3 harg3 hc0 x0).1 S256x128.size (by sl_kernel_rfl) y

/-- The output block after a point where the condition holds. -/
def out0_A (c : Dev nD) (i : grid0.Coords) (arg2 : Memref sig .tc .vmem S256x64x128 .f32) (harg2 : arg2.IsWhole) (arg3 : Memref sig .tc .vmem S256x128 .f32) (harg3 : arg3.IsWhole) (hc0 : cond0 i)
    (x0 : Vec F S256x64x128 .f32) : Vec F S256x128 .f32 :=
  VO0.read (Elt F) (VO0.writes (Elt F) VO0.junk (kernelRun0_A c i arg2 harg2 arg3 harg3 hc0 x0).1)

/-- The piece stored where the condition fails covers the output block. -/
theorem cover0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) (y : S256x128.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S256x128.size (by sl_kernel_rfl) y

/-- The output block after a point where the condition fails, from its contents before the point. -/
def out0_B (c : Dev nD) (i : grid0.Coords) (arg2 : Memref sig .tc .vmem S256x64x128 .f32) (harg2 : arg2.IsWhole) (arg3 : Memref sig .tc .vmem S256x128 .f32) (harg3 : arg3.IsWhole) (hc0 : ¬cond0 i)
    (x0 : Vec F S256x64x128 .f32) (xo1 : Vec F S256x128 .f32) : Vec F S256x128 .f32 :=
  VO0.read (Elt F) (VO0.writes (Elt F) VO0.junk (kernelRun0_B c i arg2 harg2 arg3 harg3 hc0 x0 xo1).1)

/-! ## The running sum, point by point -/

/-- What the output's staging buffer holds after the body at position `n` of the grid: restarted where `n` is a multiple
    of 1, and otherwise continued from what position `n - 1` left. -/
def outsAt0 (c : Dev nD) : (n : ℕ) → n < cfg0.N → Vec F S256x128 .f32
  | 0, hn => out0_A c (grid0.coords ⟨0, hn⟩) (ms0_0 ⟨0, hn⟩) (hs0_0 ⟨0, hn⟩) (ms0_1 ⟨0, hn⟩) (hs0_1 ⟨0, hn⟩) ((hcond0 ⟨0, hn⟩).mpr (Nat.zero_mod _)) (iblk0 V c 0 ⟨0, hn⟩)
  | n + 1, hn =>
    if h0 : (n + 1) % 1 = 0 then
      out0_A c (grid0.coords ⟨n + 1, hn⟩) (ms0_0 ⟨n + 1, hn⟩) (hs0_0 ⟨n + 1, hn⟩) (ms0_1 ⟨n + 1, hn⟩) (hs0_1 ⟨n + 1, hn⟩) ((hcond0 ⟨n + 1, hn⟩).mpr h0) (iblk0 V c 0 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0 ⟨n + 1, hn⟩).mp h)) (iblk0 V c 0 ⟨n + 1, hn⟩) (outsAt0 c n (Nat.lt_of_succ_lt hn))

theorem outsAt0_A (c : Dev nD) (t : Fin cfg0.N) (h0 : t.val % 1 = 0) :
    outsAt0 V c t.val t.isLt = out0_A c (grid0.coords t) (ms0_0 t) (hs0_0 t) (ms0_1 t) (hs0_1 t) ((hcond0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 1 = 0) :
    outsAt0 V c t.val t.isLt = out0_B c (grid0.coords t) (ms0_0 t) (hs0_0 t) (ms0_1 t) (hs0_1 t) (fun h => h0 ((hcond0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-- At a point that does not restart the sum the output's staging buffer holds what the point before left: that point
    did not write the block back. -/
theorem before0_1_B (c : Dev nD) (t : Fin cfg0.N) (h0 : ¬t.val % 1 = 0) (d) :
    (dat0 V c).before 1 t d = (outsAt0 V c (t.val - 1) (Nat.lt_of_le_of_lt (Nat.sub_le _ _) t.isLt)) := by
  exact absurd (Nat.mod_one _) h0

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the input's memref holds its block; the position says which run applies, and where the sum
    continues the output's memref holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 2 := lt_of_lt_of_eq t.isLt (show cfg0.N = 2 from N_0)
  by_cases h0 : t.val % 1 = 0
  · rw [outsAt0_A V c t h0]
    unfold out0_A
    iintro ⟨HΦ, Ho, ⟨%d0, H0⟩, ⟨%d1, H1⟩⟩
    iapply ((kernelRun0_A c (grid0.coords t) _ _ _ _ ((hcond0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A c _ _ _ _ _ _ _)
  · rw [outsAt0_B V c t h0]
    simp only [before0_1_B V c t h0]
    unfold out0_B
    iintro ⟨HΦ, Ho, ⟨%d0, H0⟩, ⟨%d1, H1⟩⟩
    iapply ((kernelRun0_B c (grid0.coords t) _ _ _ _ (fun h => h0 ((hcond0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B c _ _ _ _ _ _ _ _)

/-- The obligation the pipelined launch asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegion1.lean ====
/-
  Pallas call 1 of the program: a kernel over a grid of 2 × 2 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt1`, by recursion on the point), the proof data of the pipeline (`dat1`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose input array is
    `V`'s and whose body leaves the input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The reset condition -/

/-- The body's one condition: the sequence-tile coordinate is zero. -/
abbrev cond1 (i : grid1.Coords) : Prop := (Scalar.cmpi .ne (Scalar.extui (Scalar.cmpi .eq (BitVec.ofNat 32 (i 1).val) 0#32)) 0#32) = 1#1
/-- Over the grid, in row-major order, it holds exactly at the points whose position is a multiple of 2. -/
theorem hcond1 : ∀ t : Fin cfg1.N, cond1 (grid1.coords t) ↔ t.val % 2 = 0 :=
  (by decide +kernel : ∀ t : Fin grid1.N, cond1 (grid1.coords t) ↔ t.val % 2 = 0)

/-- One staging buffer of the output window, through which its contents are stated. -/
abbrev VO1 : View sig .tc .vmem S256x128 .f32 := (Memref.whole cc1_stg1_0 : Memref sig .tc .vmem S256x128 .f32).view
/-- Each window's current staging memref at point `t`, as the pipeline passes it, and its wholeness. -/
abbrev ms1_0 (t : Fin cfg1.N) : Memref sig .tc .vmem S256x64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .f32 := win1_1.stage (cfg1.slots t 1)
abbrev hs1_1 (t : Fin cfg1.N) : (ms1_1 t).IsWhole := hstage1_1 ((cfg1.slots t 1).cast nbuf1_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__sum_kernel i arg2 harg2 arg3 harg3) K } := by
  refine ⟨?_, fun E K => ?run⟩
  case run =>
    simp only [cc1__sum_kernel_eq_skeleton]; unfold cc1__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__sum_kernel i arg2 harg2 arg3 harg3) K } := by
  refine ⟨?_, fun E K => ?run⟩
  case run =>
    simp only [cc1__sum_kernel_eq_skeleton]; unfold cc1__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) (y : S256x128.Idx) :
    ∃ pc ∈ (kernelRun1_A c i arg2 harg2 arg3 harg3 hc0 x0).1, y ∈ pc.1.set :=
  View.cover_of_tiledL (kernelRun1_A c i arg2 harg2 arg3 harg3 hc0 x0).1 S256x128.size (by sl_kernel_rfl) y

/-- The output block after a point where the condition holds. -/
def out1_A (c : Dev nD) (i : grid1.Coords) (arg2 : Memref sig .tc .vmem S256x64x128 .f32) (harg2 : arg2.IsWhole) (arg3 : Memref sig .tc .vmem S256x128 .f32) (harg3 : arg3.IsWhole) (hc0 : cond1 i)
    (x0 : Vec F S256x64x128 .f32) : Vec F S256x128 .f32 :=
  VO1.read (Elt F) (VO1.writes (Elt F) VO1.junk (kernelRun1_A c i arg2 harg2 arg3 harg3 hc0 x0).1)

/-- The piece stored where the condition fails covers the output block. -/
theorem cover1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) (y : S256x128.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S256x128.size (by sl_kernel_rfl) y

/-- The output block after a point where the condition fails, from its contents before the point. -/
def out1_B (c : Dev nD) (i : grid1.Coords) (arg2 : Memref sig .tc .vmem S256x64x128 .f32) (harg2 : arg2.IsWhole) (arg3 : Memref sig .tc .vmem S256x128 .f32) (harg3 : arg3.IsWhole) (hc0 : ¬cond1 i)
    (x0 : Vec F S256x64x128 .f32) (xo1 : Vec F S256x128 .f32) : Vec F S256x128 .f32 :=
  VO1.read (Elt F) (VO1.writes (Elt F) VO1.junk (kernelRun1_B c i arg2 harg2 arg3 harg3 hc0 x0 xo1).1)

/-! ## The running sum, point by point -/

/-- What the output's staging buffer holds after the body at position `n` of the grid: restarted where `n` is a multiple
    of 2, and otherwise continued from what position `n - 1` left. -/
def outsAt1 (c : Dev nD) : (n : ℕ) → n < cfg1.N → Vec F S256x128 .f32
  | 0, hn => out1_A c (grid1.coords ⟨0, hn⟩) (ms1_0 ⟨0, hn⟩) (hs1_0 ⟨0, hn⟩) (ms1_1 ⟨0, hn⟩) (hs1_1 ⟨0, hn⟩) ((hcond1 ⟨0, hn⟩).mpr (Nat.zero_mod _)) (iblk1 V c 0 ⟨0, hn⟩)
  | n + 1, hn =>
    if h0 : (n + 1) % 2 = 0 then
      out1_A c (grid1.coords ⟨n + 1, hn⟩) (ms1_0 ⟨n + 1, hn⟩) (hs1_0 ⟨n + 1, hn⟩) (ms1_1 ⟨n + 1, hn⟩) (hs1_1 ⟨n + 1, hn⟩) ((hcond1 ⟨n + 1, hn⟩).mpr h0) (iblk1 V c 0 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1 ⟨n + 1, hn⟩).mp h)) (iblk1 V c 0 ⟨n + 1, hn⟩) (outsAt1 c n (Nat.lt_of_succ_lt hn))

theorem outsAt1_A (c : Dev nD) (t : Fin cfg1.N) (h0 : t.val % 2 = 0) :
    outsAt1 V c t.val t.isLt = out1_A c (grid1.coords t) (ms1_0 t) (hs1_0 t) (ms1_1 t) (hs1_1 t) ((hcond1 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt = out1_B c (grid1.coords t) (ms1_0 t) (hs1_0 t) (ms1_1 t) (hs1_1 t) (fun h => h0 ((hcond1 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d

/-- At a point that does not restart the sum the output's staging buffer holds what the point before left: that point
    did not write the block back. -/
theorem before1_1_B (c : Dev nD) (t : Fin cfg1.N) (h0 : ¬t.val % 2 = 0) (d) :
    (dat1 V c).before 1 t d = (outsAt1 V c (t.val - 1) (Nat.lt_of_le_of_lt (Nat.sub_le _ _) t.isLt)) := by
  have hN : t.val < 4 := lt_of_lt_of_eq t.isLt (show cfg1.N = 4 from N_1)
  rw [Dat.before_out_kept _ 1 rfl t (by omega) (Bool.eq_false_iff.mpr fun h => by have := (flush1_1 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 800000 in
/-- The body at any point: the input's memref holds its block; the position says which run applies, and where the sum
    continues the output's memref holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 4 := lt_of_lt_of_eq t.isLt (show cfg1.N = 4 from N_1)
  by_cases h0 : t.val % 2 = 0
  · rw [outsAt1_A V c t h0]
    unfold out1_A
    iintro ⟨HΦ, Ho, ⟨%d0, H0⟩, ⟨%d1, H1⟩⟩
    iapply ((kernelRun1_A c (grid1.coords t) _ _ _ _ ((hcond1 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A c _ _ _ _ _ _ _)
  · rw [outsAt1_B V c t h0]
    simp only [before1_1_B V c t h0]
    unfold out1_B
    iintro ⟨HΦ, Ho, ⟨%d0, H0⟩, ⟨%d1, H1⟩⟩
    iapply ((kernelRun1_B c (grid1.coords t) _ _ _ _ (fun h => h0 ((hcond1 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B c _ _ _ _ _ _ _ _)

/-- The obligation the pipelined launch asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRegion2.lean ====
/-
  Pallas call 2 of the program: a kernel over a grid of 2 × 3 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt2`, by recursion on the point), the proof data of the pipeline (`dat2`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose input array is
    `V`'s and whose body leaves the input block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The reset condition -/

/-- The body's one condition: the sequence-tile coordinate is zero. -/
abbrev cond2 (i : grid2.Coords) : Prop := (Scalar.cmpi .ne (Scalar.extui (Scalar.cmpi .eq (BitVec.ofNat 32 (i 1).val) 0#32)) 0#32) = 1#1
/-- Over the grid, in row-major order, it holds exactly at the points whose position is a multiple of 3. -/
theorem hcond2 : ∀ t : Fin cfg2.N, cond2 (grid2.coords t) ↔ t.val % 3 = 0 :=
  (by decide +kernel : ∀ t : Fin grid2.N, cond2 (grid2.coords t) ↔ t.val % 3 = 0)

/-- One staging buffer of the output window, through which its contents are stated. -/
abbrev VO2 : View sig .tc .vmem S256x128 .f32 := (Memref.whole cc2_stg1_0 : Memref sig .tc .vmem S256x128 .f32).view
/-- Each window's current staging memref at point `t`, as the pipeline passes it, and its wholeness. -/
abbrev ms2_0 (t : Fin cfg2.N) : Memref sig .tc .vmem S256x64x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__sum_kernel i arg2 harg2 arg3 harg3) K } := by
  refine ⟨?_, fun E K => ?run⟩
  case run =>
    simp only [cc2__sum_kernel_eq_skeleton]; unfold cc2__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc2__sum_kernel i arg2 harg2 arg3 harg3) K } := by
  refine ⟨?_, fun E K => ?run⟩
  case run =>
    simp only [cc2__sum_kernel_eq_skeleton]; unfold cc2__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) (y : S256x128.Idx) :
    ∃ pc ∈ (kernelRun2_A c i arg2 harg2 arg3 harg3 hc0 x0).1, y ∈ pc.1.set :=
  View.cover_of_tiledL (kernelRun2_A c i arg2 harg2 arg3 harg3 hc0 x0).1 S256x128.size (by sl_kernel_rfl) y

/-- The output block after a point where the condition holds. -/
def out2_A (c : Dev nD) (i : grid2.Coords) (arg2 : Memref sig .tc .vmem S256x64x128 .f32) (harg2 : arg2.IsWhole) (arg3 : Memref sig .tc .vmem S256x128 .f32) (harg3 : arg3.IsWhole) (hc0 : cond2 i)
    (x0 : Vec F S256x64x128 .f32) : Vec F S256x128 .f32 :=
  VO2.read (Elt F) (VO2.writes (Elt F) VO2.junk (kernelRun2_A c i arg2 harg2 arg3 harg3 hc0 x0).1)

/-- The piece stored where the condition fails covers the output block. -/
theorem cover2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) (y : S256x128.Idx) :
    ∃ pc ∈ (kernelRun2_B c i arg2 harg2 arg3 harg3 hc0 x0 xo1).1, y ∈ pc.1.set :=
  View.cover_of_tiledL (kernelRun2_B c i arg2 harg2 arg3 harg3 hc0 x0 xo1).1 S256x128.size (by sl_kernel_rfl) y

/-- The output block after a point where the condition fails, from its contents before the point. -/
def out2_B (c : Dev nD) (i : grid2.Coords) (arg2 : Memref sig .tc .vmem S256x64x128 .f32) (harg2 : arg2.IsWhole) (arg3 : Memref sig .tc .vmem S256x128 .f32) (harg3 : arg3.IsWhole) (hc0 : ¬cond2 i)
    (x0 : Vec F S256x64x128 .f32) (xo1 : Vec F S256x128 .f32) : Vec F S256x128 .f32 :=
  VO2.read (Elt F) (VO2.writes (Elt F) VO2.junk (kernelRun2_B c i arg2 harg2 arg3 harg3 hc0 x0 xo1).1)

/-! ## The running sum, point by point -/

/-- What the output's staging buffer holds after the body at position `n` of the grid: restarted where `n` is a multiple
    of 3, and otherwise continued from what position `n - 1` left. -/
def outsAt2 (c : Dev nD) : (n : ℕ) → n < cfg2.N → Vec F S256x128 .f32
  | 0, hn => out2_A c (grid2.coords ⟨0, hn⟩) (ms2_0 ⟨0, hn⟩) (hs2_0 ⟨0, hn⟩) (ms2_1 ⟨0, hn⟩) (hs2_1 ⟨0, hn⟩) ((hcond2 ⟨0, hn⟩).mpr (Nat.zero_mod _)) (iblk2 V c 0 ⟨0, hn⟩)
  | n + 1, hn =>
    if h0 : (n + 1) % 3 = 0 then
      out2_A c (grid2.coords ⟨n + 1, hn⟩) (ms2_0 ⟨n + 1, hn⟩) (hs2_0 ⟨n + 1, hn⟩) (ms2_1 ⟨n + 1, hn⟩) (hs2_1 ⟨n + 1, hn⟩) ((hcond2 ⟨n + 1, hn⟩).mpr h0) (iblk2 V c 0 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (fun h => h0 ((hcond2 ⟨n + 1, hn⟩).mp h)) (iblk2 V c 0 ⟨n + 1, hn⟩) (outsAt2 c n (Nat.lt_of_succ_lt hn))

theorem outsAt2_A (c : Dev nD) (t : Fin cfg2.N) (h0 : t.val % 3 = 0) :
    outsAt2 V c t.val t.isLt = out2_A c (grid2.coords t) (ms2_0 t) (hs2_0 t) (ms2_1 t) (hs2_1 t) ((hcond2 t).mpr h0) (iblk2 V c 0 t) := by
  obtain ⟨n, hn⟩ := t
  cases n with
  | zero => exact rfl
  | succ n => exact (dif_pos h0).trans rfl

theorem outsAt2_B (c : Dev nD) (t : Fin cfg2.N) (h0 : ¬t.val % 3 = 0) :
    outsAt2 V c t.val t.isLt = out2_B c (grid2.coords t) (ms2_0 t) (hs2_0 t) (ms2_1 t) (hs2_1 t) (fun h => h0 ((hcond2 t).mp h)) (iblk2 V c 0 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d

/-- At a point that does not restart the sum the output's staging buffer holds what the point before left: that point
    did not write the block back. -/
theorem before2_1_B (c : Dev nD) (t : Fin cfg2.N) (h0 : ¬t.val % 3 = 0) (d) :
    (dat2 V c).before 1 t d = (outsAt2 V c (t.val - 1) (Nat.lt_of_le_of_lt (Nat.sub_le _ _) t.isLt)) := by
  have hN : t.val < 6 := lt_of_lt_of_eq t.isLt (show cfg2.N = 6 from N_2)
  rw [Dat.before_out_kept _ 1 rfl t (by omega) (Bool.eq_false_iff.mpr fun h => by have := (flush2_1 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
/-- The body at any point: the input's memref holds its block; the position says which run applies, and where the sum
    continues the output's memref holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 6 := lt_of_lt_of_eq t.isLt (show cfg2.N = 6 from N_2)
  by_cases h0 : t.val % 3 = 0
  · rw [outsAt2_A V c t h0]
    unfold out2_A
    iintro ⟨HΦ, Ho, ⟨%d0, H0⟩, ⟨%d1, H1⟩⟩
    iapply ((kernelRun2_A c (grid2.coords t) _ _ _ _ ((hcond2 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A c _ _ _ _ _ _ _)
  · rw [outsAt2_B V c t h0]
    simp only [before2_1_B V c t h0]
    unfold out2_B
    iintro ⟨HΦ, Ho, ⟨%d0, H0⟩, ⟨%d1, H1⟩⟩
    iapply ((kernelRun2_B c (grid2.coords t) _ _ _ _ (fun h => h0 ((hcond2 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B c _ _ _ _ _ _ _ _)

/-- The obligation the pipelined launch asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRegion3.lean ====
/-
  Pallas call 3 of the program: a kernel over a grid of 2 × 4 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt3`, by recursion on the point), the proof data of the pipeline (`dat3`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input window's current staging buffer holds its block at every point, for any proof data whose input array is
    `V`'s and whose body leaves the input block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The reset condition -/

/-- The body's one condition: the sequence-tile coordinate is zero. -/
abbrev cond3 (i : grid3.Coords) : Prop := (Scalar.cmpi .ne (Scalar.extui (Scalar.cmpi .eq (BitVec.ofNat 32 (i 1).val) 0#32)) 0#32) = 1#1
/-- Over the grid, in row-major order, it holds exactly at the points whose position is a multiple of 4. -/
theorem hcond3 : ∀ t : Fin cfg3.N, cond3 (grid3.coords t) ↔ t.val % 4 = 0 :=
  (by decide +kernel : ∀ t : Fin grid3.N, cond3 (grid3.coords t) ↔ t.val % 4 = 0)

/-- One staging buffer of the output window, through which its contents are stated. -/
abbrev VO3 : View sig .tc .vmem S256x128 .f32 := (Memref.whole cc3_stg1_0 : Memref sig .tc .vmem S256x128 .f32).view
/-- Each window's current staging memref at point `t`, as the pipeline passes it, and its wholeness. -/
abbrev ms3_0 (t : Fin cfg3.N) : Memref sig .tc .vmem S256x64x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x128 .f32 := win3_1.stage (cfg3.slots t 1)
abbrev hs3_1 (t : Fin cfg3.N) : (ms3_1 t).IsWhole := hstage3_1 ((cfg3.slots t 1).cast nbuf3_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc3__sum_kernel i arg2 harg2 arg3 harg3) K } := by
  refine ⟨?_, fun E K => ?run⟩
  case run =>
    simp only [cc3__sum_kernel_eq_skeleton]; unfold cc3__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc3__sum_kernel i arg2 harg2 arg3 harg3) K } := by
  refine ⟨?_, fun E K => ?run⟩
  case run =>
    simp only [cc3__sum_kernel_eq_skeleton]; unfold cc3__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) (y : S256x128.Idx) :
    ∃ pc ∈ (kernelRun3_A c i arg2 harg2 arg3 harg3 hc0 x0).1, y ∈ pc.1.set :=
  View.cover_of_tiledL (kernelRun3_A c i arg2 harg2 arg3 harg3 hc0 x0).1 S256x128.size (by sl_kernel_rfl) y

/-- The output block after a point where the condition holds. -/
def out3_A (c : Dev nD) (i : grid3.Coords) (arg2 : Memref sig .tc .vmem S256x64x128 .f32) (harg2 : arg2.IsWhole) (arg3 : Memref sig .tc .vmem S256x128 .f32) (harg3 : arg3.IsWhole) (hc0 : cond3 i)
    (x0 : Vec F S256x64x128 .f32) : Vec F S256x128 .f32 :=
  VO3.read (Elt F) (VO3.writes (Elt F) VO3.junk (kernelRun3_A c i arg2 harg2 arg3 harg3 hc0 x0).1)

/-- The piece stored where the condition fails covers the output block. -/
theorem cover3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) (y : S256x128.Idx) :
    ∃ pc ∈ (kernelRun3_B c i arg2 harg2 arg3 harg3 hc0 x0 xo1).1, y ∈ pc.1.set :=
  View.cover_of_tiledL (kernelRun3_B c i arg2 harg2 arg3 harg3 hc0 x0 xo1).1 S256x128.size (by sl_kernel_rfl) y

/-- The output block after a point where the condition fails, from its contents before the point. -/
def out3_B (c : Dev nD) (i : grid3.Coords) (arg2 : Memref sig .tc .vmem S256x64x128 .f32) (harg2 : arg2.IsWhole) (arg3 : Memref sig .tc .vmem S256x128 .f32) (harg3 : arg3.IsWhole) (hc0 : ¬cond3 i)
    (x0 : Vec F S256x64x128 .f32) (xo1 : Vec F S256x128 .f32) : Vec F S256x128 .f32 :=
  VO3.read (Elt F) (VO3.writes (Elt F) VO3.junk (kernelRun3_B c i arg2 harg2 arg3 harg3 hc0 x0 xo1).1)

/-! ## The running sum, point by point -/

/-- What the output's staging buffer holds after the body at position `n` of the grid: restarted where `n` is a multiple
    of 4, and otherwise continued from what position `n - 1` left. -/
def outsAt3 (c : Dev nD) : (n : ℕ) → n < cfg3.N → Vec F S256x128 .f32
  | 0, hn => out3_A c (grid3.coords ⟨0, hn⟩) (ms3_0 ⟨0, hn⟩) (hs3_0 ⟨0, hn⟩) (ms3_1 ⟨0, hn⟩) (hs3_1 ⟨0, hn⟩) ((hcond3 ⟨0, hn⟩).mpr (Nat.zero_mod _)) (iblk3 V c 0 ⟨0, hn⟩)
  | n + 1, hn =>
    if h0 : (n + 1) % 4 = 0 then
      out3_A c (grid3.coords ⟨n + 1, hn⟩) (ms3_0 ⟨n + 1, hn⟩) (hs3_0 ⟨n + 1, hn⟩) (ms3_1 ⟨n + 1, hn⟩) (hs3_1 ⟨n + 1, hn⟩) ((hcond3 ⟨n + 1, hn⟩).mpr h0) (iblk3 V c 0 ⟨n + 1, hn⟩)
    else
      out3_B c (grid3.coords ⟨n + 1, hn⟩) (ms3_0 ⟨n + 1, hn⟩) (hs3_0 ⟨n + 1, hn⟩) (ms3_1 ⟨n + 1, hn⟩) (hs3_1 ⟨n + 1, hn⟩) (fun h => h0 ((hcond3 ⟨n + 1, hn⟩).mp h)) (iblk3 V c 0 ⟨n + 1, hn⟩) (outsAt3 c n (Nat.lt_of_succ_lt hn))

theorem outsAt3_A (c : Dev nD) (t : Fin cfg3.N) (h0 : t.val % 4 = 0) :
    outsAt3 V c t.val t.isLt = out3_A c (grid3.coords t) (ms3_0 t) (hs3_0 t) (ms3_1 t) (hs3_1 t) ((hcond3 t).mpr h0) (iblk3 V c 0 t) := by
  obtain ⟨n, hn⟩ := t
  cases n with
  | zero => exact rfl
  | succ n => exact (dif_pos h0).trans rfl

theorem outsAt3_B (c : Dev nD) (t : Fin cfg3.N) (h0 : ¬t.val % 4 = 0) :
    outsAt3 V c t.val t.isLt = out3_B c (grid3.coords t) (ms3_0 t) (hs3_0 t) (ms3_1 t) (hs3_1 t) (fun h => h0 ((hcond3 t).mp h)) (iblk3 V c 0 t) (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d

/-- At a point that does not restart the sum the output's staging buffer holds what the point before left: that point
    did not write the block back. -/
theorem before3_1_B (c : Dev nD) (t : Fin cfg3.N) (h0 : ¬t.val % 4 = 0) (d) :
    (dat3 V c).before 1 t d = (outsAt3 V c (t.val - 1) (Nat.lt_of_le_of_lt (Nat.sub_le _ _) t.isLt)) := by
  have hN : t.val < 8 := lt_of_lt_of_eq t.isLt (show cfg3.N = 8 from N_3)
  rw [Dat.before_out_kept _ 1 rfl t (by omega) (Bool.eq_false_iff.mpr fun h => by have := (flush3_1 _).mp h; dsimp only at this; omega)
    (fun _ => rfl) (fun _ _ => rfl)]
  dsimp only [dat3]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t))

set_option maxHeartbeats 800000 in
/-- The body at any point: the input's memref holds its block; the position says which run applies, and where the sum
    continues the output's memref holds what the point before left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  have hN : t.val < 8 := lt_of_lt_of_eq t.isLt (show cfg3.N = 8 from N_3)
  by_cases h0 : t.val % 4 = 0
  · rw [outsAt3_A V c t h0]
    unfold out3_A
    iintro ⟨HΦ, Ho, ⟨%d0, H0⟩, ⟨%d1, H1⟩⟩
    iapply ((kernelRun3_A c (grid3.coords t) _ _ _ _ ((hcond3 t).mpr h0) (iblk3 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_A c _ _ _ _ _ _ _)
  · rw [outsAt3_B V c t h0]
    simp only [before3_1_B V c t h0]
    unfold out3_B
    iintro ⟨HΦ, Ho, ⟨%d0, H0⟩, ⟨%d1, H1⟩⟩
    iapply ((kernelRun3_B c (grid3.coords t) _ _ _ _ (fun h => h0 ((hcond3 t).mp h)) (iblk3 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover3_B c _ _ _ _ _ _ _ _)

/-- The obligation the pipelined launch asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdealRegion4.lean ====
/-
  Pallas call 4 of the program: a kernel over a grid of 2 × 5 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt4`, by recursion on the point), the proof data of the pipeline (`dat4`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose input array is
    `V`'s and whose body leaves the input block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The reset condition -/

/-- The body's one condition: the sequence-tile coordinate is zero. -/
abbrev cond4 (i : grid4.Coords) : Prop := (Scalar.cmpi .ne (Scalar.extui (Scalar.cmpi .eq (BitVec.ofNat 32 (i 1).val) 0#32)) 0#32) = 1#1
/-- Over the grid, in row-major order, it holds exactly at the points whose position is a multiple of 5. -/
theorem hcond4 : ∀ t : Fin cfg4.N, cond4 (grid4.coords t) ↔ t.val % 5 = 0 :=
  (by decide +kernel : ∀ t : Fin grid4.N, cond4 (grid4.coords t) ↔ t.val % 5 = 0)

/-- One staging buffer of the output window, through which its contents are stated. -/
abbrev VO4 : View sig .tc .vmem S256x128 .f32 := (Memref.whole cc4_stg1_0 : Memref sig .tc .vmem S256x128 .f32).view
/-- Each window's current staging memref at point `t`, as the pipeline passes it, and its wholeness. -/
abbrev ms4_0 (t : Fin cfg4.N) : Memref sig .tc .vmem S256x64x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x128 .f32 := win4_1.stage (cfg4.slots t 1)
abbrev hs4_1 (t : Fin cfg4.N) : (ms4_1 t).IsWhole := hstage4_1 ((cfg4.slots t 1).cast nbuf4_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc4__sum_kernel i arg2 harg2 arg3 harg3) K } := by
  refine ⟨?_, fun E K => ?run⟩
  case run =>
    simp only [cc4__sum_kernel_eq_skeleton]; unfold cc4__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc4__sum_kernel i arg2 harg2 arg3 harg3) K } := by
  refine ⟨?_, fun E K => ?run⟩
  case run =>
    simp only [cc4__sum_kernel_eq_skeleton]; unfold cc4__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) (y : S256x128.Idx) :
    ∃ pc ∈ (kernelRun4_A c i arg2 harg2 arg3 harg3 hc0 x0).1, y ∈ pc.1.set :=
  View.cover_of_tiledL (kernelRun4_A c i arg2 harg2 arg3 harg3 hc0 x0).1 S256x128.size (by sl_kernel_rfl) y

/-- The output block after a point where the condition holds. -/
def out4_A (c : Dev nD) (i : grid4.Coords) (arg2 : Memref sig .tc .vmem S256x64x128 .f32) (harg2 : arg2.IsWhole) (arg3 : Memref sig .tc .vmem S256x128 .f32) (harg3 : arg3.IsWhole) (hc0 : cond4 i)
    (x0 : Vec F S256x64x128 .f32) : Vec F S256x128 .f32 :=
  VO4.read (Elt F) (VO4.writes (Elt F) VO4.junk (kernelRun4_A c i arg2 harg2 arg3 harg3 hc0 x0).1)

/-- The piece stored where the condition fails covers the output block. -/
theorem cover4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) (y : S256x128.Idx) :
    ∃ pc ∈ (kernelRun4_B c i arg2 harg2 arg3 harg3 hc0 x0 xo1).1, y ∈ pc.1.set :=
  View.cover_of_tiledL (kernelRun4_B c i arg2 harg2 arg3 harg3 hc0 x0 xo1).1 S256x128.size (by sl_kernel_rfl) y

/-- The output block after a point where the condition fails, from its contents before the point. -/
def out4_B (c : Dev nD) (i : grid4.Coords) (arg2 : Memref sig .tc .vmem S256x64x128 .f32) (harg2 : arg2.IsWhole) (arg3 : Memref sig .tc .vmem S256x128 .f32) (harg3 : arg3.IsWhole) (hc0 : ¬cond4 i)
    (x0 : Vec F S256x64x128 .f32) (xo1 : Vec F S256x128 .f32) : Vec F S256x128 .f32 :=
  VO4.read (Elt F) (VO4.writes (Elt F) VO4.junk (kernelRun4_B c i arg2 harg2 arg3 harg3 hc0 x0 xo1).1)

/-! ## The running sum, point by point -/

/-- What the output's staging buffer holds after the body at position `n` of the grid: restarted where `n` is a multiple
    of 5, and otherwise continued from what position `n - 1` left. -/
def outsAt4 (c : Dev nD) : (n : ℕ) → n < cfg4.N → Vec F S256x128 .f32
  | 0, hn => out4_A c (grid4.coords ⟨0, hn⟩) (ms4_0 ⟨0, hn⟩) (hs4_0 ⟨0, hn⟩) (ms4_1 ⟨0, hn⟩) (hs4_1 ⟨0, hn⟩) ((hcond4 ⟨0, hn⟩).mpr (Nat.zero_mod _)) (iblk4 V c 0 ⟨0, hn⟩)
  | n + 1, hn =>
    if h0 : (n + 1) % 5 = 0 then
      out4_A c (grid4.coords ⟨n + 1, hn⟩) (ms4_0 ⟨n + 1, hn⟩) (hs4_0 ⟨n + 1, hn⟩) (ms4_1 ⟨n + 1, hn⟩) (hs4_1 ⟨n + 1, hn⟩) ((hcond4 ⟨n + 1, hn⟩).mpr h0) (iblk4 V c 0 ⟨n + 1, hn⟩)
    else
      out4_B c (grid4.coords ⟨n + 1, hn⟩) (ms4_0 ⟨n + 1, hn⟩) (hs4_0 ⟨n + 1, hn⟩) (ms4_1 ⟨n + 1, hn⟩) (hs4_1 ⟨n + 1, hn⟩) (fun h => h0 ((hcond4 ⟨n + 1, hn⟩).mp h)) (iblk4 V c 0 ⟨n + 1, hn⟩) (outsAt4 c n (Nat.lt_of_succ_lt hn))

theorem outsAt4_A (c : Dev nD) (t : Fin cfg4.N) (h0 : t.val % 5 = 0) :
    outsAt4 V c t.val t.isLt = out4_A c (grid4.coords t) (ms4_0 t) (hs4_0 t) (ms4_1 t) (hs4_1 t) ((hcond4 t).mpr h0) (iblk4 V c 0 t) := by
  obtain ⟨n, hn⟩ := t
  cases n with
  | zero => exact rfl
  | succ n => exact (dif_pos h0).trans rfl

theorem outsAt4_B (c : Dev nD) (t : Fin cfg4.N) (h0 : ¬t.val % 5 = 0) :
    outsAt4 V c t.val t.isLt = out4_B c (grid4.coords t) (ms4_0 t) (hs4_0 t) (ms4_1 t) (hs4_1 t) (fun h => h0 ((hcond4 t).mp h)) (iblk4 V c 0 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d

/-- At a point that does not restart the sum the output's staging buffer holds what the point before left: that point
    did not write the block back. -/
theorem before4_1_B (c : Dev nD) (t : Fin cfg4.N) (h0 : ¬t.val % 5 = 0) (d) :
    (dat4 V c).before 1 t d = (outsAt4 V c (t.val - 1) (Nat.lt_of_le_of_lt (Nat.sub_le _ _) t.isLt)) := by
  have hN : t.val < 10 := lt_of_lt_of_eq t.isLt (show cfg4.N = 10 from N_4)
  rw [Dat.before_out_kept _ 1 rfl t (by omega) (Bool.eq_false_iff.mpr fun h => by have := (flush4_1 _).mp h; dsimp only at this; omega)
    (fun _ => rfl) (fun _ _ => rfl)]
  dsimp only [dat4]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
/-- The body at any point: the input's memref holds its block; the position says which run applies, and where the sum
    continues the output's memref holds what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 10 := lt_of_lt_of_eq t.isLt (show cfg4.N = 10 from N_4)
  by_cases h0 : t.val % 5 = 0
  · rw [outsAt4_A V c t h0]
    unfold out4_A
    iintro ⟨HΦ, Ho, ⟨%d0, H0⟩, ⟨%d1, H1⟩⟩
    iapply ((kernelRun4_A c (grid4.coords t) _ _ _ _ ((hcond4 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A c _ _ _ _ _ _ _)
  · rw [outsAt4_B V c t h0]
    simp only [before4_1_B V c t h0]
    unfold out4_B
    iintro ⟨HΦ, Ho, ⟨%d0, H0⟩, ⟨%d1, H1⟩⟩
    iapply ((kernelRun4_B c (grid4.coords t) _ _ _ _ (fun h => h0 ((hcond4 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B c _ _ _ _ _ _ _ _)

/-- The obligation the pipelined launch asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdealRegion5.lean ====
/-
  Pallas call 5 of the program: a kernel over a grid of 2 × 6 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt5`, by recursion on the point), the proof data of the pipeline (`dat5`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The input window's current staging buffer holds its block at every point, for any proof data whose input array is
    `V`'s and whose body leaves the input block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## The reset condition -/

/-- The body's one condition: the sequence-tile coordinate is zero. -/
abbrev cond5 (i : grid5.Coords) : Prop := (Scalar.cmpi .ne (Scalar.extui (Scalar.cmpi .eq (BitVec.ofNat 32 (i 1).val) 0#32)) 0#32) = 1#1
/-- Over the grid, in row-major order, it holds exactly at the points whose position is a multiple of 6. -/
theorem hcond5 : ∀ t : Fin cfg5.N, cond5 (grid5.coords t) ↔ t.val % 6 = 0 :=
  (by decide +kernel : ∀ t : Fin grid5.N, cond5 (grid5.coords t) ↔ t.val % 6 = 0)

/-- One staging buffer of the output window, through which its contents are stated. -/
abbrev VO5 : View sig .tc .vmem S256x128 .f32 := (Memref.whole cc5_stg1_0 : Memref sig .tc .vmem S256x128 .f32).view
/-- Each window's current staging memref at point `t`, as the pipeline passes it, and its wholeness. -/
abbrev ms5_0 (t : Fin cfg5.N) : Memref sig .tc .vmem S256x64x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x128 .f32 := win5_1.stage (cfg5.slots t 1)
abbrev hs5_1 (t : Fin cfg5.N) : (ms5_1 t).IsWhole := hstage5_1 ((cfg5.slots t 1).cast nbuf5_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc5__sum_kernel i arg2 harg2 arg3 harg3) K } := by
  refine ⟨?_, fun E K => ?run⟩
  case run =>
    simp only [cc5__sum_kernel_eq_skeleton]; unfold cc5__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc5__sum_kernel i arg2 harg2 arg3 harg3) K } := by
  refine ⟨?_, fun E K => ?run⟩
  case run =>
    simp only [cc5__sum_kernel_eq_skeleton]; unfold cc5__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) (y : S256x128.Idx) :
    ∃ pc ∈ (kernelRun5_A c i arg2 harg2 arg3 harg3 hc0 x0).1, y ∈ pc.1.set :=
  View.cover_of_tiledL (kernelRun5_A c i arg2 harg2 arg3 harg3 hc0 x0).1 S256x128.size (by sl_kernel_rfl) y

/-- The output block after a point where the condition holds. -/
def out5_A (c : Dev nD) (i : grid5.Coords) (arg2 : Memref sig .tc .vmem S256x64x128 .f32) (harg2 : arg2.IsWhole) (arg3 : Memref sig .tc .vmem S256x128 .f32) (harg3 : arg3.IsWhole) (hc0 : cond5 i)
    (x0 : Vec F S256x64x128 .f32) : Vec F S256x128 .f32 :=
  VO5.read (Elt F) (VO5.writes (Elt F) VO5.junk (kernelRun5_A c i arg2 harg2 arg3 harg3 hc0 x0).1)

/-- The piece stored where the condition fails covers the output block. -/
theorem cover5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) (y : S256x128.Idx) :
    ∃ pc ∈ (kernelRun5_B c i arg2 harg2 arg3 harg3 hc0 x0 xo1).1, y ∈ pc.1.set :=
  View.cover_of_tiledL (kernelRun5_B c i arg2 harg2 arg3 harg3 hc0 x0 xo1).1 S256x128.size (by sl_kernel_rfl) y

/-- The output block after a point where the condition fails, from its contents before the point. -/
def out5_B (c : Dev nD) (i : grid5.Coords) (arg2 : Memref sig .tc .vmem S256x64x128 .f32) (harg2 : arg2.IsWhole) (arg3 : Memref sig .tc .vmem S256x128 .f32) (harg3 : arg3.IsWhole) (hc0 : ¬cond5 i)
    (x0 : Vec F S256x64x128 .f32) (xo1 : Vec F S256x128 .f32) : Vec F S256x128 .f32 :=
  VO5.read (Elt F) (VO5.writes (Elt F) VO5.junk (kernelRun5_B c i arg2 harg2 arg3 harg3 hc0 x0 xo1).1)

/-! ## The running sum, point by point -/

/-- What the output's staging buffer holds after the body at position `n` of the grid: restarted where `n` is a multiple
    of 6, and otherwise continued from what position `n - 1` left. -/
def outsAt5 (c : Dev nD) : (n : ℕ) → n < cfg5.N → Vec F S256x128 .f32
  | 0, hn => out5_A c (grid5.coords ⟨0, hn⟩) (ms5_0 ⟨0, hn⟩) (hs5_0 ⟨0, hn⟩) (ms5_1 ⟨0, hn⟩) (hs5_1 ⟨0, hn⟩) ((hcond5 ⟨0, hn⟩).mpr (Nat.zero_mod _)) (iblk5 V c 0 ⟨0, hn⟩)
  | n + 1, hn =>
    if h0 : (n + 1) % 6 = 0 then
      out5_A c (grid5.coords ⟨n + 1, hn⟩) (ms5_0 ⟨n + 1, hn⟩) (hs5_0 ⟨n + 1, hn⟩) (ms5_1 ⟨n + 1, hn⟩) (hs5_1 ⟨n + 1, hn⟩) ((hcond5 ⟨n + 1, hn⟩).mpr h0) (iblk5 V c 0 ⟨n + 1, hn⟩)
    else
      out5_B c (grid5.coords ⟨n + 1, hn⟩) (ms5_0 ⟨n + 1, hn⟩) (hs5_0 ⟨n + 1, hn⟩) (ms5_1 ⟨n + 1, hn⟩) (hs5_1 ⟨n + 1, hn⟩) (fun h => h0 ((hcond5 ⟨n + 1, hn⟩).mp h)) (iblk5 V c 0 ⟨n + 1, hn⟩) (outsAt5 c n (Nat.lt_of_succ_lt hn))

theorem outsAt5_A (c : Dev nD) (t : Fin cfg5.N) (h0 : t.val % 6 = 0) :
    outsAt5 V c t.val t.isLt = out5_A c (grid5.coords t) (ms5_0 t) (hs5_0 t) (ms5_1 t) (hs5_1 t) ((hcond5 t).mpr h0) (iblk5 V c 0 t) := by
  obtain ⟨n, hn⟩ := t
  cases n with
  | zero => exact rfl
  | succ n => exact (dif_pos h0).trans rfl

theorem outsAt5_B (c : Dev nD) (t : Fin cfg5.N) (h0 : ¬t.val % 6 = 0) :
    outsAt5 V c t.val t.isLt = out5_B c (grid5.coords t) (ms5_0 t) (hs5_0 t) (ms5_1 t) (hs5_1 t) (fun h => h0 ((hcond5 t).mp h)) (iblk5 V c 0 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d

/-- At a point that does not restart the sum the output's staging buffer holds what the point before left: that point
    did not write the block back. -/
theorem before5_1_B (c : Dev nD) (t : Fin cfg5.N) (h0 : ¬t.val % 6 = 0) (d) :
    (dat5 V c).before 1 t d = (outsAt5 V c (t.val - 1) (Nat.lt_of_le_of_lt (Nat.sub_le _ _) t.isLt)) := by
  have hN : t.val < 12 := lt_of_lt_of_eq t.isLt (show cfg5.N = 12 from N_5)
  rw [Dat.before_out_kept _ 1 rfl t (by omega) (Bool.eq_false_iff.mpr fun h => by have := (flush5_1 _).mp h; dsimp only at this; omega)
    (fun _ => rfl) (fun _ _ => rfl)]
  dsimp only [dat5]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t))

set_option maxHeartbeats 800000 in
/-- The body at any point: the input's memref holds its block; the position says which run applies, and where the sum
    continues the output's memref holds what the point before left. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0]
  rw [show (dat5 V c).Φ t.succ = (dat5 V c).Φ t.castSucc from rfl,
    show (dat5 V c).owesAt () t.succ = (dat5 V c).owesAt () t.castSucc from rfl,
    after5_0, after5_1]
  have hN : t.val < 12 := lt_of_lt_of_eq t.isLt (show cfg5.N = 12 from N_5)
  by_cases h0 : t.val % 6 = 0
  · rw [outsAt5_A V c t h0]
    unfold out5_A
    iintro ⟨HΦ, Ho, ⟨%d0, H0⟩, ⟨%d1, H1⟩⟩
    iapply ((kernelRun5_A c (grid5.coords t) _ _ _ _ ((hcond5 t).mpr h0) (iblk5 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover5_A c _ _ _ _ _ _ _)
  · rw [outsAt5_B V c t h0]
    simp only [before5_1_B V c t h0]
    unfold out5_B
    iintro ⟨HΦ, Ho, ⟨%d0, H0⟩, ⟨%d1, H1⟩⟩
    iapply ((kernelRun5_B c (grid5.coords t) _ _ _ _ (fun h => h0 ((hcond5 t).mp h)) (iblk5 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover5_B c _ _ _ _ _ _ _ _)

/-- The obligation the pipelined launch asks of the body, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdealRegion6.lean ====
/-
  Pallas call 6 of the program: a kernel over a grid of 2 × 7 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt6`, by recursion on the point), the proof data of the pipeline (`dat6`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The input window's current staging buffer holds its block at every point, for any proof data whose input array is
    `V`'s and whose body leaves the input block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## The reset condition -/

/-- The body's one condition: the sequence-tile coordinate is zero. -/
abbrev cond6 (i : grid6.Coords) : Prop := (Scalar.cmpi .ne (Scalar.extui (Scalar.cmpi .eq (BitVec.ofNat 32 (i 1).val) 0#32)) 0#32) = 1#1
/-- Over the grid, in row-major order, it holds exactly at the points whose position is a multiple of 7. -/
theorem hcond6 : ∀ t : Fin cfg6.N, cond6 (grid6.coords t) ↔ t.val % 7 = 0 :=
  (by decide +kernel : ∀ t : Fin grid6.N, cond6 (grid6.coords t) ↔ t.val % 7 = 0)

/-- One staging buffer of the output window, through which its contents are stated. -/
abbrev VO6 : View sig .tc .vmem S256x128 .f32 := (Memref.whole cc6_stg1_0 : Memref sig .tc .vmem S256x128 .f32).view
/-- Each window's current staging memref at point `t`, as the pipeline passes it, and its wholeness. -/
abbrev ms6_0 (t : Fin cfg6.N) : Memref sig .tc .vmem S256x64x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x128 .f32 := win6_1.stage (cfg6.slots t 1)
abbrev hs6_1 (t : Fin cfg6.N) : (ms6_1 t).IsWhole := hstage6_1 ((cfg6.slots t 1).cast nbuf6_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc6__sum_kernel i arg2 harg2 arg3 harg3) K } := by
  refine ⟨?_, fun E K => ?run⟩
  case run =>
    simp only [cc6__sum_kernel_eq_skeleton]; unfold cc6__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc6__sum_kernel i arg2 harg2 arg3 harg3) K } := by
  refine ⟨?_, fun E K => ?run⟩
  case run =>
    simp only [cc6__sum_kernel_eq_skeleton]; unfold cc6__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) (y : S256x128.Idx) :
    ∃ pc ∈ (kernelRun6_A c i arg2 harg2 arg3 harg3 hc0 x0).1, y ∈ pc.1.set :=
  View.cover_of_tiledL (kernelRun6_A c i arg2 harg2 arg3 harg3 hc0 x0).1 S256x128.size (by sl_kernel_rfl) y

/-- The output block after a point where the condition holds. -/
def out6_A (c : Dev nD) (i : grid6.Coords) (arg2 : Memref sig .tc .vmem S256x64x128 .f32) (harg2 : arg2.IsWhole) (arg3 : Memref sig .tc .vmem S256x128 .f32) (harg3 : arg3.IsWhole) (hc0 : cond6 i)
    (x0 : Vec F S256x64x128 .f32) : Vec F S256x128 .f32 :=
  VO6.read (Elt F) (VO6.writes (Elt F) VO6.junk (kernelRun6_A c i arg2 harg2 arg3 harg3 hc0 x0).1)

/-- The piece stored where the condition fails covers the output block. -/
theorem cover6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) (y : S256x128.Idx) :
    ∃ pc ∈ (kernelRun6_B c i arg2 harg2 arg3 harg3 hc0 x0 xo1).1, y ∈ pc.1.set :=
  View.cover_of_tiledL (kernelRun6_B c i arg2 harg2 arg3 harg3 hc0 x0 xo1).1 S256x128.size (by sl_kernel_rfl) y

/-- The output block after a point where the condition fails, from its contents before the point. -/
def out6_B (c : Dev nD) (i : grid6.Coords) (arg2 : Memref sig .tc .vmem S256x64x128 .f32) (harg2 : arg2.IsWhole) (arg3 : Memref sig .tc .vmem S256x128 .f32) (harg3 : arg3.IsWhole) (hc0 : ¬cond6 i)
    (x0 : Vec F S256x64x128 .f32) (xo1 : Vec F S256x128 .f32) : Vec F S256x128 .f32 :=
  VO6.read (Elt F) (VO6.writes (Elt F) VO6.junk (kernelRun6_B c i arg2 harg2 arg3 harg3 hc0 x0 xo1).1)

/-! ## The running sum, point by point -/

/-- What the output's staging buffer holds after the body at position `n` of the grid: restarted where `n` is a multiple
    of 7, and otherwise continued from what position `n - 1` left. -/
def outsAt6 (c : Dev nD) : (n : ℕ) → n < cfg6.N → Vec F S256x128 .f32
  | 0, hn => out6_A c (grid6.coords ⟨0, hn⟩) (ms6_0 ⟨0, hn⟩) (hs6_0 ⟨0, hn⟩) (ms6_1 ⟨0, hn⟩) (hs6_1 ⟨0, hn⟩) ((hcond6 ⟨0, hn⟩).mpr (Nat.zero_mod _)) (iblk6 V c 0 ⟨0, hn⟩)
  | n + 1, hn =>
    if h0 : (n + 1) % 7 = 0 then
      out6_A c (grid6.coords ⟨n + 1, hn⟩) (ms6_0 ⟨n + 1, hn⟩) (hs6_0 ⟨n + 1, hn⟩) (ms6_1 ⟨n + 1, hn⟩) (hs6_1 ⟨n + 1, hn⟩) ((hcond6 ⟨n + 1, hn⟩).mpr h0) (iblk6 V c 0 ⟨n + 1, hn⟩)
    else
      out6_B c (grid6.coords ⟨n + 1, hn⟩) (ms6_0 ⟨n + 1, hn⟩) (hs6_0 ⟨n + 1, hn⟩) (ms6_1 ⟨n + 1, hn⟩) (hs6_1 ⟨n + 1, hn⟩) (fun h => h0 ((hcond6 ⟨n + 1, hn⟩).mp h)) (iblk6 V c 0 ⟨n + 1, hn⟩) (outsAt6 c n (Nat.lt_of_succ_lt hn))

theorem outsAt6_A (c : Dev nD) (t : Fin cfg6.N) (h0 : t.val % 7 = 0) :
    outsAt6 V c t.val t.isLt = out6_A c (grid6.coords t) (ms6_0 t) (hs6_0 t) (ms6_1 t) (hs6_1 t) ((hcond6 t).mpr h0) (iblk6 V c 0 t) := by
  obtain ⟨n, hn⟩ := t
  cases n with
  | zero => exact rfl
  | succ n => exact (dif_pos h0).trans rfl

theorem outsAt6_B (c : Dev nD) (t : Fin cfg6.N) (h0 : ¬t.val % 7 = 0) :
    outsAt6 V c t.val t.isLt = out6_B c (grid6.coords t) (ms6_0 t) (hs6_0 t) (ms6_1 t) (hs6_1 t) (fun h => h0 ((hcond6 t).mp h)) (iblk6 V c 0 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = (outsAt6 V c t.val t.isLt) := by dsimp only [dat6]

theorem before6_0 (c : Dev nD) (t : Fin cfg6.N) (d) : (dat6 V c).before 0 t d = iblk6 V c 0 t :=
  before6_0_of V (dat6 V c) (A_eq6 V c 0) (after6_0 V c) t d

/-- At a point that does not restart the sum the output's staging buffer holds what the point before left: that point
    did not write the block back. -/
theorem before6_1_B (c : Dev nD) (t : Fin cfg6.N) (h0 : ¬t.val % 7 = 0) (d) :
    (dat6 V c).before 1 t d = (outsAt6 V c (t.val - 1) (Nat.lt_of_le_of_lt (Nat.sub_le _ _) t.isLt)) := by
  have hN : t.val < 14 := lt_of_lt_of_eq t.isLt (show cfg6.N = 14 from N_6)
  rw [Dat.before_out_kept _ 1 rfl t (by omega) (Bool.eq_false_iff.mpr fun h => by have := (flush6_1 _).mp h; dsimp only at this; omega)
    (fun _ => rfl) (fun _ _ => rfl)]
  dsimp only [dat6]

/-! ## The body obligation -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t))

set_option maxHeartbeats 800000 in
/-- The body at any point: the input's memref holds its block; the position says which run applies, and where the sum
    continues the output's memref holds what the point before left. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  have hN : t.val < 14 := lt_of_lt_of_eq t.isLt (show cfg6.N = 14 from N_6)
  by_cases h0 : t.val % 7 = 0
  · rw [outsAt6_A V c t h0]
    unfold out6_A
    iintro ⟨HΦ, Ho, ⟨%d0, H0⟩, ⟨%d1, H1⟩⟩
    iapply ((kernelRun6_A c (grid6.coords t) _ _ _ _ ((hcond6 t).mpr h0) (iblk6 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover6_A c _ _ _ _ _ _ _)
  · rw [outsAt6_B V c t h0]
    simp only [before6_1_B V c t h0]
    unfold out6_B
    iintro ⟨HΦ, Ho, ⟨%d0, H0⟩, ⟨%d1, H1⟩⟩
    iapply ((kernelRun6_B c (grid6.coords t) _ _ _ _ (fun h => h0 ((hcond6 t).mp h)) (iblk6 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover6_B c _ _ _ _ _ _ _ _)

/-- The obligation the pipelined launch asks of the body, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdealRegion7.lean ====
/-
  Pallas call 7 of the program: a kernel over a grid of 2 × 8 points (i, l). At point (i, l) it is handed rows
  [256 i, 256 i + 256) and sequence positions [64 l, 64 l + 64) of its input, a [256, 64, 128] block, and the [256, 128]
  block i of its output. Where l = 0 it first overwrites the output block with zeros; then, at every point, it adds to the
  output block the block's sum along the sequence axis. The output block is written back only after the last l of a row
  block, so between two points of one row block the staging buffer carries the running sum.

  This module states, for any contents `V` the region may find in the device's buffers, what the output's staging buffer
  holds after each point (`outsAt7`, by recursion on the point), the proof data of the pipeline (`dat7`) and the body
  obligation the pipelined launch asks of the body. The body's run is symbolic: one run for the points with l = 0, one for the others.
-/
import proofs.«145553_j48773648613703_2_alg».proof.Proof.Gen.KernelIdeal.Launch
import proofs.«145553_j48773648613703_2_alg».proof.Proof.Gen.KernelIdeal.Skeleton
import proofs.«145553_j48773648613703_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hand the body -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's current staging buffer holds its block at every point, for any proof data whose input array is
    `V`'s and whose body leaves the input block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The reset condition -/

/-- The body's one condition: the sequence-tile coordinate is zero. -/
abbrev cond7 (i : grid7.Coords) : Prop := (Scalar.cmpi .ne (Scalar.extui (Scalar.cmpi .eq (BitVec.ofNat 32 (i 1).val) 0#32)) 0#32) = 1#1
/-- Over the grid, in row-major order, it holds exactly at the points whose position is a multiple of 8. -/
theorem hcond7 : ∀ t : Fin cfg7.N, cond7 (grid7.coords t) ↔ t.val % 8 = 0 :=
  (by decide +kernel : ∀ t : Fin grid7.N, cond7 (grid7.coords t) ↔ t.val % 8 = 0)

/-- One staging buffer of the output window, through which its contents are stated. -/
abbrev VO7 : View sig .tc .vmem S256x128 .f32 := (Memref.whole cc7_stg1_0 : Memref sig .tc .vmem S256x128 .f32).view
/-- Each window's current staging memref at point `t`, as the pipeline passes it, and its wholeness. -/
abbrev ms7_0 (t : Fin cfg7.N) : Memref sig .tc .vmem S256x64x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S256x128 .f32 := win7_1.stage (cfg7.slots t 1)
abbrev hs7_1 (t : Fin cfg7.N) : (ms7_1 t).IsWhole := hstage7_1 ((cfg7.slots t 1).cast nbuf7_1)

/-! ## The body's two runs -/

set_option maxHeartbeats 1000000 in
/-- The body where the condition holds: the input buffer at `x0`, the output buffer at anything; it ends with the input
    buffer as it was and the output buffer with the pieces the run stored (zeros, then zeros plus the block's sums). -/
noncomputable def kernelRun7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) :
    { L1 : List (View.Piece (Elt F) S256x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc7__sum_kernel i arg2 harg2 arg3 harg3) K } := by
  refine ⟨?_, fun E K => ?run⟩
  case run =>
    simp only [cc7__sum_kernel_eq_skeleton]; unfold cc7__sum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 1000000 in
/-- The body where the condition fails: the input buffer at `x0`, the output buffer at its running contents `xo1`; it
    ends with the input buffer as it was and the output buffer with the one piece the run stored (the running contents
    plus the block's sums). -/
noncomputable def kernelRun7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) :
    { L1 : List (View.Piece (Elt F) S256x128 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc7__sum_kernel i arg2 harg2 arg3 harg3) K } := by
  refine ⟨?_, fun E K => ?run⟩
  case run =>
    simp only [cc7__sum_kernel_eq_skeleton]; unfold cc7__sum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

/-! ## What each run leaves in the output's staging buffer -/

/-- The pieces stored where the condition holds cover the output block. -/
theorem cover7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) (y : S256x128.Idx) :
    ∃ pc ∈ (kernelRun7_A c i arg2 harg2 arg3 harg3 hc0 x0).1, y ∈ pc.1.set :=
  View.cover_of_tiledL (kernelRun7_A c i arg2 harg2 arg3 harg3 hc0 x0).1 S256x128.size (by sl_kernel_rfl) y

/-- The output block after a point where the condition holds. -/
def out7_A (c : Dev nD) (i : grid7.Coords) (arg2 : Memref sig .tc .vmem S256x64x128 .f32) (harg2 : arg2.IsWhole) (arg3 : Memref sig .tc .vmem S256x128 .f32) (harg3 : arg3.IsWhole) (hc0 : cond7 i)
    (x0 : Vec F S256x64x128 .f32) : Vec F S256x128 .f32 :=
  VO7.read (Elt F) (VO7.writes (Elt F) VO7.junk (kernelRun7_A c i arg2 harg2 arg3 harg3 hc0 x0).1)

/-- The piece stored where the condition fails covers the output block. -/
theorem cover7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) (y : S256x128.Idx) :
    ∃ pc ∈ (kernelRun7_B c i arg2 harg2 arg3 harg3 hc0 x0 xo1).1, y ∈ pc.1.set :=
  View.cover_of_tiledL (kernelRun7_B c i arg2 harg2 arg3 harg3 hc0 x0 xo1).1 S256x128.size (by sl_kernel_rfl) y

/-- The output block after a point where the condition fails, from its contents before the point. -/
def out7_B (c : Dev nD) (i : grid7.Coords) (arg2 : Memref sig .tc .vmem S256x64x128 .f32) (harg2 : arg2.IsWhole) (arg3 : Memref sig .tc .vmem S256x128 .f32) (harg3 : arg3.IsWhole) (hc0 : ¬cond7 i)
    (x0 : Vec F S256x64x128 .f32) (xo1 : Vec F S256x128 .f32) : Vec F S256x128 .f32 :=
  VO7.read (Elt F) (VO7.writes (Elt F) VO7.junk (kernelRun7_B c i arg2 harg2 arg3 harg3 hc0 x0 xo1).1)

/-! ## The running sum, point by point -/

/-- What the output's staging buffer holds after the body at position `n` of the grid: restarted where `n` is a multiple
    of 8, and otherwise continued from what position `n - 1` left. -/
def outsAt7 (c : Dev nD) : (n : ℕ) → n < cfg7.N → Vec F S256x128 .f32
  | 0, hn => out7_A c (grid7.coords ⟨0, hn⟩) (ms7_0 ⟨0, hn⟩) (hs7_0 ⟨0, hn⟩) (ms7_1 ⟨0, hn⟩) (hs7_1 ⟨0, hn⟩) ((hcond7 ⟨0, hn⟩).mpr (Nat.zero_mod _)) (iblk7 V c 0 ⟨0, hn⟩)
  | n + 1, hn =>
    if h0 : (n + 1) % 8 = 0 then
      out7_A c (grid7.coords ⟨n + 1, hn⟩) (ms7_0 ⟨n + 1, hn⟩) (hs7_0 ⟨n + 1, hn⟩) (ms7_1 ⟨n + 1, hn⟩) (hs7_1 ⟨n + 1, hn⟩) ((hcond7 ⟨n + 1, hn⟩).mpr h0) (iblk7 V c 0 ⟨n + 1, hn⟩)
    else
      out7_B c (grid7.coords ⟨n + 1, hn⟩) (ms7_0 ⟨n + 1, hn⟩) (hs7_0 ⟨n + 1, hn⟩) (ms7_1 ⟨n + 1, hn⟩) (hs7_1 ⟨n + 1, hn⟩) (fun h => h0 ((hcond7 ⟨n + 1, hn⟩).mp h)) (iblk7 V c 0 ⟨n + 1, hn⟩) (outsAt7 c n (Nat.lt_of_succ_lt hn))

theorem outsAt7_A (c : Dev nD) (t : Fin cfg7.N) (h0 : t.val % 8 = 0) :
    outsAt7 V c t.val t.isLt = out7_A c (grid7.coords t) (ms7_0 t) (hs7_0 t) (ms7_1 t) (hs7_1 t) ((hcond7 t).mpr h0) (iblk7 V c 0 t) := by
  obtain ⟨n, hn⟩ := t
  cases n with
  | zero => exact rfl
  | succ n => exact (dif_pos h0).trans rfl

theorem outsAt7_B (c : Dev nD) (t : Fin cfg7.N) (h0 : ¬t.val % 8 = 0) :
    outsAt7 V c t.val t.isLt = out7_B c (grid7.coords t) (ms7_0 t) (hs7_0 t) (ms7_1 t) (hs7_1 t) (fun h => h0 ((hcond7 t).mp h)) (iblk7 V c 0 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the input's buffer at its block and the output's at
    the running sum; the scoped rest and the generator register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (outsAt7 V c t.val t.isLt)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = (outsAt7 V c t.val t.isLt) := by dsimp only [dat7]

theorem before7_0 (c : Dev nD) (t : Fin cfg7.N) (d) : (dat7 V c).before 0 t d = iblk7 V c 0 t :=
  before7_0_of V (dat7 V c) (A_eq7 V c 0) (after7_0 V c) t d

/-- At a point that does not restart the sum the output's staging buffer holds what the point before left: that point
    did not write the block back. -/
theorem before7_1_B (c : Dev nD) (t : Fin cfg7.N) (h0 : ¬t.val % 8 = 0) (d) :
    (dat7 V c).before 1 t d = (outsAt7 V c (t.val - 1) (Nat.lt_of_le_of_lt (Nat.sub_le _ _) t.isLt)) := by
  have hN : t.val < 16 := lt_of_lt_of_eq t.isLt (show cfg7.N = 16 from N_7)
  rw [Dat.before_out_kept _ 1 rfl t (by omega) (Bool.eq_false_iff.mpr fun h => by have := (flush7_1 _).mp h; dsimp only at this; omega)
    (fun _ => rfl) (fun _ _ => rfl)]
  dsimp only [dat7]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d)))

def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t))

set_option maxHeartbeats 800000 in
/-- The body at any point: the input's memref holds its block; the position says which run applies, and where the sum
    continues the output's memref holds what the point before left. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).Φ t.succ = (dat7 V c).Φ t.castSucc from rfl,
    show (dat7 V c).owesAt () t.succ = (dat7 V c).owesAt () t.castSucc from rfl,
    after7_0, after7_1]
  have hN : t.val < 16 := lt_of_lt_of_eq t.isLt (show cfg7.N = 16 from N_7)
  by_cases h0 : t.val % 8 = 0
  · rw [outsAt7_A V c t h0]
    unfold out7_A
    iintro ⟨HΦ, Ho, ⟨%d0, H0⟩, ⟨%d1, H1⟩⟩
    iapply ((kernelRun7_A c (grid7.coords t) _ _ _ _ ((hcond7 t).mpr h0) (iblk7 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover7_A c _ _ _ _ _ _ _)
  · rw [outsAt7_B V c t h0]
    simp only [before7_1_B V c t h0]
    unfold out7_B
    iintro ⟨HΦ, Ho, ⟨%d0, H0⟩, ⟨%d1, H1⟩⟩
    iapply ((kernelRun7_B c (grid7.coords t) _ _ _ _ (fun h => h0 ((hcond7 t).mp h)) (iblk7 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover7_B c _ _ _ _ _ _ _ _)

/-- The obligation the pipelined launch asks of the body, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdealRun.lean ====
/-
  The whole program as nine segments: the eight pallas calls, in order, then the host operations that give each call's
  [512, 128] result a unit middle axis and lay the eight results side by side along it.

  Between two segments every unscoped buffer of the device is held whole at known contents: at launch the launch memory;
  after call k the contents before it with call k's arrays replaced by what its pipeline leaves (the input as entered,
  the output after all its write-backs); after the host operations their composed effect. Beside the buffers ride the
  generator register (at some state) and the fact that the core owes nothing. The run's post reads every unscoped buffer of
  the final state off the last contents; the frame claim and the result's value are read from it.
-/
import proofs.«145553_j48773648613703_2_alg».proof.Proof.Gen.KernelIdeal.Regions
import proofs.«145553_j48773648613703_2_alg».proof.Proof.KernelIdealRegion0
import proofs.«145553_j48773648613703_2_alg».proof.Proof.KernelIdealRegion1
import proofs.«145553_j48773648613703_2_alg».proof.Proof.KernelIdealRegion2
import proofs.«145553_j48773648613703_2_alg».proof.Proof.KernelIdealRegion3
import proofs.«145553_j48773648613703_2_alg».proof.Proof.KernelIdealRegion4
import proofs.«145553_j48773648613703_2_alg».proof.Proof.KernelIdealRegion5
import proofs.«145553_j48773648613703_2_alg».proof.Proof.KernelIdealRegion6
import proofs.«145553_j48773648613703_2_alg».proof.Proof.KernelIdealRegion7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev E0 : Dev nD → Valuation τ sig (Elt F) := fun c b => (s₀ m ρ).mem ((c : Dev nD), b)
abbrev VE0 : (c : Dev nD) → (b : Ref sig .tc) → Buf (Elt F) ((c : Thread nD τ).loc b) := fun c b => E0 m ρ c b

/-- After call 0: its arrays at what its pipeline leaves, every other buffer as before it. -/
def E1 (c : Dev nD) : Valuation τ sig (Elt F) :=
  Pipeline.withArrays spec0 c (E0 m ρ c) fun w => (dat0 (VE0 m ρ) c).arrAt w cfg0.N
theorem E1_arr (c : Dev nD) (w : Fin cfg0.W) :
    E1 m ρ c (Proc.devRef .tc (Pipeline.arrRef spec0 w)) = (dat0 (VE0 m ρ) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
abbrev VE1 : (c : Dev nD) → (b : Ref sig .tc) → Buf (Elt F) ((c : Thread nD τ).loc b) := fun c b => E1 m ρ c b
theorem hF0 (c : Dev nD) (w : Fin cfg0.W) : (dat0 (VE0 m ρ) c).arrAt w cfg0.N = VE1 m ρ c (Pipeline.arrRef spec0 w) :=
  (E1_arr m ρ c w).symm
theorem hrest0 (c : Dev nD) : ∀ b, b ∉ Finset.univ.image (Pipeline.arrRef spec0) → VE1 m ρ c b = VE0 m ρ c b :=
  fun b hb => E1_of_ne m ρ c b fun w e => hb (Finset.mem_image.mpr ⟨w, Finset.mem_univ _, e⟩)

/-- After call 1: its arrays at what its pipeline leaves, every other buffer as before it. -/
def E2 (c : Dev nD) : Valuation τ sig (Elt F) :=
  Pipeline.withArrays spec1 c (E1 m ρ c) fun w => (dat1 (VE1 m ρ) c).arrAt w cfg1.N
theorem E2_arr (c : Dev nD) (w : Fin cfg1.W) :
    E2 m ρ c (Proc.devRef .tc (Pipeline.arrRef spec1 w)) = (dat1 (VE1 m ρ) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb
abbrev VE2 : (c : Dev nD) → (b : Ref sig .tc) → Buf (Elt F) ((c : Thread nD τ).loc b) := fun c b => E2 m ρ c b
theorem hF1 (c : Dev nD) (w : Fin cfg1.W) : (dat1 (VE1 m ρ) c).arrAt w cfg1.N = VE2 m ρ c (Pipeline.arrRef spec1 w) :=
  (E2_arr m ρ c w).symm
theorem hrest1 (c : Dev nD) : ∀ b, b ∉ Finset.univ.image (Pipeline.arrRef spec1) → VE2 m ρ c b = VE1 m ρ c b :=
  fun b hb => E2_of_ne m ρ c b fun w e => hb (Finset.mem_image.mpr ⟨w, Finset.mem_univ _, e⟩)

/-- After call 2: its arrays at what its pipeline leaves, every other buffer as before it. -/
def E3 (c : Dev nD) : Valuation τ sig (Elt F) :=
  Pipeline.withArrays spec2 c (E2 m ρ c) fun w => (dat2 (VE2 m ρ) c).arrAt w cfg2.N
theorem E3_arr (c : Dev nD) (w : Fin cfg2.W) :
    E3 m ρ c (Proc.devRef .tc (Pipeline.arrRef spec2 w)) = (dat2 (VE2 m ρ) c).arrAt w cfg2.N := by
  unfold E3; exact Pipeline.withArrays_arr spec2 launch2.win.arr_inj c _ _ w
theorem E3_of_ne (c : Dev nD) (b : Ref sig .tc) (hb : ∀ w, Pipeline.arrRef spec2 w ≠ b) :
    E3 m ρ c (Proc.devRef .tc b) = E2 m ρ c (Proc.devRef .tc b) := by
  unfold E3; exact Pipeline.withArrays_of_ne spec2 c _ _ b hb
abbrev VE3 : (c : Dev nD) → (b : Ref sig .tc) → Buf (Elt F) ((c : Thread nD τ).loc b) := fun c b => E3 m ρ c b
theorem hF2 (c : Dev nD) (w : Fin cfg2.W) : (dat2 (VE2 m ρ) c).arrAt w cfg2.N = VE3 m ρ c (Pipeline.arrRef spec2 w) :=
  (E3_arr m ρ c w).symm
theorem hrest2 (c : Dev nD) : ∀ b, b ∉ Finset.univ.image (Pipeline.arrRef spec2) → VE3 m ρ c b = VE2 m ρ c b :=
  fun b hb => E3_of_ne m ρ c b fun w e => hb (Finset.mem_image.mpr ⟨w, Finset.mem_univ _, e⟩)

/-- After call 3: its arrays at what its pipeline leaves, every other buffer as before it. -/
def E4 (c : Dev nD) : Valuation τ sig (Elt F) :=
  Pipeline.withArrays spec3 c (E3 m ρ c) fun w => (dat3 (VE3 m ρ) c).arrAt w cfg3.N
theorem E4_arr (c : Dev nD) (w : Fin cfg3.W) :
    E4 m ρ c (Proc.devRef .tc (Pipeline.arrRef spec3 w)) = (dat3 (VE3 m ρ) c).arrAt w cfg3.N := by
  unfold E4; exact Pipeline.withArrays_arr spec3 launch3.win.arr_inj c _ _ w
theorem E4_of_ne (c : Dev nD) (b : Ref sig .tc) (hb : ∀ w, Pipeline.arrRef spec3 w ≠ b) :
    E4 m ρ c (Proc.devRef .tc b) = E3 m ρ c (Proc.devRef .tc b) := by
  unfold E4; exact Pipeline.withArrays_of_ne spec3 c _ _ b hb
abbrev VE4 : (c : Dev nD) → (b : Ref sig .tc) → Buf (Elt F) ((c : Thread nD τ).loc b) := fun c b => E4 m ρ c b
theorem hF3 (c : Dev nD) (w : Fin cfg3.W) : (dat3 (VE3 m ρ) c).arrAt w cfg3.N = VE4 m ρ c (Pipeline.arrRef spec3 w) :=
  (E4_arr m ρ c w).symm
theorem hrest3 (c : Dev nD) : ∀ b, b ∉ Finset.univ.image (Pipeline.arrRef spec3) → VE4 m ρ c b = VE3 m ρ c b :=
  fun b hb => E4_of_ne m ρ c b fun w e => hb (Finset.mem_image.mpr ⟨w, Finset.mem_univ _, e⟩)

/-- After call 4: its arrays at what its pipeline leaves, every other buffer as before it. -/
def E5 (c : Dev nD) : Valuation τ sig (Elt F) :=
  Pipeline.withArrays spec4 c (E4 m ρ c) fun w => (dat4 (VE4 m ρ) c).arrAt w cfg4.N
theorem E5_arr (c : Dev nD) (w : Fin cfg4.W) :
    E5 m ρ c (Proc.devRef .tc (Pipeline.arrRef spec4 w)) = (dat4 (VE4 m ρ) c).arrAt w cfg4.N := by
  unfold E5; exact Pipeline.withArrays_arr spec4 launch4.win.arr_inj c _ _ w
theorem E5_of_ne (c : Dev nD) (b : Ref sig .tc) (hb : ∀ w, Pipeline.arrRef spec4 w ≠ b) :
    E5 m ρ c (Proc.devRef .tc b) = E4 m ρ c (Proc.devRef .tc b) := by
  unfold E5; exact Pipeline.withArrays_of_ne spec4 c _ _ b hb
abbrev VE5 : (c : Dev nD) → (b : Ref sig .tc) → Buf (Elt F) ((c : Thread nD τ).loc b) := fun c b => E5 m ρ c b
theorem hF4 (c : Dev nD) (w : Fin cfg4.W) : (dat4 (VE4 m ρ) c).arrAt w cfg4.N = VE5 m ρ c (Pipeline.arrRef spec4 w) :=
  (E5_arr m ρ c w).symm
theorem hrest4 (c : Dev nD) : ∀ b, b ∉ Finset.univ.image (Pipeline.arrRef spec4) → VE5 m ρ c b = VE4 m ρ c b :=
  fun b hb => E5_of_ne m ρ c b fun w e => hb (Finset.mem_image.mpr ⟨w, Finset.mem_univ _, e⟩)

/-- After call 5: its arrays at what its pipeline leaves, every other buffer as before it. -/
def E6 (c : Dev nD) : Valuation τ sig (Elt F) :=
  Pipeline.withArrays spec5 c (E5 m ρ c) fun w => (dat5 (VE5 m ρ) c).arrAt w cfg5.N
theorem E6_arr (c : Dev nD) (w : Fin cfg5.W) :
    E6 m ρ c (Proc.devRef .tc (Pipeline.arrRef spec5 w)) = (dat5 (VE5 m ρ) c).arrAt w cfg5.N := by
  unfold E6; exact Pipeline.withArrays_arr spec5 launch5.win.arr_inj c _ _ w
theorem E6_of_ne (c : Dev nD) (b : Ref sig .tc) (hb : ∀ w, Pipeline.arrRef spec5 w ≠ b) :
    E6 m ρ c (Proc.devRef .tc b) = E5 m ρ c (Proc.devRef .tc b) := by
  unfold E6; exact Pipeline.withArrays_of_ne spec5 c _ _ b hb
abbrev VE6 : (c : Dev nD) → (b : Ref sig .tc) → Buf (Elt F) ((c : Thread nD τ).loc b) := fun c b => E6 m ρ c b
theorem hF5 (c : Dev nD) (w : Fin cfg5.W) : (dat5 (VE5 m ρ) c).arrAt w cfg5.N = VE6 m ρ c (Pipeline.arrRef spec5 w) :=
  (E6_arr m ρ c w).symm
theorem hrest5 (c : Dev nD) : ∀ b, b ∉ Finset.univ.image (Pipeline.arrRef spec5) → VE6 m ρ c b = VE5 m ρ c b :=
  fun b hb => E6_of_ne m ρ c b fun w e => hb (Finset.mem_image.mpr ⟨w, Finset.mem_univ _, e⟩)

/-- After call 6: its arrays at what its pipeline leaves, every other buffer as before it. -/
def E7 (c : Dev nD) : Valuation τ sig (Elt F) :=
  Pipeline.withArrays spec6 c (E6 m ρ c) fun w => (dat6 (VE6 m ρ) c).arrAt w cfg6.N
theorem E7_arr (c : Dev nD) (w : Fin cfg6.W) :
    E7 m ρ c (Proc.devRef .tc (Pipeline.arrRef spec6 w)) = (dat6 (VE6 m ρ) c).arrAt w cfg6.N := by
  unfold E7; exact Pipeline.withArrays_arr spec6 launch6.win.arr_inj c _ _ w
theorem E7_of_ne (c : Dev nD) (b : Ref sig .tc) (hb : ∀ w, Pipeline.arrRef spec6 w ≠ b) :
    E7 m ρ c (Proc.devRef .tc b) = E6 m ρ c (Proc.devRef .tc b) := by
  unfold E7; exact Pipeline.withArrays_of_ne spec6 c _ _ b hb
abbrev VE7 : (c : Dev nD) → (b : Ref sig .tc) → Buf (Elt F) ((c : Thread nD τ).loc b) := fun c b => E7 m ρ c b
theorem hF6 (c : Dev nD) (w : Fin cfg6.W) : (dat6 (VE6 m ρ) c).arrAt w cfg6.N = VE7 m ρ c (Pipeline.arrRef spec6 w) :=
  (E7_arr m ρ c w).symm
theorem hrest6 (c : Dev nD) : ∀ b, b ∉ Finset.univ.image (Pipeline.arrRef spec6) → VE7 m ρ c b = VE6 m ρ c b :=
  fun b hb => E7_of_ne m ρ c b fun w e => hb (Finset.mem_image.mpr ⟨w, Finset.mem_univ _, e⟩)

/-- After call 7: its arrays at what its pipeline leaves, every other buffer as before it. -/
def E8 (c : Dev nD) : Valuation τ sig (Elt F) :=
  Pipeline.withArrays spec7 c (E7 m ρ c) fun w => (dat7 (VE7 m ρ) c).arrAt w cfg7.N
theorem E8_arr (c : Dev nD) (w : Fin cfg7.W) :
    E8 m ρ c (Proc.devRef .tc (Pipeline.arrRef spec7 w)) = (dat7 (VE7 m ρ) c).arrAt w cfg7.N := by
  unfold E8; exact Pipeline.withArrays_arr spec7 launch7.win.arr_inj c _ _ w
theorem E8_of_ne (c : Dev nD) (b : Ref sig .tc) (hb : ∀ w, Pipeline.arrRef spec7 w ≠ b) :
    E8 m ρ c (Proc.devRef .tc b) = E7 m ρ c (Proc.devRef .tc b) := by
  unfold E8; exact Pipeline.withArrays_of_ne spec7 c _ _ b hb
abbrev VE8 : (c : Dev nD) → (b : Ref sig .tc) → Buf (Elt F) ((c : Thread nD τ).loc b) := fun c b => E8 m ρ c b
theorem hF7 (c : Dev nD) (w : Fin cfg7.W) : (dat7 (VE7 m ρ) c).arrAt w cfg7.N = VE8 m ρ c (Pipeline.arrRef spec7 w) :=
  (E8_arr m ρ c w).symm
theorem hrest7 (c : Dev nD) : ∀ b, b ∉ Finset.univ.image (Pipeline.arrRef spec7) → VE8 m ρ c b = VE7 m ρ c b :=
  fun b hb => E8_of_ne m ρ c b fun w e => hb (Finset.mem_image.mpr ⟨w, Finset.mem_univ _, e⟩)

/-- After the host operations. -/
abbrev EF : Dev nD → Valuation τ sig (Elt F) := fun c => StableHlo.after hostOps8 (E8 m ρ c)

/-! ## The arguments end as launched

No host operation writes an argument, and a call only reads its own argument through its input window. -/

theorem EF_main_arg0 (c : Dev nD) : EF m ρ c (Proc.devRef .tc main_arg0) = m ((c : Thread nD τ).loc main_arg0) :=
  calc EF m ρ c (Proc.devRef .tc main_arg0)
    _ = E8 m ρ c (Proc.devRef .tc main_arg0) := StableHlo.after_of_writes_sub hostOps8 _ hostOps8_writes (by decide)
    _ = E7 m ρ c (Proc.devRef .tc main_arg0) := E8_of_ne m ρ c main_arg0 (by decide)
    _ = E6 m ρ c (Proc.devRef .tc main_arg0) := E7_of_ne m ρ c main_arg0 (by decide)
    _ = E5 m ρ c (Proc.devRef .tc main_arg0) := E6_of_ne m ρ c main_arg0 (by decide)
    _ = E4 m ρ c (Proc.devRef .tc main_arg0) := E5_of_ne m ρ c main_arg0 (by decide)
    _ = E3 m ρ c (Proc.devRef .tc main_arg0) := E4_of_ne m ρ c main_arg0 (by decide)
    _ = E2 m ρ c (Proc.devRef .tc main_arg0) := E3_of_ne m ρ c main_arg0 (by decide)
    _ = E1 m ρ c (Proc.devRef .tc main_arg0) := E2_of_ne m ρ c main_arg0 (by decide)
    _ = E0 m ρ c (Proc.devRef .tc main_arg0) := (E1_arr m ρ c 0).trans (((dat0 (VE0 m ρ) c).arrAt_in 0 rfl _).trans (A_eq0 (VE0 m ρ) c 0))
    _ = m ((c : Thread nD τ).loc main_arg0) := rfl

theorem EF_main_arg1 (c : Dev nD) : EF m ρ c (Proc.devRef .tc main_arg1) = m ((c : Thread nD τ).loc main_arg1) :=
  calc EF m ρ c (Proc.devRef .tc main_arg1)
    _ = E8 m ρ c (Proc.devRef .tc main_arg1) := StableHlo.after_of_writes_sub hostOps8 _ hostOps8_writes (by decide)
    _ = E7 m ρ c (Proc.devRef .tc main_arg1) := E8_of_ne m ρ c main_arg1 (by decide)
    _ = E6 m ρ c (Proc.devRef .tc main_arg1) := E7_of_ne m ρ c main_arg1 (by decide)
    _ = E5 m ρ c (Proc.devRef .tc main_arg1) := E6_of_ne m ρ c main_arg1 (by decide)
    _ = E4 m ρ c (Proc.devRef .tc main_arg1) := E5_of_ne m ρ c main_arg1 (by decide)
    _ = E3 m ρ c (Proc.devRef .tc main_arg1) := E4_of_ne m ρ c main_arg1 (by decide)
    _ = E2 m ρ c (Proc.devRef .tc main_arg1) := E3_of_ne m ρ c main_arg1 (by decide)
    _ = E1 m ρ c (Proc.devRef .tc main_arg1) := (E2_arr m ρ c 0).trans (((dat1 (VE1 m ρ) c).arrAt_in 0 rfl _).trans (A_eq1 (VE1 m ρ) c 0))
    _ = E0 m ρ c (Proc.devRef .tc main_arg1) := E1_of_ne m ρ c main_arg1 (by decide)
    _ = m ((c : Thread nD τ).loc main_arg1) := rfl

theorem EF_main_arg2 (c : Dev nD) : EF m ρ c (Proc.devRef .tc main_arg2) = m ((c : Thread nD τ).loc main_arg2) :=
  calc EF m ρ c (Proc.devRef .tc main_arg2)
    _ = E8 m ρ c (Proc.devRef .tc main_arg2) := StableHlo.after_of_writes_sub hostOps8 _ hostOps8_writes (by decide)
    _ = E7 m ρ c (Proc.devRef .tc main_arg2) := E8_of_ne m ρ c main_arg2 (by decide)
    _ = E6 m ρ c (Proc.devRef .tc main_arg2) := E7_of_ne m ρ c main_arg2 (by decide)
    _ = E5 m ρ c (Proc.devRef .tc main_arg2) := E6_of_ne m ρ c main_arg2 (by decide)
    _ = E4 m ρ c (Proc.devRef .tc main_arg2) := E5_of_ne m ρ c main_arg2 (by decide)
    _ = E3 m ρ c (Proc.devRef .tc main_arg2) := E4_of_ne m ρ c main_arg2 (by decide)
    _ = E2 m ρ c (Proc.devRef .tc main_arg2) := (E3_arr m ρ c 0).trans (((dat2 (VE2 m ρ) c).arrAt_in 0 rfl _).trans (A_eq2 (VE2 m ρ) c 0))
    _ = E1 m ρ c (Proc.devRef .tc main_arg2) := E2_of_ne m ρ c main_arg2 (by decide)
    _ = E0 m ρ c (Proc.devRef .tc main_arg2) := E1_of_ne m ρ c main_arg2 (by decide)
    _ = m ((c : Thread nD τ).loc main_arg2) := rfl

theorem EF_main_arg3 (c : Dev nD) : EF m ρ c (Proc.devRef .tc main_arg3) = m ((c : Thread nD τ).loc main_arg3) :=
  calc EF m ρ c (Proc.devRef .tc main_arg3)
    _ = E8 m ρ c (Proc.devRef .tc main_arg3) := StableHlo.after_of_writes_sub hostOps8 _ hostOps8_writes (by decide)
    _ = E7 m ρ c (Proc.devRef .tc main_arg3) := E8_of_ne m ρ c main_arg3 (by decide)
    _ = E6 m ρ c (Proc.devRef .tc main_arg3) := E7_of_ne m ρ c main_arg3 (by decide)
    _ = E5 m ρ c (Proc.devRef .tc main_arg3) := E6_of_ne m ρ c main_arg3 (by decide)
    _ = E4 m ρ c (Proc.devRef .tc main_arg3) := E5_of_ne m ρ c main_arg3 (by decide)
    _ = E3 m ρ c (Proc.devRef .tc main_arg3) := (E4_arr m ρ c 0).trans (((dat3 (VE3 m ρ) c).arrAt_in 0 rfl _).trans (A_eq3 (VE3 m ρ) c 0))
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := E1_of_ne m ρ c main_arg3 (by decide)
    _ = m ((c : Thread nD τ).loc main_arg3) := rfl

theorem EF_main_arg4 (c : Dev nD) : EF m ρ c (Proc.devRef .tc main_arg4) = m ((c : Thread nD τ).loc main_arg4) :=
  calc EF m ρ c (Proc.devRef .tc main_arg4)
    _ = E8 m ρ c (Proc.devRef .tc main_arg4) := StableHlo.after_of_writes_sub hostOps8 _ hostOps8_writes (by decide)
    _ = E7 m ρ c (Proc.devRef .tc main_arg4) := E8_of_ne m ρ c main_arg4 (by decide)
    _ = E6 m ρ c (Proc.devRef .tc main_arg4) := E7_of_ne m ρ c main_arg4 (by decide)
    _ = E5 m ρ c (Proc.devRef .tc main_arg4) := E6_of_ne m ρ c main_arg4 (by decide)
    _ = E4 m ρ c (Proc.devRef .tc main_arg4) := (E5_arr m ρ c 0).trans (((dat4 (VE4 m ρ) c).arrAt_in 0 rfl _).trans (A_eq4 (VE4 m ρ) c 0))
    _ = E3 m ρ c (Proc.devRef .tc main_arg4) := E4_of_ne m ρ c main_arg4 (by decide)
    _ = E2 m ρ c (Proc.devRef .tc main_arg4) := E3_of_ne m ρ c main_arg4 (by decide)
    _ = E1 m ρ c (Proc.devRef .tc main_arg4) := E2_of_ne m ρ c main_arg4 (by decide)
    _ = E0 m ρ c (Proc.devRef .tc main_arg4) := E1_of_ne m ρ c main_arg4 (by decide)
    _ = m ((c : Thread nD τ).loc main_arg4) := rfl

theorem EF_main_arg5 (c : Dev nD) : EF m ρ c (Proc.devRef .tc main_arg5) = m ((c : Thread nD τ).loc main_arg5) :=
  calc EF m ρ c (Proc.devRef .tc main_arg5)
    _ = E8 m ρ c (Proc.devRef .tc main_arg5) := StableHlo.after_of_writes_sub hostOps8 _ hostOps8_writes (by decide)
    _ = E7 m ρ c (Proc.devRef .tc main_arg5) := E8_of_ne m ρ c main_arg5 (by decide)
    _ = E6 m ρ c (Proc.devRef .tc main_arg5) := E7_of_ne m ρ c main_arg5 (by decide)
    _ = E5 m ρ c (Proc.devRef .tc main_arg5) := (E6_arr m ρ c 0).trans (((dat5 (VE5 m ρ) c).arrAt_in 0 rfl _).trans (A_eq5 (VE5 m ρ) c 0))
    _ = E4 m ρ c (Proc.devRef .tc main_arg5) := E5_of_ne m ρ c main_arg5 (by decide)
    _ = E3 m ρ c (Proc.devRef .tc main_arg5) := E4_of_ne m ρ c main_arg5 (by decide)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := E1_of_ne m ρ c main_arg5 (by decide)
    _ = m ((c : Thread nD τ).loc main_arg5) := rfl

theorem EF_main_arg6 (c : Dev nD) : EF m ρ c (Proc.devRef .tc main_arg6) = m ((c : Thread nD τ).loc main_arg6) :=
  calc EF m ρ c (Proc.devRef .tc main_arg6)
    _ = E8 m ρ c (Proc.devRef .tc main_arg6) := StableHlo.after_of_writes_sub hostOps8 _ hostOps8_writes (by decide)
    _ = E7 m ρ c (Proc.devRef .tc main_arg6) := E8_of_ne m ρ c main_arg6 (by decide)
    _ = E6 m ρ c (Proc.devRef .tc main_arg6) := (E7_arr m ρ c 0).trans (((dat6 (VE6 m ρ) c).arrAt_in 0 rfl _).trans (A_eq6 (VE6 m ρ) c 0))
    _ = E5 m ρ c (Proc.devRef .tc main_arg6) := E6_of_ne m ρ c main_arg6 (by decide)
    _ = E4 m ρ c (Proc.devRef .tc main_arg6) := E5_of_ne m ρ c main_arg6 (by decide)
    _ = E3 m ρ c (Proc.devRef .tc main_arg6) := E4_of_ne m ρ c main_arg6 (by decide)
    _ = E2 m ρ c (Proc.devRef .tc main_arg6) := E3_of_ne m ρ c main_arg6 (by decide)
    _ = E1 m ρ c (Proc.devRef .tc main_arg6) := E2_of_ne m ρ c main_arg6 (by decide)
    _ = E0 m ρ c (Proc.devRef .tc main_arg6) := E1_of_ne m ρ c main_arg6 (by decide)
    _ = m ((c : Thread nD τ).loc main_arg6) := rfl

theorem EF_main_arg7 (c : Dev nD) : EF m ρ c (Proc.devRef .tc main_arg7) = m ((c : Thread nD τ).loc main_arg7) :=
  calc EF m ρ c (Proc.devRef .tc main_arg7)
    _ = E8 m ρ c (Proc.devRef .tc main_arg7) := StableHlo.after_of_writes_sub hostOps8 _ hostOps8_writes (by decide)
    _ = E7 m ρ c (Proc.devRef .tc main_arg7) := (E8_arr m ρ c 0).trans (((dat7 (VE7 m ρ) c).arrAt_in 0 rfl _).trans (A_eq7 (VE7 m ρ) c 0))
    _ = E6 m ρ c (Proc.devRef .tc main_arg7) := E7_of_ne m ρ c main_arg7 (by decide)
    _ = E5 m ρ c (Proc.devRef .tc main_arg7) := E6_of_ne m ρ c main_arg7 (by decide)
    _ = E4 m ρ c (Proc.devRef .tc main_arg7) := E5_of_ne m ρ c main_arg7 (by decide)
    _ = E3 m ρ c (Proc.devRef .tc main_arg7) := E4_of_ne m ρ c main_arg7 (by decide)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := E1_of_ne m ρ c main_arg7 (by decide)
    _ = m ((c : Thread nD τ).loc main_arg7) := rfl

/-! ## Each call's result reaches the host operations as its pipeline left it; its argument is as launched when it runs -/

theorem E8_main_v0 (c : Dev nD) : E8 m ρ c (Proc.devRef .tc main_v0) = (dat0 (VE0 m ρ) c).arrAt 1 cfg0.N :=
  calc E8 m ρ c (Proc.devRef .tc main_v0)
    _ = E7 m ρ c (Proc.devRef .tc main_v0) := E8_of_ne m ρ c main_v0 (by decide)
    _ = E6 m ρ c (Proc.devRef .tc main_v0) := E7_of_ne m ρ c main_v0 (by decide)
    _ = E5 m ρ c (Proc.devRef .tc main_v0) := E6_of_ne m ρ c main_v0 (by decide)
    _ = E4 m ρ c (Proc.devRef .tc main_v0) := E5_of_ne m ρ c main_v0 (by decide)
    _ = E3 m ρ c (Proc.devRef .tc main_v0) := E4_of_ne m ρ c main_v0 (by decide)
    _ = E2 m ρ c (Proc.devRef .tc main_v0) := E3_of_ne m ρ c main_v0 (by decide)
    _ = E1 m ρ c (Proc.devRef .tc main_v0) := E2_of_ne m ρ c main_v0 (by decide)
    _ = (dat0 (VE0 m ρ) c).arrAt 1 cfg0.N := E1_arr m ρ c 1

theorem VE0_main_arg0 (c : Dev nD) : VE0 m ρ c main_arg0 = m ((c : Thread nD τ).loc main_arg0) :=
  calc E0 m ρ c (Proc.devRef .tc main_arg0)
    _ = m ((c : Thread nD τ).loc main_arg0) := rfl

theorem E8_main_v1 (c : Dev nD) : E8 m ρ c (Proc.devRef .tc main_v1) = (dat1 (VE1 m ρ) c).arrAt 1 cfg1.N :=
  calc E8 m ρ c (Proc.devRef .tc main_v1)
    _ = E7 m ρ c (Proc.devRef .tc main_v1) := E8_of_ne m ρ c main_v1 (by decide)
    _ = E6 m ρ c (Proc.devRef .tc main_v1) := E7_of_ne m ρ c main_v1 (by decide)
    _ = E5 m ρ c (Proc.devRef .tc main_v1) := E6_of_ne m ρ c main_v1 (by decide)
    _ = E4 m ρ c (Proc.devRef .tc main_v1) := E5_of_ne m ρ c main_v1 (by decide)
    _ = E3 m ρ c (Proc.devRef .tc main_v1) := E4_of_ne m ρ c main_v1 (by decide)
    _ = E2 m ρ c (Proc.devRef .tc main_v1) := E3_of_ne m ρ c main_v1 (by decide)
    _ = (dat1 (VE1 m ρ) c).arrAt 1 cfg1.N := E2_arr m ρ c 1

theorem VE1_main_arg1 (c : Dev nD) : VE1 m ρ c main_arg1 = m ((c : Thread nD τ).loc main_arg1) :=
  calc E1 m ρ c (Proc.devRef .tc main_arg1)
    _ = E0 m ρ c (Proc.devRef .tc main_arg1) := E1_of_ne m ρ c main_arg1 (by decide)
    _ = m ((c : Thread nD τ).loc main_arg1) := rfl

theorem E8_main_v2 (c : Dev nD) : E8 m ρ c (Proc.devRef .tc main_v2) = (dat2 (VE2 m ρ) c).arrAt 1 cfg2.N :=
  calc E8 m ρ c (Proc.devRef .tc main_v2)
    _ = E7 m ρ c (Proc.devRef .tc main_v2) := E8_of_ne m ρ c main_v2 (by decide)
    _ = E6 m ρ c (Proc.devRef .tc main_v2) := E7_of_ne m ρ c main_v2 (by decide)
    _ = E5 m ρ c (Proc.devRef .tc main_v2) := E6_of_ne m ρ c main_v2 (by decide)
    _ = E4 m ρ c (Proc.devRef .tc main_v2) := E5_of_ne m ρ c main_v2 (by decide)
    _ = E3 m ρ c (Proc.devRef .tc main_v2) := E4_of_ne m ρ c main_v2 (by decide)
    _ = (dat2 (VE2 m ρ) c).arrAt 1 cfg2.N := E3_arr m ρ c 1

theorem VE2_main_arg2 (c : Dev nD) : VE2 m ρ c main_arg2 = m ((c : Thread nD τ).loc main_arg2) :=
  calc E2 m ρ c (Proc.devRef .tc main_arg2)
    _ = E1 m ρ c (Proc.devRef .tc main_arg2) := E2_of_ne m ρ c main_arg2 (by decide)
    _ = E0 m ρ c (Proc.devRef .tc main_arg2) := E1_of_ne m ρ c main_arg2 (by decide)
    _ = m ((c : Thread nD τ).loc main_arg2) := rfl

theorem E8_main_v3 (c : Dev nD) : E8 m ρ c (Proc.devRef .tc main_v3) = (dat3 (VE3 m ρ) c).arrAt 1 cfg3.N :=
  calc E8 m ρ c (Proc.devRef .tc main_v3)
    _ = E7 m ρ c (Proc.devRef .tc main_v3) := E8_of_ne m ρ c main_v3 (by decide)
    _ = E6 m ρ c (Proc.devRef .tc main_v3) := E7_of_ne m ρ c main_v3 (by decide)
    _ = E5 m ρ c (Proc.devRef .tc main_v3) := E6_of_ne m ρ c main_v3 (by decide)
    _ = E4 m ρ c (Proc.devRef .tc main_v3) := E5_of_ne m ρ c main_v3 (by decide)
    _ = (dat3 (VE3 m ρ) c).arrAt 1 cfg3.N := E4_arr m ρ c 1

theorem VE3_main_arg3 (c : Dev nD) : VE3 m ρ c main_arg3 = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := E1_of_ne m ρ c main_arg3 (by decide)
    _ = m ((c : Thread nD τ).loc main_arg3) := rfl

theorem E8_main_v4 (c : Dev nD) : E8 m ρ c (Proc.devRef .tc main_v4) = (dat4 (VE4 m ρ) c).arrAt 1 cfg4.N :=
  calc E8 m ρ c (Proc.devRef .tc main_v4)
    _ = E7 m ρ c (Proc.devRef .tc main_v4) := E8_of_ne m ρ c main_v4 (by decide)
    _ = E6 m ρ c (Proc.devRef .tc main_v4) := E7_of_ne m ρ c main_v4 (by decide)
    _ = E5 m ρ c (Proc.devRef .tc main_v4) := E6_of_ne m ρ c main_v4 (by decide)
    _ = (dat4 (VE4 m ρ) c).arrAt 1 cfg4.N := E5_arr m ρ c 1

theorem VE4_main_arg4 (c : Dev nD) : VE4 m ρ c main_arg4 = m ((c : Thread nD τ).loc main_arg4) :=
  calc E4 m ρ c (Proc.devRef .tc main_arg4)
    _ = E3 m ρ c (Proc.devRef .tc main_arg4) := E4_of_ne m ρ c main_arg4 (by decide)
    _ = E2 m ρ c (Proc.devRef .tc main_arg4) := E3_of_ne m ρ c main_arg4 (by decide)
    _ = E1 m ρ c (Proc.devRef .tc main_arg4) := E2_of_ne m ρ c main_arg4 (by decide)
    _ = E0 m ρ c (Proc.devRef .tc main_arg4) := E1_of_ne m ρ c main_arg4 (by decide)
    _ = m ((c : Thread nD τ).loc main_arg4) := rfl

theorem E8_main_v5 (c : Dev nD) : E8 m ρ c (Proc.devRef .tc main_v5) = (dat5 (VE5 m ρ) c).arrAt 1 cfg5.N :=
  calc E8 m ρ c (Proc.devRef .tc main_v5)
    _ = E7 m ρ c (Proc.devRef .tc main_v5) := E8_of_ne m ρ c main_v5 (by decide)
    _ = E6 m ρ c (Proc.devRef .tc main_v5) := E7_of_ne m ρ c main_v5 (by decide)
    _ = (dat5 (VE5 m ρ) c).arrAt 1 cfg5.N := E6_arr m ρ c 1

theorem VE5_main_arg5 (c : Dev nD) : VE5 m ρ c main_arg5 = m ((c : Thread nD τ).loc main_arg5) :=
  calc E5 m ρ c (Proc.devRef .tc main_arg5)
    _ = E4 m ρ c (Proc.devRef .tc main_arg5) := E5_of_ne m ρ c main_arg5 (by decide)
    _ = E3 m ρ c (Proc.devRef .tc main_arg5) := E4_of_ne m ρ c main_arg5 (by decide)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := E1_of_ne m ρ c main_arg5 (by decide)
    _ = m ((c : Thread nD τ).loc main_arg5) := rfl

theorem E8_main_v6 (c : Dev nD) : E8 m ρ c (Proc.devRef .tc main_v6) = (dat6 (VE6 m ρ) c).arrAt 1 cfg6.N :=
  calc E8 m ρ c (Proc.devRef .tc main_v6)
    _ = E7 m ρ c (Proc.devRef .tc main_v6) := E8_of_ne m ρ c main_v6 (by decide)
    _ = (dat6 (VE6 m ρ) c).arrAt 1 cfg6.N := E7_arr m ρ c 1

theorem VE6_main_arg6 (c : Dev nD) : VE6 m ρ c main_arg6 = m ((c : Thread nD τ).loc main_arg6) :=
  calc E6 m ρ c (Proc.devRef .tc main_arg6)
    _ = E5 m ρ c (Proc.devRef .tc main_arg6) := E6_of_ne m ρ c main_arg6 (by decide)
    _ = E4 m ρ c (Proc.devRef .tc main_arg6) := E5_of_ne m ρ c main_arg6 (by decide)
    _ = E3 m ρ c (Proc.devRef .tc main_arg6) := E4_of_ne m ρ c main_arg6 (by decide)
    _ = E2 m ρ c (Proc.devRef .tc main_arg6) := E3_of_ne m ρ c main_arg6 (by decide)
    _ = E1 m ρ c (Proc.devRef .tc main_arg6) := E2_of_ne m ρ c main_arg6 (by decide)
    _ = E0 m ρ c (Proc.devRef .tc main_arg6) := E1_of_ne m ρ c main_arg6 (by decide)
    _ = m ((c : Thread nD τ).loc main_arg6) := rfl

theorem E8_main_v7 (c : Dev nD) : E8 m ρ c (Proc.devRef .tc main_v7) = (dat7 (VE7 m ρ) c).arrAt 1 cfg7.N :=
  calc E8 m ρ c (Proc.devRef .tc main_v7)
    _ = (dat7 (VE7 m ρ) c).arrAt 1 cfg7.N := E8_arr m ρ c 1

theorem VE7_main_arg7 (c : Dev nD) : VE7 m ρ c main_arg7 = m ((c : Thread nD τ).loc main_arg7) :=
  calc E7 m ρ c (Proc.devRef .tc main_arg7)
    _ = E6 m ρ c (Proc.devRef .tc main_arg7) := E7_of_ne m ρ c main_arg7 (by decide)
    _ = E5 m ρ c (Proc.devRef .tc main_arg7) := E6_of_ne m ρ c main_arg7 (by decide)
    _ = E4 m ρ c (Proc.devRef .tc main_arg7) := E5_of_ne m ρ c main_arg7 (by decide)
    _ = E3 m ρ c (Proc.devRef .tc main_arg7) := E4_of_ne m ρ c main_arg7 (by decide)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := E1_of_ne m ρ c main_arg7 (by decide)
    _ = m ((c : Thread nD τ).loc main_arg7) := rfl

/-! ## The proof data family and what rides beside the buffers -/

abbrev admH : (p : Fin 8) → (pcfgs (F := F) p).Adm := fun p => (cfgs p).toPCfg_adm
/-- Every pipeline's proof data, each at its call's entry contents. -/
def pdatsH : (p : Fin 8) → (c : Dev nD) → Dat τ (Elt F) Unit ℕ (UR sig nD τ) ℕ (Pipeline.pin (pcfgs (F := F)) admH p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
  | ⟨4, _⟩ => fun c => dat4 (VE4 m ρ) c
  | ⟨5, _⟩ => fun c => dat5 (VE5 m ρ) c
  | ⟨6, _⟩ => fun c => dat6 (VE6 m ρ) c
  | ⟨7, _⟩ => fun c => dat7 (VE7 m ρ) c
abbrev 𝒱H : Variants := Variants.none
abbrev LH : GSem nD τ sig → Finset Unit := fun _ => ∅
abbrev lvH : GSem nD τ sig → Unit → ℕ := fun _ _ => 0
/-- The generator register at some state, and the core owing nothing. -/
abbrev Rst (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debt: every unscoped buffer at the final contents, the generator register. -/
abbrev TF (c : Dev nD) : sProp 𝕄 := iprop(StableHlo.held (c : Thread nD τ) (Pipeline.ucRefs τ sig) (EF m ρ c) ∗ ∃ r, prngReg c r)

/-- After the host operations the thread state is the last one beside the core owing nothing. -/
theorem lastStep (c : Dev nD) :
    (iprop(StableHlo.held (c : Thread nD τ) (Pipeline.ucRefs τ sig) (EF m ρ c) ∗ Rst c) : sProp 𝕄)
      ⊢ iprop(TF m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The calls as segments -/

set_option backward.isDefEq.respectTransparency.types false in
/-- Call 0: entered with every unscoped buffer at `E0`, left with them at `E1`. Its arrays are split out of the
    unscoped buffers and put back at the exit contents; the generator register goes into the pipeline's invariant and
    comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ LH lvH 0 fun _ _ => rfl
  pre c := iprop(StableHlo.held (c : Thread nD τ) (Pipeline.ucRefs τ sig) (E0 m ρ c) ∗ Rst c)
  post c := iprop(StableHlo.held (c : Thread nD τ) (Pipeline.ucRefs τ sig) (E1 m ρ c) ∗ Rst c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (VE0 m ρ c) (VE1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered with every unscoped buffer at `E1`, left with them at `E2`. Its arrays are split out of the
    unscoped buffers and put back at the exit contents; the generator register goes into the pipeline's invariant and
    comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ LH lvH 1 fun _ _ => rfl
  pre c := iprop(StableHlo.held (c : Thread nD τ) (Pipeline.ucRefs τ sig) (E1 m ρ c) ∗ Rst c)
  post c := iprop(StableHlo.held (c : Thread nD τ) (Pipeline.ucRefs τ sig) (E2 m ρ c) ∗ Rst c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (VE1 m ρ c) (VE2 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2: entered with every unscoped buffer at `E2`, left with them at `E3`. Its arrays are split out of the
    unscoped buffers and put back at the exit contents; the generator register goes into the pipeline's invariant and
    comes out; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ LH lvH 2 fun _ _ => rfl
  pre c := iprop(StableHlo.held (c : Thread nD τ) (Pipeline.ucRefs τ sig) (E2 m ρ c) ∗ Rst c)
  post c := iprop(StableHlo.held (c : Thread nD τ) (Pipeline.ucRefs τ sig) (E3 m ρ c) ∗ Rst c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (VE2 m ρ c) (VE3 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3: entered with every unscoped buffer at `E3`, left with them at `E4`. Its arrays are split out of the
    unscoped buffers and put back at the exit contents; the generator register goes into the pipeline's invariant and
    comes out; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ LH lvH 3 fun _ _ => rfl
  pre c := iprop(StableHlo.held (c : Thread nD τ) (Pipeline.ucRefs τ sig) (E3 m ρ c) ∗ Rst c)
  post c := iprop(StableHlo.held (c : Thread nD τ) (Pipeline.ucRefs τ sig) (E4 m ρ c) ∗ Rst c)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (VE3 m ρ c) (VE4 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4: entered with every unscoped buffer at `E4`, left with them at `E5`. Its arrays are split out of the
    unscoped buffers and put back at the exit contents; the generator register goes into the pipeline's invariant and
    comes out; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (VE4 m ρ) c).loose
  hwaits := Pipeline.hwaits_of_owed_zero _ _ _ _ LH lvH 4 fun _ _ => rfl
  pre c := iprop(StableHlo.held (c : Thread nD τ) (Pipeline.ucRefs τ sig) (E4 m ρ c) ∗ Rst c)
  post c := iprop(StableHlo.held (c : Thread nD τ) (Pipeline.ucRefs τ sig) (E5 m ρ c) ∗ Rst c)
  X c := iprop(∃ r, prngReg c r)
  Y c := iprop(∃ r, prngReg c r)
  Z c := Pipeline.unscopedRest (Ix := Unit) (Name := ℕ) (U := UR sig nD τ) (Lvl := ℕ) spec4 c (VE4 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (VE4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (VE4 m ρ c) (VE5 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5: entered with every unscoped buffer at `E5`, left with them at `E6`. Its arrays are split out of the
    unscoped buffers and put back at the exit contents; the generator register goes into the pipeline's invariant and
    comes out; nothing is owed; the kernel has no semaphore of its own. -/
def reg5 : Pipeline.RegionSeg (pcfgs (F := F)) admH (pdatsH m ρ) () defs₀ 𝒱H LH lvH 5 where
  win := launch5.win.to₀
  block_pos := launch5.block_pos
  stage_whole := launch5.stage_whole
  K := PEmpty
  osem k := k.elim
  ho := Pipeline.OwnSemFacts.none _
  hbody c := (body_obligation5 (VE5 m ρ) c).loose
  hwaits := Pipeline.hwaits_of_owed_zero _ _ _ _ LH lvH 5 fun _ _ => rfl
  pre c := iprop(StableHlo.held (c : Thread nD τ) (Pipeline.ucRefs τ sig) (E5 m ρ c) ∗ Rst c)
  post c := iprop(StableHlo.held (c : Thread nD τ) (Pipeline.ucRefs τ sig) (E6 m ρ c) ∗ Rst c)
  X c := iprop(∃ r, prngReg c r)
  Y c := iprop(∃ r, prngReg c r)
  Z c := Pipeline.unscopedRest (Ix := Unit) (Name := ℕ) (U := UR sig nD τ) (Lvl := ℕ) spec5 c (VE5 m ρ c)
  hentry c := by
    rw [Pipeline.ownSems0_none]
    have hsplit := Pipeline.arrays_of_unscopedBufs (p := 5) (pcfgs (F := F)) admH (pdatsH m ρ) launch5.win launch5.arr_whole c
      ((pdatsH m ρ 5 c).share_full fun _ => rfl) (VE5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsH m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdatsH m ρ) ((pdatsH m ρ 5 c).share_full fun _ => rfl)
      (VE5 m ρ c) (VE6 m ρ c) ((pdatsH m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6: entered with every unscoped buffer at `E6`, left with them at `E7`. Its arrays are split out of the
    unscoped buffers and put back at the exit contents; the generator register goes into the pipeline's invariant and
    comes out; nothing is owed; the kernel has no semaphore of its own. -/
def reg6 : Pipeline.RegionSeg (pcfgs (F := F)) admH (pdatsH m ρ) () defs₀ 𝒱H LH lvH 6 where
  win := launch6.win.to₀
  block_pos := launch6.block_pos
  stage_whole := launch6.stage_whole
  K := PEmpty
  osem k := k.elim
  ho := Pipeline.OwnSemFacts.none _
  hbody c := (body_obligation6 (VE6 m ρ) c).loose
  hwaits := Pipeline.hwaits_of_owed_zero _ _ _ _ LH lvH 6 fun _ _ => rfl
  pre c := iprop(StableHlo.held (c : Thread nD τ) (Pipeline.ucRefs τ sig) (E6 m ρ c) ∗ Rst c)
  post c := iprop(StableHlo.held (c : Thread nD τ) (Pipeline.ucRefs τ sig) (E7 m ρ c) ∗ Rst c)
  X c := iprop(∃ r, prngReg c r)
  Y c := iprop(∃ r, prngReg c r)
  Z c := Pipeline.unscopedRest (Ix := Unit) (Name := ℕ) (U := UR sig nD τ) (Lvl := ℕ) spec6 c (VE6 m ρ c)
  hentry c := by
    rw [Pipeline.ownSems0_none]
    have hsplit := Pipeline.arrays_of_unscopedBufs (p := 6) (pcfgs (F := F)) admH (pdatsH m ρ) launch6.win launch6.arr_whole c
      ((pdatsH m ρ 6 c).share_full fun _ => rfl) (VE6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsH m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdatsH m ρ) ((pdatsH m ρ 6 c).share_full fun _ => rfl)
      (VE6 m ρ c) (VE7 m ρ c) ((pdatsH m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 7: entered with every unscoped buffer at `E7`, left with them at `E8`. Its arrays are split out of the
    unscoped buffers and put back at the exit contents; the generator register goes into the pipeline's invariant and
    comes out; nothing is owed; the kernel has no semaphore of its own. -/
def reg7 : Pipeline.RegionSeg (pcfgs (F := F)) admH (pdatsH m ρ) () defs₀ 𝒱H LH lvH 7 where
  win := launch7.win.to₀
  block_pos := launch7.block_pos
  stage_whole := launch7.stage_whole
  K := PEmpty
  osem k := k.elim
  ho := Pipeline.OwnSemFacts.none _
  hbody c := (body_obligation7 (VE7 m ρ) c).loose
  hwaits := Pipeline.hwaits_of_owed_zero _ _ _ _ LH lvH 7 fun _ _ => rfl
  pre c := iprop(StableHlo.held (c : Thread nD τ) (Pipeline.ucRefs τ sig) (E7 m ρ c) ∗ Rst c)
  post c := iprop(StableHlo.held (c : Thread nD τ) (Pipeline.ucRefs τ sig) (E8 m ρ c) ∗ Rst c)
  X c := iprop(∃ r, prngReg c r)
  Y c := iprop(∃ r, prngReg c r)
  Z c := Pipeline.unscopedRest (Ix := Unit) (Name := ℕ) (U := UR sig nD τ) (Lvl := ℕ) spec7 c (VE7 m ρ c)
  hentry c := by
    rw [Pipeline.ownSems0_none]
    have hsplit := Pipeline.arrays_of_unscopedBufs (p := 7) (pcfgs (F := F)) admH (pdatsH m ρ) launch7.win launch7.arr_whole c
      ((pdatsH m ρ 7 c).share_full fun _ => rfl) (VE7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdatsH m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdatsH m ρ) ((pdatsH m ρ 7 c).share_full fun _ => rfl)
      (VE7 m ρ c) (VE8 m ρ c) ((pdatsH m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segsAll : List (Pipeline.Seg (pcfgs (F := F)) admH (pdatsH m ρ) () defs₀ 𝒱H LH lvH) :=
  [ .region (reg0 m ρ),
    .region (reg1 m ρ),
    .region (reg2 m ρ),
    .region (reg3 m ρ),
    .region (reg4 m ρ),
    .region (reg5 m ρ),
    .region (reg6 m ρ),
    .region (reg7 m ρ),
    .host (hsegH hostOps8 hostOps8_sub hostOps8_fresh (E8 m ρ)) ]

theorem main_runH (c : Dev nD) : main (F := F) c = Pipeline.Seg.run (segsAll m ρ) := (main_chain c).trans (by chain_rfl)

set_option backward.isDefEq.respectTransparency.types false in
/-- From any memory with zero counters every weakly fair execution of the program terminates, nothing faulting, and
    every unscoped buffer of every final state holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = EF m ρ c b) :=
  Pipeline.θ_run_regions_kit (pcfgs (F := F)) admH (pdatsH m ρ) () cellOf_inj emb₁ defs₀ 𝒱H LH lvH m ρ main (segsAll m ρ)
    (fun c Q => by rw [main_runH m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ Rst c)) (Tₙ := TF m ρ)
    (hch := ⟨fun _ => .rfl, fun _ => .rfl, fun _ => .rfl, fun _ => .rfl, fun _ => .rfl, fun _ => .rfl, fun _ => .rfl, fun _ => .rfl, fun _ => .rfl,
      fun c => lastStep m ρ c⟩)
    (hinit := by
      refine Pipeline.initEach LH lvH fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = EF m ρ c b)
    (hfin := fun c s' => by
      iintro ⟨⟨Hh, -⟩, HSI⟩
      unfold StableHlo.held
      imodintro
      iapply (pointsTo_read_all (Pipeline.ucRefs τ sig) (fun b => (((c : Thread nD τ)).1, b)) (EF m ρ c) s')
      isplitl [Hh] <;> iassumption)
    (hQ := fun s h => h)

/-- The frame claim's post: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (EF_main_arg0 m ρ c),
    (h c _ (mem_uc main_arg1 (by decide))).trans (EF_main_arg1 m ρ c),
    (h c _ (mem_uc main_arg2 (by decide))).trans (EF_main_arg2 m ρ c),
    (h c _ (mem_uc main_arg3 (by decide))).trans (EF_main_arg3 m ρ c),
    (h c _ (mem_uc main_arg4 (by decide))).trans (EF_main_arg4 m ρ c),
    (h c _ (mem_uc main_arg5 (by decide))).trans (EF_main_arg5 m ρ c),
    (h c _ (mem_uc main_arg6 (by decide))).trans (EF_main_arg6 m ρ c),
    (h c _ (mem_uc main_arg7 (by decide))).trans (EF_main_arg7 m ρ c)⟩) (run_all m ρ)

end Cert.KernelIdeal.Hand

end
-- ==== Proof.KernelIdealBody.lean ====
/-
  The arithmetic of the kernel body, the same in all eight calls, read at an index over the extended reals: the block
  stored at a point is, at row p and lane q, the output buffer's value there plus the sum of the [256, 64, 128] input
  block over its 64 sequence positions; the block a restart stores first is zero everywhere.
-/
import proofs.«145553_j48773648613703_2_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-! ## The body's arithmetic, at an index -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block of zeros the restart stores is zero at every index. -/
theorem zeros_apply (p : Fin 256) (q : Fin 128) :
    (broadcast S256x128 (Scalar.ofBits (F := Ideal) .f32 0x00000000#32) : FVec Ideal S256x128 .f32) (ix2 p q) = 0 :=
  Ideal.ofBits_zero_f32

/-- The stored block at row p, lane q: the output buffer's value there plus the sum of the input block over its 64
    sequence positions, the input block's entries given as a function f of the position. -/
theorem acc_apply (v3 : Vec Ideal S256x128 .f32) (v5 : Vec Ideal S256x64x128 .f32)
    (hacc : (0x00000000#32 : BitVec 32) = 0x00000000#32) (p : Fin 256) (q : Fin 128)
    (f : ℕ → EReal) (hv : ∀ j : Fin 64, v5 (ix3 p j q) = f j.val) :
    addf (shapeCast S256x128 v3 shapeCasts_S256x128_S256x128)
        (multiReduction (F := Ideal) .add [1] S256x128 v5 0x00000000#32 reduces_S256x64x128_S256x128 (.inl rfl) hacc) (ix2 p q)
      = v3 (ix2 p q) + ∑ j ∈ Finset.range 64, f j := by
  refine congrArg₂ (· + ·) (congrFun (shapeCast_self v3 shapeCasts_S256x128_S256x128) (ix2 p q)) ?_
  refine (Ideal.multiReduction_add_single v5 0x00000000#32 reduces_S256x64x128_S256x128 (.inl rfl) hacc (ix2 p q)).trans ?_
  rw [← Fin.sum_univ_eq_sum_range f 64]
  exact Finset.sum_congr rfl fun j _ => (congrArg v5 (funext fun a => Fin.ext (by
    match a with
    | ⟨0, _⟩ => rfl
    | ⟨1, _⟩ => rfl
    | ⟨2, _⟩ => rfl))).trans (hv j)

end Cert.KernelIdeal.Hand

end
-- ==== Proof.SeqSumAlgebra.lean ====
/-
  Sums along one axis, taken block by block.

  A row sum over a sequence axis of length 64·P can be taken in P steps: a running value is restarted at zero at every
  P-th step and at each step grows by the sum over one block of 64 consecutive positions. This module states that
  mathematics once, over an additive commutative monoid (no finiteness is needed: only commutativity and
  associativity of addition), for arrays whose coordinates are extended to all natural numbers by zero.
-/
import Idealize.ShloMosaic.PureOps.Ideal.Laws
import Idealize.ShloMosaic.Lib.ValueIdx

noncomputable section

namespace Cert.Hand.SeqSum

open Idealize.ShloMosaic Idealize.ShloMosaic.ValueIdx

/-! ## Consecutive blocks -/

/-- The sum over the first b·n naturals is the sum over n consecutive blocks of b. -/
theorem sum_range_blocks {M : Type*} [AddCommMonoid M] (b : ℕ) (f : ℕ → M) :
    ∀ n : ℕ, ∑ l ∈ Finset.range n, ∑ j ∈ Finset.range b, f (b * l + j) = ∑ s ∈ Finset.range (b * n), f s
  | 0 => by simp
  | n + 1 => by
    rw [Finset.sum_range_succ, sum_range_blocks b f n, Nat.mul_succ, Finset.sum_range_add]

/-! ## The running value -/

/-- One step forward inside a group of P positions: the quotient stays and the remainder grows by one. -/
theorem succ_div_mod {P n : ℕ} (h0 : ¬(n + 1) % P = 0) : (n + 1) / P = n / P ∧ (n + 1) % P = n % P + 1 := by
  have hd : (n + 1) / P = n / P := Nat.succ_div_of_not_dvd (fun hdvd => h0 (Nat.mod_eq_zero_of_dvd hdvd))
  refine ⟨hd, ?_⟩
  have h1 := Nat.div_add_mod n P
  have h2 := Nat.div_add_mod (n + 1) P
  rw [hd] at h2
  omega

/-- A value restarted from zero at every position divisible by P, and otherwise continued from the position before,
    where position n adds the contribution g (n / P) (n % P), holds after position n the contributions of the
    positions of its own group of P up to itself. -/
theorem running {M : Type*} [AddCommMonoid M] (P N : ℕ) (o : (n : ℕ) → n < N → M) (g : ℕ → ℕ → M)
    (hA : ∀ (n : ℕ) (h : n < N), n % P = 0 → o n h = 0 + g (n / P) (n % P))
    (hB : ∀ (n : ℕ) (h : n + 1 < N), ¬(n + 1) % P = 0 →
      o (n + 1) h = o n (Nat.lt_of_succ_lt h) + g ((n + 1) / P) ((n + 1) % P)) :
    ∀ (n : ℕ) (h : n < N), o n h = ∑ l ∈ Finset.range (n % P + 1), g (n / P) l := by
  intro n
  induction n with
  | zero =>
    intro h
    rw [hA 0 h (Nat.zero_mod _), Nat.zero_mod, zero_add, Finset.sum_range_one]
  | succ n ih =>
    intro h
    by_cases h0 : (n + 1) % P = 0
    · rw [hA (n + 1) h h0, h0, zero_add, Finset.sum_range_one]
    · obtain ⟨hd, hm⟩ := succ_div_mod h0
      rw [hB n h h0, ih (Nat.lt_of_succ_lt h), hd, hm, Finset.sum_range_succ _ (n % P + 1)]

/-- At the last position of a group the running value is the sum over the whole axis of length b·P. -/
theorem running_last {M : Type*} [AddCommMonoid M] (b P N : ℕ) (o : (n : ℕ) → n < N → M) (f : ℕ → ℕ → M)
    (hA : ∀ (n : ℕ) (h : n < N), n % P = 0 → o n h = 0 + ∑ j ∈ Finset.range b, f (n / P) (b * (n % P) + j))
    (hB : ∀ (n : ℕ) (h : n + 1 < N), ¬(n + 1) % P = 0 →
      o (n + 1) h = o n (Nat.lt_of_succ_lt h) + ∑ j ∈ Finset.range b, f ((n + 1) / P) (b * ((n + 1) % P) + j))
    (n : ℕ) (h : n < N) (hl : n % P + 1 = P) : o n h = ∑ s ∈ Finset.range (b * P), f (n / P) s := by
  rw [running P N o (fun r l => ∑ j ∈ Finset.range b, f r (b * l + j)) hA hB n h, hl]
  exact sum_range_blocks b (f (n / P)) P

/-! ## Arrays at natural coordinates -/

/-- A three-axis array read at natural coordinates: zero outside its extents. -/
def ext3 {M : Type*} [Zero M] {n0 n1 n2 : ℕ} (x : (⟨3, ![n0, n1, n2]⟩ : Shape).Idx → M) (r s q : ℕ) : M :=
  if h : r < n0 ∧ s < n1 ∧ q < n2 then x (ix3 ⟨r, h.1⟩ ⟨s, h.2.1⟩ ⟨q, h.2.2⟩) else 0

theorem ext3_of_lt {M : Type*} [Zero M] {n0 n1 n2 : ℕ} (x : (⟨3, ![n0, n1, n2]⟩ : Shape).Idx → M) {r s q : ℕ}
    (hr : r < n0) (hs : s < n1) (hq : q < n2) : ext3 x r s q = x (ix3 ⟨r, hr⟩ ⟨s, hs⟩ ⟨q, hq⟩) :=
  dif_pos ⟨hr, hs, hq⟩

/-- The sum of the extended array over the first n1 naturals of its middle axis is the sum over that axis. -/
theorem sum_range_ext3 {M : Type*} [AddCommMonoid M] {n0 n1 n2 : ℕ} (x : (⟨3, ![n0, n1, n2]⟩ : Shape).Idx → M)
    (r : Fin n0) (q : Fin n2) : ∑ s ∈ Finset.range n1, ext3 x r.val s q.val = ∑ s : Fin n1, x (ix3 r s q) := by
  rw [← Fin.sum_univ_eq_sum_range (fun s => ext3 x r.val s q.val) n1]
  exact Finset.sum_congr rfl fun s _ => ext3_of_lt x r.isLt s.isLt q.isLt

/-! ## The sum along the middle axis -/

/-- The sum of a three-axis array along its middle axis, as an array over the two other axes. -/
def rowSums {M : Type*} [AddCommMonoid M] {n0 n1 n2 : ℕ} (x : (⟨3, ![n0, n1, n2]⟩ : Shape).Idx → M) :
    (⟨2, ![n0, n2]⟩ : Shape).Idx → M :=
  fun i => ∑ s : Fin n1, x (ix3 ⟨(i 0).val, idx2_lt0 i⟩ s ⟨(i 1).val, idx2_lt1 i⟩)

theorem rowSums_apply {M : Type*} [AddCommMonoid M] {n0 n1 n2 : ℕ} (x : (⟨3, ![n0, n1, n2]⟩ : Shape).Idx → M)
    (r : Fin n0) (q : Fin n2) : rowSums x (ix2 r q) = ∑ s : Fin n1, x (ix3 r s q) := rfl

/-- The sum of the extended array over the first n1 naturals of its middle axis is the row sum there. -/
theorem sum_range_ext3_rowSums {M : Type*} [AddCommMonoid M] {n0 n1 n2 : ℕ} (x : (⟨3, ![n0, n1, n2]⟩ : Shape).Idx → M)
    (r : ℕ) (hr : r < n0) (q : Fin n2) : ∑ s ∈ Finset.range n1, ext3 x r s q.val = rowSums x (ix2 ⟨r, hr⟩ q) :=
  sum_range_ext3 x ⟨r, hr⟩ q

end Cert.Hand.SeqSum

end
-- ==== Proof.KernelIdealSums0.lean ====
/-
  Pallas call 0 of the program, read as a value: after the region the output array holds, at row r and lane q, the sum
  of the input over the whole sequence axis (64 positions) — the same array the reference's reduce produces.

  The grid visits each of the two row blocks 1 time in a row; the running block is restarted with zeros at the first visit and
  written back after the last. So the block written back for row block i is the sum over l < 1 of the sums over the 64
  positions of sequence block l: the sum over all 64 positions, regrouped. Only commutativity and associativity of
  addition on the extended reals are used; nothing is assumed finite.
-/
import proofs.«145553_j48773648613703_2_alg».proof.Proof.KernelIdealRegion0
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out0_B_eq (c : Dev nD) (i : grid0.Coords) (arg2 : Memref sig .tc .vmem S256x64x128 .f32) (harg2 : arg2.IsWhole)
    (arg3 : Memref sig .tc .vmem S256x128 .f32) (harg3 : arg3.IsWhole) (hc0 : ¬cond0 i)
    (x0 : Vec F S256x64x128 .f32) (xo1 : Vec F S256x128 .f32) :
    out0_B c i arg2 harg2 arg3 harg3 hc0 x0 xo1 = k0_pay2 xo1 x0 := by
  unfold out0_B
  rw [View.read_writes_eq_canon _ _ _ (cover0_B c i arg2 harg2 arg3 harg3 hc0 x0 xo1)]
  unfold kernelRun0_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out0_A_eq (c : Dev nD) (i : grid0.Coords) (arg2 : Memref sig .tc .vmem S256x64x128 .f32) (harg2 : arg2.IsWhole)
    (arg3 : Memref sig .tc .vmem S256x128 .f32) (harg3 : arg3.IsWhole) (hc0 : cond0 i)
    (x0 : Vec F S256x64x128 .f32) :
    out0_A c i arg2 harg2 arg3 harg3 hc0 x0 = k0_pay2 k0_pay1 x0 := by
  unfold out0_A
  rw [View.read_writes_eq_canon _ _ _ (cover0_A c i arg2 harg2 arg3 harg3 hc0 x0)]
  unfold kernelRun0_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg0 (c : Dev nD) : (⟨3, ![512, 64, 128]⟩ : Shape).Idx → EReal := V c main_arg0

/-- Its sums along the sequence axis: what the output array is to hold. -/
abbrev sums0 (c : Dev nD) : (⟨2, ![512, 128]⟩ : Shape).Idx → EReal := rowSums (arg0 V c)

/-- The printed index maps, decided over the grid: position t is row block t / 1 and sequence block t % 1. -/
theorem idx_facts0 : ∀ t : Fin cfg0.N, win0_0.index t (0 : Fin 3) = t.val / 1 ∧ win0_0.index t (1 : Fin 3) = t.val % 1
    ∧ win0_0.index t (2 : Fin 3) = 0 ∧ win0_1.index t (0 : Fin 2) = t.val / 1 ∧ win0_1.index t (1 : Fin 2) = 0 :=
  (by decide +kernel : ∀ t : Fin grid0.N, win0_0.index t (0 : Fin 3) = t.val / 1 ∧ win0_0.index t (1 : Fin 3) = t.val % 1
    ∧ win0_0.index t (2 : Fin 3) = 0 ∧ win0_1.index t (0 : Fin 2) = t.val / 1 ∧ win0_1.index t (1 : Fin 2) = 0)

/-- The input block at position t, at (p, j, q), is the array at row 256 (t / 1) + p, sequence position 64 (t % 1) + j, lane q. -/
theorem iblk0_apply (c : Dev nD) (t : Fin cfg0.N) (p : Fin 256) (j : Fin 64) (q : Fin 128) :
    (iblk0 V c 0 t : Vec Ideal S256x64x128 .f32) (ix3 p j q)
      = ext3 (arg0 V c) (256 * (t.val / 1) + p.val) (64 * (t.val % 1) + j.val) q.val := by
  have hN : t.val < 2 := lt_of_lt_of_eq t.isLt (show cfg0.N = 2 from N_0)
  obtain ⟨e0, e1, e2, -, -⟩ := idx_facts0 t
  rw [ext3_of_lt (arg0 V c) (by omega) (by omega) q.isLt]
  unfold iblk0
  rw [View.read_apply]
  show V c main_arg0 _ = V c main_arg0 _
  refine congrArg (V c main_arg0) (funext fun a => Fin.ext ?_)
  match a with
  | ⟨0, _⟩ => show win0_0.index t (0 : Fin 3) * 256 + 1 * p.val = 256 * (t.val / 1) + p.val; rw [e0]; omega
  | ⟨1, _⟩ => show win0_0.index t (1 : Fin 3) * 64 + 1 * j.val = 64 * (t.val % 1) + j.val; rw [e1]; omega
  | ⟨2, _⟩ => show win0_0.index t (2 : Fin 3) * 128 + 1 * q.val = q.val; rw [e2]; omega

/-! ## The running block, position by position -/

/-- After a position that restarts the sum: zero plus the position's block sums. -/
theorem outsAt0_restart (c : Dev nD) (p : Fin 256) (q : Fin 128) (n : ℕ) (h : n < cfg0.N) (h0 : n % 1 = 0) :
    outsAt0 V c n h (ix2 p q)
      = 0 + ∑ j ∈ Finset.range 64, ext3 (arg0 V c) (256 * (n / 1) + p.val) (64 * (n % 1) + j) q.val := by
  refine (congrFun (outsAt0_A V c ⟨n, h⟩ h0) (ix2 p q)).trans ?_
  refine (congrFun (out0_A_eq (F := Ideal) c (grid0.coords ⟨n, h⟩) (ms0_0 ⟨n, h⟩) (hs0_0 ⟨n, h⟩) (ms0_1 ⟨n, h⟩) (hs0_1 ⟨n, h⟩)
    ((hcond0 ⟨n, h⟩).mpr h0) (iblk0 V c 0 ⟨n, h⟩)) (ix2 p q)).trans ?_
  unfold k0_pay2 k0_pay1
  refine (acc_apply _ (iblk0 V c 0 ⟨n, h⟩) rfl p q
    (fun j => ext3 (arg0 V c) (256 * (n / 1) + p.val) (64 * (n % 1) + j) q.val)
    (fun j => iblk0_apply V c ⟨n, h⟩ p j q)).trans ?_
  exact congrArg (· + _) (zeros_apply p q)

/-- After a position that continues the sum: what the position before left plus the position's block sums. -/
theorem outsAt0_continue (c : Dev nD) (p : Fin 256) (q : Fin 128) (n : ℕ) (h : n + 1 < cfg0.N) (h0 : ¬(n + 1) % 1 = 0) :
    outsAt0 V c (n + 1) h (ix2 p q)
      = outsAt0 V c n (Nat.lt_of_succ_lt h) (ix2 p q)
        + ∑ j ∈ Finset.range 64, ext3 (arg0 V c) (256 * ((n + 1) / 1) + p.val) (64 * ((n + 1) % 1) + j) q.val := by
  refine (congrFun (outsAt0_B V c ⟨n + 1, h⟩ h0) (ix2 p q)).trans ?_
  refine (congrFun (out0_B_eq (F := Ideal) c (grid0.coords ⟨n + 1, h⟩) (ms0_0 ⟨n + 1, h⟩) (hs0_0 ⟨n + 1, h⟩) (ms0_1 ⟨n + 1, h⟩) (hs0_1 ⟨n + 1, h⟩)
    (fun hc => h0 ((hcond0 ⟨n + 1, h⟩).mp hc)) (iblk0 V c 0 ⟨n + 1, h⟩) (outsAt0 V c n (Nat.lt_of_succ_lt h))) (ix2 p q)).trans ?_
  unfold k0_pay2
  exact acc_apply (outsAt0 V c n (Nat.lt_of_succ_lt h)) (iblk0 V c 0 ⟨n + 1, h⟩) rfl p q
    (fun j => ext3 (arg0 V c) (256 * ((n + 1) / 1) + p.val) (64 * ((n + 1) % 1) + j) q.val)
    (fun j => iblk0_apply V c ⟨n + 1, h⟩ p j q)

/-- After the last position of a row block the running block holds the row sums of that row block. -/
theorem outsAt0_last (c : Dev nD) (p : Fin 256) (q : Fin 128) (n : ℕ) (h : n < cfg0.N) (hl : n % 1 + 1 = 1) :
    outsAt0 V c n h (ix2 p q) = ∑ s ∈ Finset.range (64 * 1), ext3 (arg0 V c) (256 * (n / 1) + p.val) s q.val :=
  running_last 64 1 cfg0.N (fun n h => outsAt0 V c n h (ix2 p q))
    (fun r s => ext3 (arg0 V c) (256 * r + p.val) s q.val)
    (outsAt0_restart V c p q) (outsAt0_continue V c p q) n h hl

/-! ## What is written back, and where -/

/-- At a position that writes back, the running block is the block of the row sums the output window cuts there. -/
theorem flushed0_point (c : Dev nD) (t : Fin cfg0.N) (hl : t.val % 1 + 1 = 1) (y : S256x128.Idx) :
    outsAt0 V c t.val t.isLt y = sums0 V c (((cfg0.win 1).blk t).view.emb y) := by
  obtain ⟨p, q, rfl⟩ : ∃ (p : Fin 256) (q : Fin 128), y = ix2 p q := ⟨y 0, y 1, eq_ix2 y⟩
  have hN : t.val < 2 := lt_of_lt_of_eq t.isLt (show cfg0.N = 2 from N_0)
  obtain ⟨-, -, -, e3, e4⟩ := idx_facts0 t
  have hr : 256 * (t.val / 1) + p.val < 512 := by omega
  refine (outsAt0_last V c p q t.val t.isLt hl).trans ?_
  refine (sum_range_ext3_rowSums (arg0 V c) (256 * (t.val / 1) + p.val) hr q).trans ?_
  refine congrArg (sums0 V c) (funext fun a => Fin.ext ?_)
  match a with
  | ⟨0, _⟩ => show 256 * (t.val / 1) + p.val = win0_1.index t (0 : Fin 2) * 256 + 1 * p.val; rw [e3]; omega
  | ⟨1, _⟩ => show q.val = win0_1.index t (1 : Fin 2) * 128 + 1 * q.val; rw [e4]; omega

theorem flushed0_eq (c : Dev nD) (t : Fin cfg0.N) (hf : (cfg0.win 1).flush t = true) :
    (dat0 (F := Ideal) V c).flushed 1 t = ((cfg0.win 1).blk t).view.read (Elt Ideal) (sums0 V c) := by
  have hN : t.val < 2 := lt_of_lt_of_eq t.isLt (show cfg0.N = 2 from N_0)
  have hl : t.val % 1 + 1 = 1 := by omega
  show (cfg0.win 1).cut (grid0.coords t) ((dat0 V c).after 1 t) = _
  rw [after0_1]
  funext y
  exact flushed0_point V c t hl y

/-- An index of the output array is in position t's block iff each coordinate is in the block's range on its axis. -/
theorem mem_blk0 (t : Fin cfg0.N) (i : S512x128.Idx) :
    i ∈ ((cfg0.win 1).blk t).view.set ↔ ∀ a : Fin 2, win0_1.index t a * S256x128.size a ≤ (i a).val ∧ (i a).val < win0_1.index t a * S256x128.size a + S256x128.size a := by
  show i ∈ ((View.whole main_v0).slice (win0_1.rect t)).set ↔ _
  rw [View.set_slice_whole, Rect.mem_set_unit]
  exact Iff.rfl

/-- Row r is written back at the last position of its row block, position 1 (r / 256) + 0. -/
theorem cover0 (i : S512x128.Idx) : ∃ t : Fin cfg0.N, (cfg0.win 1).flush t = true ∧ i ∈ ((cfg0.win 1).blk t).view.set := by
  have h0 : (i 0).val < 512 := (i 0).isLt
  have h1 : (i 1).val < 128 := (i 1).isLt
  have hN : cfg0.N = 2 := N_0
  have ht : 1 * ((i 0).val / 256) + 0 < cfg0.N := by rw [hN]; omega
  obtain ⟨-, -, -, e3, e4⟩ := idx_facts0 ⟨1 * ((i 0).val / 256) + 0, ht⟩
  refine ⟨⟨1 * ((i 0).val / 256) + 0, ht⟩, flush0_1 _, ?_⟩
  rw [mem_blk0]
  intro a
  match a with
  | ⟨0, _⟩ =>
    show win0_1.index ⟨1 * ((i 0).val / 256) + 0, ht⟩ (0 : Fin 2) * 256 ≤ (i 0).val
      ∧ (i 0).val < win0_1.index ⟨1 * ((i 0).val / 256) + 0, ht⟩ (0 : Fin 2) * 256 + 256
    rw [e3]; show (1 * ((i 0).val / 256) + 0) / 1 * 256 ≤ (i 0).val ∧ (i 0).val < (1 * ((i 0).val / 256) + 0) / 1 * 256 + 256; omega
  | ⟨1, _⟩ =>
    show win0_1.index ⟨1 * ((i 0).val / 256) + 0, ht⟩ (1 : Fin 2) * 128 ≤ (i 1).val
      ∧ (i 1).val < win0_1.index ⟨1 * ((i 0).val / 256) + 0, ht⟩ (1 : Fin 2) * 128 + 128
    rw [e4]; omega

/-! ## The output array after the region, and the reference's reduce -/

/-- After the region the output array holds the row sums of the input array. -/
theorem arr0_rowSums (c : Dev nD) : (dat0 (F := Ideal) V c).arrAt 1 cfg0.N = sums0 V c :=
  (dat0 (F := Ideal) V c).arrAt_eq_of_cover 1 (sums0 V c) (flushed0_eq V c) cover0

/-- The reference's reduce along the sequence axis, from zero, is the same row sums. -/
theorem ref0_rowSums (x : (⟨3, ![512, 64, 128]⟩ : Shape).Idx → EReal) :
    Host.reduceAdd (F := Ideal) x (constant Cert.ReferenceIdeal.S_ .f32 0x00000000#32)
        Cert.ReferenceIdeal.Gen.reducesTo_S512x64x128_S512x128_d1 Cert.ReferenceIdeal.Gen.h_S_ = rowSums x := by
  funext i
  refine (Cert.ReferenceIdeal.Read.val_main_v0_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 0's output array after the region is the reference's reduce of the input array. -/
theorem arr0_eq (c : Dev nD) :
    (dat0 (F := Ideal) V c).arrAt 1 cfg0.N
      = Host.reduceAdd (F := Ideal) (V c main_arg0) (constant Cert.ReferenceIdeal.S_ .f32 0x00000000#32)
          Cert.ReferenceIdeal.Gen.reducesTo_S512x64x128_S512x128_d1 Cert.ReferenceIdeal.Gen.h_S_ :=
  (arr0_rowSums V c).trans (ref0_rowSums (arg0 V c)).symm

end Cert.KernelIdeal.Hand

end
-- ==== Proof.KernelIdealSums1.lean ====
/-
  Pallas call 1 of the program, read as a value: after the region the output array holds, at row r and lane q, the sum
  of the input over the whole sequence axis (128 positions) — the same array the reference's reduce produces.

  The grid visits each of the two row blocks 2 times in a row; the running block is restarted with zeros at the first visit and
  written back after the last. So the block written back for row block i is the sum over l < 2 of the sums over the 64
  positions of sequence block l: the sum over all 128 positions, regrouped. Only commutativity and associativity of
  addition on the extended reals are used; nothing is assumed finite.
-/
import proofs.«145553_j48773648613703_2_alg».proof.Proof.KernelIdealRegion1
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out1_B_eq (c : Dev nD) (i : grid1.Coords) (arg2 : Memref sig .tc .vmem S256x64x128 .f32) (harg2 : arg2.IsWhole)
    (arg3 : Memref sig .tc .vmem S256x128 .f32) (harg3 : arg3.IsWhole) (hc0 : ¬cond1 i)
    (x0 : Vec F S256x64x128 .f32) (xo1 : Vec F S256x128 .f32) :
    out1_B c i arg2 harg2 arg3 harg3 hc0 x0 xo1 = k1_pay2 xo1 x0 := by
  unfold out1_B
  rw [View.read_writes_eq_canon _ _ _ (cover1_B c i arg2 harg2 arg3 harg3 hc0 x0 xo1)]
  unfold kernelRun1_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out1_A_eq (c : Dev nD) (i : grid1.Coords) (arg2 : Memref sig .tc .vmem S256x64x128 .f32) (harg2 : arg2.IsWhole)
    (arg3 : Memref sig .tc .vmem S256x128 .f32) (harg3 : arg3.IsWhole) (hc0 : cond1 i)
    (x0 : Vec F S256x64x128 .f32) :
    out1_A c i arg2 harg2 arg3 harg3 hc0 x0 = k1_pay2 k1_pay1 x0 := by
  unfold out1_A
  rw [View.read_writes_eq_canon _ _ _ (cover1_A c i arg2 harg2 arg3 harg3 hc0 x0)]
  unfold kernelRun1_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg1 (c : Dev nD) : (⟨3, ![512, 128, 128]⟩ : Shape).Idx → EReal := V c main_arg1

/-- Its sums along the sequence axis: what the output array is to hold. -/
abbrev sums1 (c : Dev nD) : (⟨2, ![512, 128]⟩ : Shape).Idx → EReal := rowSums (arg1 V c)

/-- The printed index maps, decided over the grid: position t is row block t / 2 and sequence block t % 2. -/
theorem idx_facts1 : ∀ t : Fin cfg1.N, win1_0.index t (0 : Fin 3) = t.val / 2 ∧ win1_0.index t (1 : Fin 3) = t.val % 2
    ∧ win1_0.index t (2 : Fin 3) = 0 ∧ win1_1.index t (0 : Fin 2) = t.val / 2 ∧ win1_1.index t (1 : Fin 2) = 0 :=
  (by decide +kernel : ∀ t : Fin grid1.N, win1_0.index t (0 : Fin 3) = t.val / 2 ∧ win1_0.index t (1 : Fin 3) = t.val % 2
    ∧ win1_0.index t (2 : Fin 3) = 0 ∧ win1_1.index t (0 : Fin 2) = t.val / 2 ∧ win1_1.index t (1 : Fin 2) = 0)

/-- The input block at position t, at (p, j, q), is the array at row 256 (t / 2) + p, sequence position 64 (t % 2) + j, lane q. -/
theorem iblk1_apply (c : Dev nD) (t : Fin cfg1.N) (p : Fin 256) (j : Fin 64) (q : Fin 128) :
    (iblk1 V c 0 t : Vec Ideal S256x64x128 .f32) (ix3 p j q)
      = ext3 (arg1 V c) (256 * (t.val / 2) + p.val) (64 * (t.val % 2) + j.val) q.val := by
  have hN : t.val < 4 := lt_of_lt_of_eq t.isLt (show cfg1.N = 4 from N_1)
  obtain ⟨e0, e1, e2, -, -⟩ := idx_facts1 t
  rw [ext3_of_lt (arg1 V c) (by omega) (by omega) q.isLt]
  unfold iblk1
  rw [View.read_apply]
  show V c main_arg1 _ = V c main_arg1 _
  refine congrArg (V c main_arg1) (funext fun a => Fin.ext ?_)
  match a with
  | ⟨0, _⟩ => show win1_0.index t (0 : Fin 3) * 256 + 1 * p.val = 256 * (t.val / 2) + p.val; rw [e0]; omega
  | ⟨1, _⟩ => show win1_0.index t (1 : Fin 3) * 64 + 1 * j.val = 64 * (t.val % 2) + j.val; rw [e1]; omega
  | ⟨2, _⟩ => show win1_0.index t (2 : Fin 3) * 128 + 1 * q.val = q.val; rw [e2]; omega

/-! ## The running block, position by position -/

/-- After a position that restarts the sum: zero plus the position's block sums. -/
theorem outsAt1_restart (c : Dev nD) (p : Fin 256) (q : Fin 128) (n : ℕ) (h : n < cfg1.N) (h0 : n % 2 = 0) :
    outsAt1 V c n h (ix2 p q)
      = 0 + ∑ j ∈ Finset.range 64, ext3 (arg1 V c) (256 * (n / 2) + p.val) (64 * (n % 2) + j) q.val := by
  refine (congrFun (outsAt1_A V c ⟨n, h⟩ h0) (ix2 p q)).trans ?_
  refine (congrFun (out1_A_eq (F := Ideal) c (grid1.coords ⟨n, h⟩) (ms1_0 ⟨n, h⟩) (hs1_0 ⟨n, h⟩) (ms1_1 ⟨n, h⟩) (hs1_1 ⟨n, h⟩)
    ((hcond1 ⟨n, h⟩).mpr h0) (iblk1 V c 0 ⟨n, h⟩)) (ix2 p q)).trans ?_
  unfold k1_pay2 k1_pay1
  refine (acc_apply _ (iblk1 V c 0 ⟨n, h⟩) rfl p q
    (fun j => ext3 (arg1 V c) (256 * (n / 2) + p.val) (64 * (n % 2) + j) q.val)
    (fun j => iblk1_apply V c ⟨n, h⟩ p j q)).trans ?_
  exact congrArg (· + _) (zeros_apply p q)

/-- After a position that continues the sum: what the position before left plus the position's block sums. -/
theorem outsAt1_continue (c : Dev nD) (p : Fin 256) (q : Fin 128) (n : ℕ) (h : n + 1 < cfg1.N) (h0 : ¬(n + 1) % 2 = 0) :
    outsAt1 V c (n + 1) h (ix2 p q)
      = outsAt1 V c n (Nat.lt_of_succ_lt h) (ix2 p q)
        + ∑ j ∈ Finset.range 64, ext3 (arg1 V c) (256 * ((n + 1) / 2) + p.val) (64 * ((n + 1) % 2) + j) q.val := by
  refine (congrFun (outsAt1_B V c ⟨n + 1, h⟩ h0) (ix2 p q)).trans ?_
  refine (congrFun (out1_B_eq (F := Ideal) c (grid1.coords ⟨n + 1, h⟩) (ms1_0 ⟨n + 1, h⟩) (hs1_0 ⟨n + 1, h⟩) (ms1_1 ⟨n + 1, h⟩) (hs1_1 ⟨n + 1, h⟩)
    (fun hc => h0 ((hcond1 ⟨n + 1, h⟩).mp hc)) (iblk1 V c 0 ⟨n + 1, h⟩) (outsAt1 V c n (Nat.lt_of_succ_lt h))) (ix2 p q)).trans ?_
  unfold k1_pay2
  exact acc_apply (outsAt1 V c n (Nat.lt_of_succ_lt h)) (iblk1 V c 0 ⟨n + 1, h⟩) rfl p q
    (fun j => ext3 (arg1 V c) (256 * ((n + 1) / 2) + p.val) (64 * ((n + 1) % 2) + j) q.val)
    (fun j => iblk1_apply V c ⟨n + 1, h⟩ p j q)

/-- After the last position of a row block the running block holds the row sums of that row block. -/
theorem outsAt1_last (c : Dev nD) (p : Fin 256) (q : Fin 128) (n : ℕ) (h : n < cfg1.N) (hl : n % 2 + 1 = 2) :
    outsAt1 V c n h (ix2 p q) = ∑ s ∈ Finset.range (64 * 2), ext3 (arg1 V c) (256 * (n / 2) + p.val) s q.val :=
  running_last 64 2 cfg1.N (fun n h => outsAt1 V c n h (ix2 p q))
    (fun r s => ext3 (arg1 V c) (256 * r + p.val) s q.val)
    (outsAt1_restart V c p q) (outsAt1_continue V c p q) n h hl

/-! ## What is written back, and where -/

/-- At a position that writes back, the running block is the block of the row sums the output window cuts there. -/
theorem flushed1_point (c : Dev nD) (t : Fin cfg1.N) (hl : t.val % 2 + 1 = 2) (y : S256x128.Idx) :
    outsAt1 V c t.val t.isLt y = sums1 V c (((cfg1.win 1).blk t).view.emb y) := by
  obtain ⟨p, q, rfl⟩ : ∃ (p : Fin 256) (q : Fin 128), y = ix2 p q := ⟨y 0, y 1, eq_ix2 y⟩
  have hN : t.val < 4 := lt_of_lt_of_eq t.isLt (show cfg1.N = 4 from N_1)
  obtain ⟨-, -, -, e3, e4⟩ := idx_facts1 t
  have hr : 256 * (t.val / 2) + p.val < 512 := by omega
  refine (outsAt1_last V c p q t.val t.isLt hl).trans ?_
  refine (sum_range_ext3_rowSums (arg1 V c) (256 * (t.val / 2) + p.val) hr q).trans ?_
  refine congrArg (sums1 V c) (funext fun a => Fin.ext ?_)
  match a with
  | ⟨0, _⟩ => show 256 * (t.val / 2) + p.val = win1_1.index t (0 : Fin 2) * 256 + 1 * p.val; rw [e3]; omega
  | ⟨1, _⟩ => show q.val = win1_1.index t (1 : Fin 2) * 128 + 1 * q.val; rw [e4]; omega

theorem flushed1_eq (c : Dev nD) (t : Fin cfg1.N) (hf : (cfg1.win 1).flush t = true) :
    (dat1 (F := Ideal) V c).flushed 1 t = ((cfg1.win 1).blk t).view.read (Elt Ideal) (sums1 V c) := by
  have hN : t.val < 4 := lt_of_lt_of_eq t.isLt (show cfg1.N = 4 from N_1)
  have hl : t.val % 2 + 1 = 2 := by have := (flush1_1 t).mp hf; omega
  show (cfg1.win 1).cut (grid1.coords t) ((dat1 V c).after 1 t) = _
  rw [after1_1]
  funext y
  exact flushed1_point V c t hl y

/-- An index of the output array is in position t's block iff each coordinate is in the block's range on its axis. -/
theorem mem_blk1 (t : Fin cfg1.N) (i : S512x128.Idx) :
    i ∈ ((cfg1.win 1).blk t).view.set ↔ ∀ a : Fin 2, win1_1.index t a * S256x128.size a ≤ (i a).val ∧ (i a).val < win1_1.index t a * S256x128.size a + S256x128.size a := by
  show i ∈ ((View.whole main_v1).slice (win1_1.rect t)).set ↔ _
  rw [View.set_slice_whole, Rect.mem_set_unit]
  exact Iff.rfl

/-- Row r is written back at the last position of its row block, position 2 (r / 256) + 1. -/
theorem cover1 (i : S512x128.Idx) : ∃ t : Fin cfg1.N, (cfg1.win 1).flush t = true ∧ i ∈ ((cfg1.win 1).blk t).view.set := by
  have h0 : (i 0).val < 512 := (i 0).isLt
  have h1 : (i 1).val < 128 := (i 1).isLt
  have hN : cfg1.N = 4 := N_1
  have ht : 2 * ((i 0).val / 256) + 1 < cfg1.N := by rw [hN]; omega
  obtain ⟨-, -, -, e3, e4⟩ := idx_facts1 ⟨2 * ((i 0).val / 256) + 1, ht⟩
  refine ⟨⟨2 * ((i 0).val / 256) + 1, ht⟩, (flush1_1 _).mpr (by show (2 * ((i 0).val / 256) + 1) % 2 = 1; omega), ?_⟩
  rw [mem_blk1]
  intro a
  match a with
  | ⟨0, _⟩ =>
    show win1_1.index ⟨2 * ((i 0).val / 256) + 1, ht⟩ (0 : Fin 2) * 256 ≤ (i 0).val
      ∧ (i 0).val < win1_1.index ⟨2 * ((i 0).val / 256) + 1, ht⟩ (0 : Fin 2) * 256 + 256
    rw [e3]; show (2 * ((i 0).val / 256) + 1) / 2 * 256 ≤ (i 0).val ∧ (i 0).val < (2 * ((i 0).val / 256) + 1) / 2 * 256 + 256; omega
  | ⟨1, _⟩ =>
    show win1_1.index ⟨2 * ((i 0).val / 256) + 1, ht⟩ (1 : Fin 2) * 128 ≤ (i 1).val
      ∧ (i 1).val < win1_1.index ⟨2 * ((i 0).val / 256) + 1, ht⟩ (1 : Fin 2) * 128 + 128
    rw [e4]; omega

/-! ## The output array after the region, and the reference's reduce -/

/-- After the region the output array holds the row sums of the input array. -/
theorem arr1_rowSums (c : Dev nD) : (dat1 (F := Ideal) V c).arrAt 1 cfg1.N = sums1 V c :=
  (dat1 (F := Ideal) V c).arrAt_eq_of_cover 1 (sums1 V c) (flushed1_eq V c) cover1

/-- The reference's reduce along the sequence axis, from zero, is the same row sums. -/
theorem ref1_rowSums (x : (⟨3, ![512, 128, 128]⟩ : Shape).Idx → EReal) :
    Host.reduceAdd (F := Ideal) x (constant Cert.ReferenceIdeal.S_ .f32 0x00000000#32)
        Cert.ReferenceIdeal.Gen.reducesTo_S512x128x128_S512x128_d1 Cert.ReferenceIdeal.Gen.h_S_ = rowSums x := by
  funext i
  refine (Cert.ReferenceIdeal.Read.val_main_v2_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 1's output array after the region is the reference's reduce of the input array. -/
theorem arr1_eq (c : Dev nD) :
    (dat1 (F := Ideal) V c).arrAt 1 cfg1.N
      = Host.reduceAdd (F := Ideal) (V c main_arg1) (constant Cert.ReferenceIdeal.S_ .f32 0x00000000#32)
          Cert.ReferenceIdeal.Gen.reducesTo_S512x128x128_S512x128_d1 Cert.ReferenceIdeal.Gen.h_S_ :=
  (arr1_rowSums V c).trans (ref1_rowSums (arg1 V c)).symm

end Cert.KernelIdeal.Hand

end
-- ==== Proof.KernelIdealSums2.lean ====
/-
  Pallas call 2 of the program, read as a value: after the region the output array holds, at row r and lane q, the sum
  of the input over the whole sequence axis (192 positions) — the same array the reference's reduce produces.

  The grid visits each of the two row blocks 3 times in a row; the running block is restarted with zeros at the first visit and
  written back after the last. So the block written back for row block i is the sum over l < 3 of the sums over the 64
  positions of sequence block l: the sum over all 192 positions, regrouped. Only commutativity and associativity of
  addition on the extended reals are used; nothing is assumed finite.
-/
import proofs.«145553_j48773648613703_2_alg».proof.Proof.KernelIdealRegion2
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out2_B_eq (c : Dev nD) (i : grid2.Coords) (arg2 : Memref sig .tc .vmem S256x64x128 .f32) (harg2 : arg2.IsWhole)
    (arg3 : Memref sig .tc .vmem S256x128 .f32) (harg3 : arg3.IsWhole) (hc0 : ¬cond2 i)
    (x0 : Vec F S256x64x128 .f32) (xo1 : Vec F S256x128 .f32) :
    out2_B c i arg2 harg2 arg3 harg3 hc0 x0 xo1 = k2_pay2 xo1 x0 := by
  unfold out2_B
  rw [View.read_writes_eq_canon _ _ _ (cover2_B c i arg2 harg2 arg3 harg3 hc0 x0 xo1)]
  unfold kernelRun2_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out2_A_eq (c : Dev nD) (i : grid2.Coords) (arg2 : Memref sig .tc .vmem S256x64x128 .f32) (harg2 : arg2.IsWhole)
    (arg3 : Memref sig .tc .vmem S256x128 .f32) (harg3 : arg3.IsWhole) (hc0 : cond2 i)
    (x0 : Vec F S256x64x128 .f32) :
    out2_A c i arg2 harg2 arg3 harg3 hc0 x0 = k2_pay2 k2_pay1 x0 := by
  unfold out2_A
  rw [View.read_writes_eq_canon _ _ _ (cover2_A c i arg2 harg2 arg3 harg3 hc0 x0)]
  unfold kernelRun2_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg2 (c : Dev nD) : (⟨3, ![512, 192, 128]⟩ : Shape).Idx → EReal := V c main_arg2

/-- Its sums along the sequence axis: what the output array is to hold. -/
abbrev sums2 (c : Dev nD) : (⟨2, ![512, 128]⟩ : Shape).Idx → EReal := rowSums (arg2 V c)

/-- The printed index maps, decided over the grid: position t is row block t / 3 and sequence block t % 3. -/
theorem idx_facts2 : ∀ t : Fin cfg2.N, win2_0.index t (0 : Fin 3) = t.val / 3 ∧ win2_0.index t (1 : Fin 3) = t.val % 3
    ∧ win2_0.index t (2 : Fin 3) = 0 ∧ win2_1.index t (0 : Fin 2) = t.val / 3 ∧ win2_1.index t (1 : Fin 2) = 0 :=
  (by decide +kernel : ∀ t : Fin grid2.N, win2_0.index t (0 : Fin 3) = t.val / 3 ∧ win2_0.index t (1 : Fin 3) = t.val % 3
    ∧ win2_0.index t (2 : Fin 3) = 0 ∧ win2_1.index t (0 : Fin 2) = t.val / 3 ∧ win2_1.index t (1 : Fin 2) = 0)

/-- The input block at position t, at (p, j, q), is the array at row 256 (t / 3) + p, sequence position 64 (t % 3) + j, lane q. -/
theorem iblk2_apply (c : Dev nD) (t : Fin cfg2.N) (p : Fin 256) (j : Fin 64) (q : Fin 128) :
    (iblk2 V c 0 t : Vec Ideal S256x64x128 .f32) (ix3 p j q)
      = ext3 (arg2 V c) (256 * (t.val / 3) + p.val) (64 * (t.val % 3) + j.val) q.val := by
  have hN : t.val < 6 := lt_of_lt_of_eq t.isLt (show cfg2.N = 6 from N_2)
  obtain ⟨e0, e1, e2, -, -⟩ := idx_facts2 t
  rw [ext3_of_lt (arg2 V c) (by omega) (by omega) q.isLt]
  unfold iblk2
  rw [View.read_apply]
  show V c main_arg2 _ = V c main_arg2 _
  refine congrArg (V c main_arg2) (funext fun a => Fin.ext ?_)
  match a with
  | ⟨0, _⟩ => show win2_0.index t (0 : Fin 3) * 256 + 1 * p.val = 256 * (t.val / 3) + p.val; rw [e0]; omega
  | ⟨1, _⟩ => show win2_0.index t (1 : Fin 3) * 64 + 1 * j.val = 64 * (t.val % 3) + j.val; rw [e1]; omega
  | ⟨2, _⟩ => show win2_0.index t (2 : Fin 3) * 128 + 1 * q.val = q.val; rw [e2]; omega

/-! ## The running block, position by position -/

/-- After a position that restarts the sum: zero plus the position's block sums. -/
theorem outsAt2_restart (c : Dev nD) (p : Fin 256) (q : Fin 128) (n : ℕ) (h : n < cfg2.N) (h0 : n % 3 = 0) :
    outsAt2 V c n h (ix2 p q)
      = 0 + ∑ j ∈ Finset.range 64, ext3 (arg2 V c) (256 * (n / 3) + p.val) (64 * (n % 3) + j) q.val := by
  refine (congrFun (outsAt2_A V c ⟨n, h⟩ h0) (ix2 p q)).trans ?_
  refine (congrFun (out2_A_eq (F := Ideal) c (grid2.coords ⟨n, h⟩) (ms2_0 ⟨n, h⟩) (hs2_0 ⟨n, h⟩) (ms2_1 ⟨n, h⟩) (hs2_1 ⟨n, h⟩)
    ((hcond2 ⟨n, h⟩).mpr h0) (iblk2 V c 0 ⟨n, h⟩)) (ix2 p q)).trans ?_
  unfold k2_pay2 k2_pay1
  refine (acc_apply _ (iblk2 V c 0 ⟨n, h⟩) rfl p q
    (fun j => ext3 (arg2 V c) (256 * (n / 3) + p.val) (64 * (n % 3) + j) q.val)
    (fun j => iblk2_apply V c ⟨n, h⟩ p j q)).trans ?_
  exact congrArg (· + _) (zeros_apply p q)

/-- After a position that continues the sum: what the position before left plus the position's block sums. -/
theorem outsAt2_continue (c : Dev nD) (p : Fin 256) (q : Fin 128) (n : ℕ) (h : n + 1 < cfg2.N) (h0 : ¬(n + 1) % 3 = 0) :
    outsAt2 V c (n + 1) h (ix2 p q)
      = outsAt2 V c n (Nat.lt_of_succ_lt h) (ix2 p q)
        + ∑ j ∈ Finset.range 64, ext3 (arg2 V c) (256 * ((n + 1) / 3) + p.val) (64 * ((n + 1) % 3) + j) q.val := by
  refine (congrFun (outsAt2_B V c ⟨n + 1, h⟩ h0) (ix2 p q)).trans ?_
  refine (congrFun (out2_B_eq (F := Ideal) c (grid2.coords ⟨n + 1, h⟩) (ms2_0 ⟨n + 1, h⟩) (hs2_0 ⟨n + 1, h⟩) (ms2_1 ⟨n + 1, h⟩) (hs2_1 ⟨n + 1, h⟩)
    (fun hc => h0 ((hcond2 ⟨n + 1, h⟩).mp hc)) (iblk2 V c 0 ⟨n + 1, h⟩) (outsAt2 V c n (Nat.lt_of_succ_lt h))) (ix2 p q)).trans ?_
  unfold k2_pay2
  exact acc_apply (outsAt2 V c n (Nat.lt_of_succ_lt h)) (iblk2 V c 0 ⟨n + 1, h⟩) rfl p q
    (fun j => ext3 (arg2 V c) (256 * ((n + 1) / 3) + p.val) (64 * ((n + 1) % 3) + j) q.val)
    (fun j => iblk2_apply V c ⟨n + 1, h⟩ p j q)

/-- After the last position of a row block the running block holds the row sums of that row block. -/
theorem outsAt2_last (c : Dev nD) (p : Fin 256) (q : Fin 128) (n : ℕ) (h : n < cfg2.N) (hl : n % 3 + 1 = 3) :
    outsAt2 V c n h (ix2 p q) = ∑ s ∈ Finset.range (64 * 3), ext3 (arg2 V c) (256 * (n / 3) + p.val) s q.val :=
  running_last 64 3 cfg2.N (fun n h => outsAt2 V c n h (ix2 p q))
    (fun r s => ext3 (arg2 V c) (256 * r + p.val) s q.val)
    (outsAt2_restart V c p q) (outsAt2_continue V c p q) n h hl

/-! ## What is written back, and where -/

/-- At a position that writes back, the running block is the block of the row sums the output window cuts there. -/
theorem flushed2_point (c : Dev nD) (t : Fin cfg2.N) (hl : t.val % 3 + 1 = 3) (y : S256x128.Idx) :
    outsAt2 V c t.val t.isLt y = sums2 V c (((cfg2.win 1).blk t).view.emb y) := by
  obtain ⟨p, q, rfl⟩ : ∃ (p : Fin 256) (q : Fin 128), y = ix2 p q := ⟨y 0, y 1, eq_ix2 y⟩
  have hN : t.val < 6 := lt_of_lt_of_eq t.isLt (show cfg2.N = 6 from N_2)
  obtain ⟨-, -, -, e3, e4⟩ := idx_facts2 t
  have hr : 256 * (t.val / 3) + p.val < 512 := by omega
  refine (outsAt2_last V c p q t.val t.isLt hl).trans ?_
  refine (sum_range_ext3_rowSums (arg2 V c) (256 * (t.val / 3) + p.val) hr q).trans ?_
  refine congrArg (sums2 V c) (funext fun a => Fin.ext ?_)
  match a with
  | ⟨0, _⟩ => show 256 * (t.val / 3) + p.val = win2_1.index t (0 : Fin 2) * 256 + 1 * p.val; rw [e3]; omega
  | ⟨1, _⟩ => show q.val = win2_1.index t (1 : Fin 2) * 128 + 1 * q.val; rw [e4]; omega

theorem flushed2_eq (c : Dev nD) (t : Fin cfg2.N) (hf : (cfg2.win 1).flush t = true) :
    (dat2 (F := Ideal) V c).flushed 1 t = ((cfg2.win 1).blk t).view.read (Elt Ideal) (sums2 V c) := by
  have hN : t.val < 6 := lt_of_lt_of_eq t.isLt (show cfg2.N = 6 from N_2)
  have hl : t.val % 3 + 1 = 3 := by have := (flush2_1 t).mp hf; omega
  show (cfg2.win 1).cut (grid2.coords t) ((dat2 V c).after 1 t) = _
  rw [after2_1]
  funext y
  exact flushed2_point V c t hl y

/-- An index of the output array is in position t's block iff each coordinate is in the block's range on its axis. -/
theorem mem_blk2 (t : Fin cfg2.N) (i : S512x128.Idx) :
    i ∈ ((cfg2.win 1).blk t).view.set ↔ ∀ a : Fin 2, win2_1.index t a * S256x128.size a ≤ (i a).val ∧ (i a).val < win2_1.index t a * S256x128.size a + S256x128.size a := by
  show i ∈ ((View.whole main_v2).slice (win2_1.rect t)).set ↔ _
  rw [View.set_slice_whole, Rect.mem_set_unit]
  exact Iff.rfl

/-- Row r is written back at the last position of its row block, position 3 (r / 256) + 2. -/
theorem cover2 (i : S512x128.Idx) : ∃ t : Fin cfg2.N, (cfg2.win 1).flush t = true ∧ i ∈ ((cfg2.win 1).blk t).view.set := by
  have h0 : (i 0).val < 512 := (i 0).isLt
  have h1 : (i 1).val < 128 := (i 1).isLt
  have hN : cfg2.N = 6 := N_2
  have ht : 3 * ((i 0).val / 256) + 2 < cfg2.N := by rw [hN]; omega
  obtain ⟨-, -, -, e3, e4⟩ := idx_facts2 ⟨3 * ((i 0).val / 256) + 2, ht⟩
  refine ⟨⟨3 * ((i 0).val / 256) + 2, ht⟩, (flush2_1 _).mpr (by show (3 * ((i 0).val / 256) + 2) % 3 = 2; omega), ?_⟩
  rw [mem_blk2]
  intro a
  match a with
  | ⟨0, _⟩ =>
    show win2_1.index ⟨3 * ((i 0).val / 256) + 2, ht⟩ (0 : Fin 2) * 256 ≤ (i 0).val
      ∧ (i 0).val < win2_1.index ⟨3 * ((i 0).val / 256) + 2, ht⟩ (0 : Fin 2) * 256 + 256
    rw [e3]; show (3 * ((i 0).val / 256) + 2) / 3 * 256 ≤ (i 0).val ∧ (i 0).val < (3 * ((i 0).val / 256) + 2) / 3 * 256 + 256; omega
  | ⟨1, _⟩ =>
    show win2_1.index ⟨3 * ((i 0).val / 256) + 2, ht⟩ (1 : Fin 2) * 128 ≤ (i 1).val
      ∧ (i 1).val < win2_1.index ⟨3 * ((i 0).val / 256) + 2, ht⟩ (1 : Fin 2) * 128 + 128
    rw [e4]; omega

/-! ## The output array after the region, and the reference's reduce -/

/-- After the region the output array holds the row sums of the input array. -/
theorem arr2_rowSums (c : Dev nD) : (dat2 (F := Ideal) V c).arrAt 1 cfg2.N = sums2 V c :=
  (dat2 (F := Ideal) V c).arrAt_eq_of_cover 1 (sums2 V c) (flushed2_eq V c) cover2

/-- The reference's reduce along the sequence axis, from zero, is the same row sums. -/
theorem ref2_rowSums (x : (⟨3, ![512, 192, 128]⟩ : Shape).Idx → EReal) :
    Host.reduceAdd (F := Ideal) x (constant Cert.ReferenceIdeal.S_ .f32 0x00000000#32)
        Cert.ReferenceIdeal.Gen.reducesTo_S512x192x128_S512x128_d1 Cert.ReferenceIdeal.Gen.h_S_ = rowSums x := by
  funext i
  refine (Cert.ReferenceIdeal.Read.val_main_v4_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 2's output array after the region is the reference's reduce of the input array. -/
theorem arr2_eq (c : Dev nD) :
    (dat2 (F := Ideal) V c).arrAt 1 cfg2.N
      = Host.reduceAdd (F := Ideal) (V c main_arg2) (constant Cert.ReferenceIdeal.S_ .f32 0x00000000#32)
          Cert.ReferenceIdeal.Gen.reducesTo_S512x192x128_S512x128_d1 Cert.ReferenceIdeal.Gen.h_S_ :=
  (arr2_rowSums V c).trans (ref2_rowSums (arg2 V c)).symm

end Cert.KernelIdeal.Hand

end
-- ==== Proof.KernelIdealSums3.lean ====
/-
  Pallas call 3 of the program, read as a value: after the region the output array holds, at row r and lane q, the sum
  of the input over the whole sequence axis (256 positions) — the same array the reference's reduce produces.

  The grid visits each of the two row blocks 4 times in a row; the running block is restarted with zeros at the first visit and
  written back after the last. So the block written back for row block i is the sum over l < 4 of the sums over the 64
  positions of sequence block l: the sum over all 256 positions, regrouped. Only commutativity and associativity of
  addition on the extended reals are used; nothing is assumed finite.
-/
import proofs.«145553_j48773648613703_2_alg».proof.Proof.KernelIdealRegion3
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out3_B_eq (c : Dev nD) (i : grid3.Coords) (arg2 : Memref sig .tc .vmem S256x64x128 .f32) (harg2 : arg2.IsWhole)
    (arg3 : Memref sig .tc .vmem S256x128 .f32) (harg3 : arg3.IsWhole) (hc0 : ¬cond3 i)
    (x0 : Vec F S256x64x128 .f32) (xo1 : Vec F S256x128 .f32) :
    out3_B c i arg2 harg2 arg3 harg3 hc0 x0 xo1 = k3_pay2 xo1 x0 := by
  unfold out3_B
  rw [View.read_writes_eq_canon _ _ _ (cover3_B c i arg2 harg2 arg3 harg3 hc0 x0 xo1)]
  unfold kernelRun3_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out3_A_eq (c : Dev nD) (i : grid3.Coords) (arg2 : Memref sig .tc .vmem S256x64x128 .f32) (harg2 : arg2.IsWhole)
    (arg3 : Memref sig .tc .vmem S256x128 .f32) (harg3 : arg3.IsWhole) (hc0 : cond3 i)
    (x0 : Vec F S256x64x128 .f32) :
    out3_A c i arg2 harg2 arg3 harg3 hc0 x0 = k3_pay2 k3_pay1 x0 := by
  unfold out3_A
  rw [View.read_writes_eq_canon _ _ _ (cover3_A c i arg2 harg2 arg3 harg3 hc0 x0)]
  unfold kernelRun3_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg3 (c : Dev nD) : (⟨3, ![512, 256, 128]⟩ : Shape).Idx → EReal := V c main_arg3

/-- Its sums along the sequence axis: what the output array is to hold. -/
abbrev sums3 (c : Dev nD) : (⟨2, ![512, 128]⟩ : Shape).Idx → EReal := rowSums (arg3 V c)

/-- The printed index maps, decided over the grid: position t is row block t / 4 and sequence block t % 4. -/
theorem idx_facts3 : ∀ t : Fin cfg3.N, win3_0.index t (0 : Fin 3) = t.val / 4 ∧ win3_0.index t (1 : Fin 3) = t.val % 4
    ∧ win3_0.index t (2 : Fin 3) = 0 ∧ win3_1.index t (0 : Fin 2) = t.val / 4 ∧ win3_1.index t (1 : Fin 2) = 0 :=
  (by decide +kernel : ∀ t : Fin grid3.N, win3_0.index t (0 : Fin 3) = t.val / 4 ∧ win3_0.index t (1 : Fin 3) = t.val % 4
    ∧ win3_0.index t (2 : Fin 3) = 0 ∧ win3_1.index t (0 : Fin 2) = t.val / 4 ∧ win3_1.index t (1 : Fin 2) = 0)

/-- The input block at position t, at (p, j, q), is the array at row 256 (t / 4) + p, sequence position 64 (t % 4) + j, lane q. -/
theorem iblk3_apply (c : Dev nD) (t : Fin cfg3.N) (p : Fin 256) (j : Fin 64) (q : Fin 128) :
    (iblk3 V c 0 t : Vec Ideal S256x64x128 .f32) (ix3 p j q)
      = ext3 (arg3 V c) (256 * (t.val / 4) + p.val) (64 * (t.val % 4) + j.val) q.val := by
  have hN : t.val < 8 := lt_of_lt_of_eq t.isLt (show cfg3.N = 8 from N_3)
  obtain ⟨e0, e1, e2, -, -⟩ := idx_facts3 t
  rw [ext3_of_lt (arg3 V c) (by omega) (by omega) q.isLt]
  unfold iblk3
  rw [View.read_apply]
  show V c main_arg3 _ = V c main_arg3 _
  refine congrArg (V c main_arg3) (funext fun a => Fin.ext ?_)
  match a with
  | ⟨0, _⟩ => show win3_0.index t (0 : Fin 3) * 256 + 1 * p.val = 256 * (t.val / 4) + p.val; rw [e0]; omega
  | ⟨1, _⟩ => show win3_0.index t (1 : Fin 3) * 64 + 1 * j.val = 64 * (t.val % 4) + j.val; rw [e1]; omega
  | ⟨2, _⟩ => show win3_0.index t (2 : Fin 3) * 128 + 1 * q.val = q.val; rw [e2]; omega

/-! ## The running block, position by position -/

/-- After a position that restarts the sum: zero plus the position's block sums. -/
theorem outsAt3_restart (c : Dev nD) (p : Fin 256) (q : Fin 128) (n : ℕ) (h : n < cfg3.N) (h0 : n % 4 = 0) :
    outsAt3 V c n h (ix2 p q)
      = 0 + ∑ j ∈ Finset.range 64, ext3 (arg3 V c) (256 * (n / 4) + p.val) (64 * (n % 4) + j) q.val := by
  refine (congrFun (outsAt3_A V c ⟨n, h⟩ h0) (ix2 p q)).trans ?_
  refine (congrFun (out3_A_eq (F := Ideal) c (grid3.coords ⟨n, h⟩) (ms3_0 ⟨n, h⟩) (hs3_0 ⟨n, h⟩) (ms3_1 ⟨n, h⟩) (hs3_1 ⟨n, h⟩)
    ((hcond3 ⟨n, h⟩).mpr h0) (iblk3 V c 0 ⟨n, h⟩)) (ix2 p q)).trans ?_
  unfold k3_pay2 k3_pay1
  refine (acc_apply _ (iblk3 V c 0 ⟨n, h⟩) rfl p q
    (fun j => ext3 (arg3 V c) (256 * (n / 4) + p.val) (64 * (n % 4) + j) q.val)
    (fun j => iblk3_apply V c ⟨n, h⟩ p j q)).trans ?_
  exact congrArg (· + _) (zeros_apply p q)

/-- After a position that continues the sum: what the position before left plus the position's block sums. -/
theorem outsAt3_continue (c : Dev nD) (p : Fin 256) (q : Fin 128) (n : ℕ) (h : n + 1 < cfg3.N) (h0 : ¬(n + 1) % 4 = 0) :
    outsAt3 V c (n + 1) h (ix2 p q)
      = outsAt3 V c n (Nat.lt_of_succ_lt h) (ix2 p q)
        + ∑ j ∈ Finset.range 64, ext3 (arg3 V c) (256 * ((n + 1) / 4) + p.val) (64 * ((n + 1) % 4) + j) q.val := by
  refine (congrFun (outsAt3_B V c ⟨n + 1, h⟩ h0) (ix2 p q)).trans ?_
  refine (congrFun (out3_B_eq (F := Ideal) c (grid3.coords ⟨n + 1, h⟩) (ms3_0 ⟨n + 1, h⟩) (hs3_0 ⟨n + 1, h⟩) (ms3_1 ⟨n + 1, h⟩) (hs3_1 ⟨n + 1, h⟩)
    (fun hc => h0 ((hcond3 ⟨n + 1, h⟩).mp hc)) (iblk3 V c 0 ⟨n + 1, h⟩) (outsAt3 V c n (Nat.lt_of_succ_lt h))) (ix2 p q)).trans ?_
  unfold k3_pay2
  exact acc_apply (outsAt3 V c n (Nat.lt_of_succ_lt h)) (iblk3 V c 0 ⟨n + 1, h⟩) rfl p q
    (fun j => ext3 (arg3 V c) (256 * ((n + 1) / 4) + p.val) (64 * ((n + 1) % 4) + j) q.val)
    (fun j => iblk3_apply V c ⟨n + 1, h⟩ p j q)

/-- After the last position of a row block the running block holds the row sums of that row block. -/
theorem outsAt3_last (c : Dev nD) (p : Fin 256) (q : Fin 128) (n : ℕ) (h : n < cfg3.N) (hl : n % 4 + 1 = 4) :
    outsAt3 V c n h (ix2 p q) = ∑ s ∈ Finset.range (64 * 4), ext3 (arg3 V c) (256 * (n / 4) + p.val) s q.val :=
  running_last 64 4 cfg3.N (fun n h => outsAt3 V c n h (ix2 p q))
    (fun r s => ext3 (arg3 V c) (256 * r + p.val) s q.val)
    (outsAt3_restart V c p q) (outsAt3_continue V c p q) n h hl

/-! ## What is written back, and where -/

/-- At a position that writes back, the running block is the block of the row sums the output window cuts there. -/
theorem flushed3_point (c : Dev nD) (t : Fin cfg3.N) (hl : t.val % 4 + 1 = 4) (y : S256x128.Idx) :
    outsAt3 V c t.val t.isLt y = sums3 V c (((cfg3.win 1).blk t).view.emb y) := by
  obtain ⟨p, q, rfl⟩ : ∃ (p : Fin 256) (q : Fin 128), y = ix2 p q := ⟨y 0, y 1, eq_ix2 y⟩
  have hN : t.val < 8 := lt_of_lt_of_eq t.isLt (show cfg3.N = 8 from N_3)
  obtain ⟨-, -, -, e3, e4⟩ := idx_facts3 t
  have hr : 256 * (t.val / 4) + p.val < 512 := by omega
  refine (outsAt3_last V c p q t.val t.isLt hl).trans ?_
  refine (sum_range_ext3_rowSums (arg3 V c) (256 * (t.val / 4) + p.val) hr q).trans ?_
  refine congrArg (sums3 V c) (funext fun a => Fin.ext ?_)
  match a with
  | ⟨0, _⟩ => show 256 * (t.val / 4) + p.val = win3_1.index t (0 : Fin 2) * 256 + 1 * p.val; rw [e3]; omega
  | ⟨1, _⟩ => show q.val = win3_1.index t (1 : Fin 2) * 128 + 1 * q.val; rw [e4]; omega

theorem flushed3_eq (c : Dev nD) (t : Fin cfg3.N) (hf : (cfg3.win 1).flush t = true) :
    (dat3 (F := Ideal) V c).flushed 1 t = ((cfg3.win 1).blk t).view.read (Elt Ideal) (sums3 V c) := by
  have hN : t.val < 8 := lt_of_lt_of_eq t.isLt (show cfg3.N = 8 from N_3)
  have hl : t.val % 4 + 1 = 4 := by have := (flush3_1 t).mp hf; omega
  show (cfg3.win 1).cut (grid3.coords t) ((dat3 V c).after 1 t) = _
  rw [after3_1]
  funext y
  exact flushed3_point V c t hl y

/-- An index of the output array is in position t's block iff each coordinate is in the block's range on its axis. -/
theorem mem_blk3 (t : Fin cfg3.N) (i : S512x128.Idx) :
    i ∈ ((cfg3.win 1).blk t).view.set ↔ ∀ a : Fin 2, win3_1.index t a * S256x128.size a ≤ (i a).val ∧ (i a).val < win3_1.index t a * S256x128.size a + S256x128.size a := by
  show i ∈ ((View.whole main_v3).slice (win3_1.rect t)).set ↔ _
  rw [View.set_slice_whole, Rect.mem_set_unit]
  exact Iff.rfl

/-- Row r is written back at the last position of its row block, position 4 (r / 256) + 3. -/
theorem cover3 (i : S512x128.Idx) : ∃ t : Fin cfg3.N, (cfg3.win 1).flush t = true ∧ i ∈ ((cfg3.win 1).blk t).view.set := by
  have h0 : (i 0).val < 512 := (i 0).isLt
  have h1 : (i 1).val < 128 := (i 1).isLt
  have hN : cfg3.N = 8 := N_3
  have ht : 4 * ((i 0).val / 256) + 3 < cfg3.N := by rw [hN]; omega
  obtain ⟨-, -, -, e3, e4⟩ := idx_facts3 ⟨4 * ((i 0).val / 256) + 3, ht⟩
  refine ⟨⟨4 * ((i 0).val / 256) + 3, ht⟩, (flush3_1 _).mpr (by show (4 * ((i 0).val / 256) + 3) % 4 = 3; omega), ?_⟩
  rw [mem_blk3]
  intro a
  match a with
  | ⟨0, _⟩ =>
    show win3_1.index ⟨4 * ((i 0).val / 256) + 3, ht⟩ (0 : Fin 2) * 256 ≤ (i 0).val
      ∧ (i 0).val < win3_1.index ⟨4 * ((i 0).val / 256) + 3, ht⟩ (0 : Fin 2) * 256 + 256
    rw [e3]; show (4 * ((i 0).val / 256) + 3) / 4 * 256 ≤ (i 0).val ∧ (i 0).val < (4 * ((i 0).val / 256) + 3) / 4 * 256 + 256; omega
  | ⟨1, _⟩ =>
    show win3_1.index ⟨4 * ((i 0).val / 256) + 3, ht⟩ (1 : Fin 2) * 128 ≤ (i 1).val
      ∧ (i 1).val < win3_1.index ⟨4 * ((i 0).val / 256) + 3, ht⟩ (1 : Fin 2) * 128 + 128
    rw [e4]; omega

/-! ## The output array after the region, and the reference's reduce -/

/-- After the region the output array holds the row sums of the input array. -/
theorem arr3_rowSums (c : Dev nD) : (dat3 (F := Ideal) V c).arrAt 1 cfg3.N = sums3 V c :=
  (dat3 (F := Ideal) V c).arrAt_eq_of_cover 1 (sums3 V c) (flushed3_eq V c) cover3

/-- The reference's reduce along the sequence axis, from zero, is the same row sums. -/
theorem ref3_rowSums (x : (⟨3, ![512, 256, 128]⟩ : Shape).Idx → EReal) :
    Host.reduceAdd (F := Ideal) x (constant Cert.ReferenceIdeal.S_ .f32 0x00000000#32)
        Cert.ReferenceIdeal.Gen.reducesTo_S512x256x128_S512x128_d1 Cert.ReferenceIdeal.Gen.h_S_ = rowSums x := by
  funext i
  refine (Cert.ReferenceIdeal.Read.val_main_v6_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 3's output array after the region is the reference's reduce of the input array. -/
theorem arr3_eq (c : Dev nD) :
    (dat3 (F := Ideal) V c).arrAt 1 cfg3.N
      = Host.reduceAdd (F := Ideal) (V c main_arg3) (constant Cert.ReferenceIdeal.S_ .f32 0x00000000#32)
          Cert.ReferenceIdeal.Gen.reducesTo_S512x256x128_S512x128_d1 Cert.ReferenceIdeal.Gen.h_S_ :=
  (arr3_rowSums V c).trans (ref3_rowSums (arg3 V c)).symm

end Cert.KernelIdeal.Hand

end
-- ==== Proof.KernelIdealSums4.lean ====
/-
  Pallas call 4 of the program, read as a value: after the region the output array holds, at row r and lane q, the sum
  of the input over the whole sequence axis (320 positions) — the same array the reference's reduce produces.

  The grid visits each of the two row blocks 5 times in a row; the running block is restarted with zeros at the first visit and
  written back after the last. So the block written back for row block i is the sum over l < 5 of the sums over the 64
  positions of sequence block l: the sum over all 320 positions, regrouped. Only commutativity and associativity of
  addition on the extended reals are used; nothing is assumed finite.
-/
import proofs.«145553_j48773648613703_2_alg».proof.Proof.KernelIdealRegion4
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out4_B_eq (c : Dev nD) (i : grid4.Coords) (arg2 : Memref sig .tc .vmem S256x64x128 .f32) (harg2 : arg2.IsWhole)
    (arg3 : Memref sig .tc .vmem S256x128 .f32) (harg3 : arg3.IsWhole) (hc0 : ¬cond4 i)
    (x0 : Vec F S256x64x128 .f32) (xo1 : Vec F S256x128 .f32) :
    out4_B c i arg2 harg2 arg3 harg3 hc0 x0 xo1 = k4_pay2 xo1 x0 := by
  unfold out4_B
  rw [View.read_writes_eq_canon _ _ _ (cover4_B c i arg2 harg2 arg3 harg3 hc0 x0 xo1)]
  unfold kernelRun4_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out4_A_eq (c : Dev nD) (i : grid4.Coords) (arg2 : Memref sig .tc .vmem S256x64x128 .f32) (harg2 : arg2.IsWhole)
    (arg3 : Memref sig .tc .vmem S256x128 .f32) (harg3 : arg3.IsWhole) (hc0 : cond4 i)
    (x0 : Vec F S256x64x128 .f32) :
    out4_A c i arg2 harg2 arg3 harg3 hc0 x0 = k4_pay2 k4_pay1 x0 := by
  unfold out4_A
  rw [View.read_writes_eq_canon _ _ _ (cover4_A c i arg2 harg2 arg3 harg3 hc0 x0)]
  unfold kernelRun4_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg4 (c : Dev nD) : (⟨3, ![512, 320, 128]⟩ : Shape).Idx → EReal := V c main_arg4

/-- Its sums along the sequence axis: what the output array is to hold. -/
abbrev sums4 (c : Dev nD) : (⟨2, ![512, 128]⟩ : Shape).Idx → EReal := rowSums (arg4 V c)

/-- The printed index maps, decided over the grid: position t is row block t / 5 and sequence block t % 5. -/
theorem idx_facts4 : ∀ t : Fin cfg4.N, win4_0.index t (0 : Fin 3) = t.val / 5 ∧ win4_0.index t (1 : Fin 3) = t.val % 5
    ∧ win4_0.index t (2 : Fin 3) = 0 ∧ win4_1.index t (0 : Fin 2) = t.val / 5 ∧ win4_1.index t (1 : Fin 2) = 0 :=
  (by decide +kernel : ∀ t : Fin grid4.N, win4_0.index t (0 : Fin 3) = t.val / 5 ∧ win4_0.index t (1 : Fin 3) = t.val % 5
    ∧ win4_0.index t (2 : Fin 3) = 0 ∧ win4_1.index t (0 : Fin 2) = t.val / 5 ∧ win4_1.index t (1 : Fin 2) = 0)

/-- The input block at position t, at (p, j, q), is the array at row 256 (t / 5) + p, sequence position 64 (t % 5) + j, lane q. -/
theorem iblk4_apply (c : Dev nD) (t : Fin cfg4.N) (p : Fin 256) (j : Fin 64) (q : Fin 128) :
    (iblk4 V c 0 t : Vec Ideal S256x64x128 .f32) (ix3 p j q)
      = ext3 (arg4 V c) (256 * (t.val / 5) + p.val) (64 * (t.val % 5) + j.val) q.val := by
  have hN : t.val < 10 := lt_of_lt_of_eq t.isLt (show cfg4.N = 10 from N_4)
  obtain ⟨e0, e1, e2, -, -⟩ := idx_facts4 t
  rw [ext3_of_lt (arg4 V c) (by omega) (by omega) q.isLt]
  unfold iblk4
  rw [View.read_apply]
  show V c main_arg4 _ = V c main_arg4 _
  refine congrArg (V c main_arg4) (funext fun a => Fin.ext ?_)
  match a with
  | ⟨0, _⟩ => show win4_0.index t (0 : Fin 3) * 256 + 1 * p.val = 256 * (t.val / 5) + p.val; rw [e0]; omega
  | ⟨1, _⟩ => show win4_0.index t (1 : Fin 3) * 64 + 1 * j.val = 64 * (t.val % 5) + j.val; rw [e1]; omega
  | ⟨2, _⟩ => show win4_0.index t (2 : Fin 3) * 128 + 1 * q.val = q.val; rw [e2]; omega

/-! ## The running block, position by position -/

/-- After a position that restarts the sum: zero plus the position's block sums. -/
theorem outsAt4_restart (c : Dev nD) (p : Fin 256) (q : Fin 128) (n : ℕ) (h : n < cfg4.N) (h0 : n % 5 = 0) :
    outsAt4 V c n h (ix2 p q)
      = 0 + ∑ j ∈ Finset.range 64, ext3 (arg4 V c) (256 * (n / 5) + p.val) (64 * (n % 5) + j) q.val := by
  refine (congrFun (outsAt4_A V c ⟨n, h⟩ h0) (ix2 p q)).trans ?_
  refine (congrFun (out4_A_eq (F := Ideal) c (grid4.coords ⟨n, h⟩) (ms4_0 ⟨n, h⟩) (hs4_0 ⟨n, h⟩) (ms4_1 ⟨n, h⟩) (hs4_1 ⟨n, h⟩)
    ((hcond4 ⟨n, h⟩).mpr h0) (iblk4 V c 0 ⟨n, h⟩)) (ix2 p q)).trans ?_
  unfold k4_pay2 k4_pay1
  refine (acc_apply _ (iblk4 V c 0 ⟨n, h⟩) rfl p q
    (fun j => ext3 (arg4 V c) (256 * (n / 5) + p.val) (64 * (n % 5) + j) q.val)
    (fun j => iblk4_apply V c ⟨n, h⟩ p j q)).trans ?_
  exact congrArg (· + _) (zeros_apply p q)

/-- After a position that continues the sum: what the position before left plus the position's block sums. -/
theorem outsAt4_continue (c : Dev nD) (p : Fin 256) (q : Fin 128) (n : ℕ) (h : n + 1 < cfg4.N) (h0 : ¬(n + 1) % 5 = 0) :
    outsAt4 V c (n + 1) h (ix2 p q)
      = outsAt4 V c n (Nat.lt_of_succ_lt h) (ix2 p q)
        + ∑ j ∈ Finset.range 64, ext3 (arg4 V c) (256 * ((n + 1) / 5) + p.val) (64 * ((n + 1) % 5) + j) q.val := by
  refine (congrFun (outsAt4_B V c ⟨n + 1, h⟩ h0) (ix2 p q)).trans ?_
  refine (congrFun (out4_B_eq (F := Ideal) c (grid4.coords ⟨n + 1, h⟩) (ms4_0 ⟨n + 1, h⟩) (hs4_0 ⟨n + 1, h⟩) (ms4_1 ⟨n + 1, h⟩) (hs4_1 ⟨n + 1, h⟩)
    (fun hc => h0 ((hcond4 ⟨n + 1, h⟩).mp hc)) (iblk4 V c 0 ⟨n + 1, h⟩) (outsAt4 V c n (Nat.lt_of_succ_lt h))) (ix2 p q)).trans ?_
  unfold k4_pay2
  exact acc_apply (outsAt4 V c n (Nat.lt_of_succ_lt h)) (iblk4 V c 0 ⟨n + 1, h⟩) rfl p q
    (fun j => ext3 (arg4 V c) (256 * ((n + 1) / 5) + p.val) (64 * ((n + 1) % 5) + j) q.val)
    (fun j => iblk4_apply V c ⟨n + 1, h⟩ p j q)

/-- After the last position of a row block the running block holds the row sums of that row block. -/
theorem outsAt4_last (c : Dev nD) (p : Fin 256) (q : Fin 128) (n : ℕ) (h : n < cfg4.N) (hl : n % 5 + 1 = 5) :
    outsAt4 V c n h (ix2 p q) = ∑ s ∈ Finset.range (64 * 5), ext3 (arg4 V c) (256 * (n / 5) + p.val) s q.val :=
  running_last 64 5 cfg4.N (fun n h => outsAt4 V c n h (ix2 p q))
    (fun r s => ext3 (arg4 V c) (256 * r + p.val) s q.val)
    (outsAt4_restart V c p q) (outsAt4_continue V c p q) n h hl

/-! ## What is written back, and where -/

/-- At a position that writes back, the running block is the block of the row sums the output window cuts there. -/
theorem flushed4_point (c : Dev nD) (t : Fin cfg4.N) (hl : t.val % 5 + 1 = 5) (y : S256x128.Idx) :
    outsAt4 V c t.val t.isLt y = sums4 V c (((cfg4.win 1).blk t).view.emb y) := by
  obtain ⟨p, q, rfl⟩ : ∃ (p : Fin 256) (q : Fin 128), y = ix2 p q := ⟨y 0, y 1, eq_ix2 y⟩
  have hN : t.val < 10 := lt_of_lt_of_eq t.isLt (show cfg4.N = 10 from N_4)
  obtain ⟨-, -, -, e3, e4⟩ := idx_facts4 t
  have hr : 256 * (t.val / 5) + p.val < 512 := by omega
  refine (outsAt4_last V c p q t.val t.isLt hl).trans ?_
  refine (sum_range_ext3_rowSums (arg4 V c) (256 * (t.val / 5) + p.val) hr q).trans ?_
  refine congrArg (sums4 V c) (funext fun a => Fin.ext ?_)
  match a with
  | ⟨0, _⟩ => show 256 * (t.val / 5) + p.val = win4_1.index t (0 : Fin 2) * 256 + 1 * p.val; rw [e3]; omega
  | ⟨1, _⟩ => show q.val = win4_1.index t (1 : Fin 2) * 128 + 1 * q.val; rw [e4]; omega

theorem flushed4_eq (c : Dev nD) (t : Fin cfg4.N) (hf : (cfg4.win 1).flush t = true) :
    (dat4 (F := Ideal) V c).flushed 1 t = ((cfg4.win 1).blk t).view.read (Elt Ideal) (sums4 V c) := by
  have hN : t.val < 10 := lt_of_lt_of_eq t.isLt (show cfg4.N = 10 from N_4)
  have hl : t.val % 5 + 1 = 5 := by have := (flush4_1 t).mp hf; omega
  show (cfg4.win 1).cut (grid4.coords t) ((dat4 V c).after 1 t) = _
  rw [after4_1]
  funext y
  exact flushed4_point V c t hl y

/-- An index of the output array is in position t's block iff each coordinate is in the block's range on its axis. -/
theorem mem_blk4 (t : Fin cfg4.N) (i : S512x128.Idx) :
    i ∈ ((cfg4.win 1).blk t).view.set ↔ ∀ a : Fin 2, win4_1.index t a * S256x128.size a ≤ (i a).val ∧ (i a).val < win4_1.index t a * S256x128.size a + S256x128.size a := by
  show i ∈ ((View.whole main_v4).slice (win4_1.rect t)).set ↔ _
  rw [View.set_slice_whole, Rect.mem_set_unit]
  exact Iff.rfl

/-- Row r is written back at the last position of its row block, position 5 (r / 256) + 4. -/
theorem cover4 (i : S512x128.Idx) : ∃ t : Fin cfg4.N, (cfg4.win 1).flush t = true ∧ i ∈ ((cfg4.win 1).blk t).view.set := by
  have h0 : (i 0).val < 512 := (i 0).isLt
  have h1 : (i 1).val < 128 := (i 1).isLt
  have hN : cfg4.N = 10 := N_4
  have ht : 5 * ((i 0).val / 256) + 4 < cfg4.N := by rw [hN]; omega
  obtain ⟨-, -, -, e3, e4⟩ := idx_facts4 ⟨5 * ((i 0).val / 256) + 4, ht⟩
  refine ⟨⟨5 * ((i 0).val / 256) + 4, ht⟩, (flush4_1 _).mpr (by show (5 * ((i 0).val / 256) + 4) % 5 = 4; omega), ?_⟩
  rw [mem_blk4]
  intro a
  match a with
  | ⟨0, _⟩ =>
    show win4_1.index ⟨5 * ((i 0).val / 256) + 4, ht⟩ (0 : Fin 2) * 256 ≤ (i 0).val
      ∧ (i 0).val < win4_1.index ⟨5 * ((i 0).val / 256) + 4, ht⟩ (0 : Fin 2) * 256 + 256
    rw [e3]; show (5 * ((i 0).val / 256) + 4) / 5 * 256 ≤ (i 0).val ∧ (i 0).val < (5 * ((i 0).val / 256) + 4) / 5 * 256 + 256; omega
  | ⟨1, _⟩ =>
    show win4_1.index ⟨5 * ((i 0).val / 256) + 4, ht⟩ (1 : Fin 2) * 128 ≤ (i 1).val
      ∧ (i 1).val < win4_1.index ⟨5 * ((i 0).val / 256) + 4, ht⟩ (1 : Fin 2) * 128 + 128
    rw [e4]; omega

/-! ## The output array after the region, and the reference's reduce -/

/-- After the region the output array holds the row sums of the input array. -/
theorem arr4_rowSums (c : Dev nD) : (dat4 (F := Ideal) V c).arrAt 1 cfg4.N = sums4 V c :=
  (dat4 (F := Ideal) V c).arrAt_eq_of_cover 1 (sums4 V c) (flushed4_eq V c) cover4

/-- The reference's reduce along the sequence axis, from zero, is the same row sums. -/
theorem ref4_rowSums (x : (⟨3, ![512, 320, 128]⟩ : Shape).Idx → EReal) :
    Host.reduceAdd (F := Ideal) x (constant Cert.ReferenceIdeal.S_ .f32 0x00000000#32)
        Cert.ReferenceIdeal.Gen.reducesTo_S512x320x128_S512x128_d1 Cert.ReferenceIdeal.Gen.h_S_ = rowSums x := by
  funext i
  refine (Cert.ReferenceIdeal.Read.val_main_v8_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 4's output array after the region is the reference's reduce of the input array. -/
theorem arr4_eq (c : Dev nD) :
    (dat4 (F := Ideal) V c).arrAt 1 cfg4.N
      = Host.reduceAdd (F := Ideal) (V c main_arg4) (constant Cert.ReferenceIdeal.S_ .f32 0x00000000#32)
          Cert.ReferenceIdeal.Gen.reducesTo_S512x320x128_S512x128_d1 Cert.ReferenceIdeal.Gen.h_S_ :=
  (arr4_rowSums V c).trans (ref4_rowSums (arg4 V c)).symm

end Cert.KernelIdeal.Hand

end
-- ==== Proof.KernelIdealSums5.lean ====
/-
  Pallas call 5 of the program, read as a value: after the region the output array holds, at row r and lane q, the sum
  of the input over the whole sequence axis (384 positions) — the same array the reference's reduce produces.

  The grid visits each of the two row blocks 6 times in a row; the running block is restarted with zeros at the first visit and
  written back after the last. So the block written back for row block i is the sum over l < 6 of the sums over the 64
  positions of sequence block l: the sum over all 384 positions, regrouped. Only commutativity and associativity of
  addition on the extended reals are used; nothing is assumed finite.
-/
import proofs.«145553_j48773648613703_2_alg».proof.Proof.KernelIdealRegion5
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out5_B_eq (c : Dev nD) (i : grid5.Coords) (arg2 : Memref sig .tc .vmem S256x64x128 .f32) (harg2 : arg2.IsWhole)
    (arg3 : Memref sig .tc .vmem S256x128 .f32) (harg3 : arg3.IsWhole) (hc0 : ¬cond5 i)
    (x0 : Vec F S256x64x128 .f32) (xo1 : Vec F S256x128 .f32) :
    out5_B c i arg2 harg2 arg3 harg3 hc0 x0 xo1 = k5_pay2 xo1 x0 := by
  unfold out5_B
  rw [View.read_writes_eq_canon _ _ _ (cover5_B c i arg2 harg2 arg3 harg3 hc0 x0 xo1)]
  unfold kernelRun5_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out5_A_eq (c : Dev nD) (i : grid5.Coords) (arg2 : Memref sig .tc .vmem S256x64x128 .f32) (harg2 : arg2.IsWhole)
    (arg3 : Memref sig .tc .vmem S256x128 .f32) (harg3 : arg3.IsWhole) (hc0 : cond5 i)
    (x0 : Vec F S256x64x128 .f32) :
    out5_A c i arg2 harg2 arg3 harg3 hc0 x0 = k5_pay2 k5_pay1 x0 := by
  unfold out5_A
  rw [View.read_writes_eq_canon _ _ _ (cover5_A c i arg2 harg2 arg3 harg3 hc0 x0)]
  unfold kernelRun5_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg5 (c : Dev nD) : (⟨3, ![512, 384, 128]⟩ : Shape).Idx → EReal := V c main_arg5

/-- Its sums along the sequence axis: what the output array is to hold. -/
abbrev sums5 (c : Dev nD) : (⟨2, ![512, 128]⟩ : Shape).Idx → EReal := rowSums (arg5 V c)

/-- The printed index maps, decided over the grid: position t is row block t / 6 and sequence block t % 6. -/
theorem idx_facts5 : ∀ t : Fin cfg5.N, win5_0.index t (0 : Fin 3) = t.val / 6 ∧ win5_0.index t (1 : Fin 3) = t.val % 6
    ∧ win5_0.index t (2 : Fin 3) = 0 ∧ win5_1.index t (0 : Fin 2) = t.val / 6 ∧ win5_1.index t (1 : Fin 2) = 0 :=
  (by decide +kernel : ∀ t : Fin grid5.N, win5_0.index t (0 : Fin 3) = t.val / 6 ∧ win5_0.index t (1 : Fin 3) = t.val % 6
    ∧ win5_0.index t (2 : Fin 3) = 0 ∧ win5_1.index t (0 : Fin 2) = t.val / 6 ∧ win5_1.index t (1 : Fin 2) = 0)

/-- The input block at position t, at (p, j, q), is the array at row 256 (t / 6) + p, sequence position 64 (t % 6) + j, lane q. -/
theorem iblk5_apply (c : Dev nD) (t : Fin cfg5.N) (p : Fin 256) (j : Fin 64) (q : Fin 128) :
    (iblk5 V c 0 t : Vec Ideal S256x64x128 .f32) (ix3 p j q)
      = ext3 (arg5 V c) (256 * (t.val / 6) + p.val) (64 * (t.val % 6) + j.val) q.val := by
  have hN : t.val < 12 := lt_of_lt_of_eq t.isLt (show cfg5.N = 12 from N_5)
  obtain ⟨e0, e1, e2, -, -⟩ := idx_facts5 t
  rw [ext3_of_lt (arg5 V c) (by omega) (by omega) q.isLt]
  unfold iblk5
  rw [View.read_apply]
  show V c main_arg5 _ = V c main_arg5 _
  refine congrArg (V c main_arg5) (funext fun a => Fin.ext ?_)
  match a with
  | ⟨0, _⟩ => show win5_0.index t (0 : Fin 3) * 256 + 1 * p.val = 256 * (t.val / 6) + p.val; rw [e0]; omega
  | ⟨1, _⟩ => show win5_0.index t (1 : Fin 3) * 64 + 1 * j.val = 64 * (t.val % 6) + j.val; rw [e1]; omega
  | ⟨2, _⟩ => show win5_0.index t (2 : Fin 3) * 128 + 1 * q.val = q.val; rw [e2]; omega

/-! ## The running block, position by position -/

/-- After a position that restarts the sum: zero plus the position's block sums. -/
theorem outsAt5_restart (c : Dev nD) (p : Fin 256) (q : Fin 128) (n : ℕ) (h : n < cfg5.N) (h0 : n % 6 = 0) :
    outsAt5 V c n h (ix2 p q)
      = 0 + ∑ j ∈ Finset.range 64, ext3 (arg5 V c) (256 * (n / 6) + p.val) (64 * (n % 6) + j) q.val := by
  refine (congrFun (outsAt5_A V c ⟨n, h⟩ h0) (ix2 p q)).trans ?_
  refine (congrFun (out5_A_eq (F := Ideal) c (grid5.coords ⟨n, h⟩) (ms5_0 ⟨n, h⟩) (hs5_0 ⟨n, h⟩) (ms5_1 ⟨n, h⟩) (hs5_1 ⟨n, h⟩)
    ((hcond5 ⟨n, h⟩).mpr h0) (iblk5 V c 0 ⟨n, h⟩)) (ix2 p q)).trans ?_
  unfold k5_pay2 k5_pay1
  refine (acc_apply _ (iblk5 V c 0 ⟨n, h⟩) rfl p q
    (fun j => ext3 (arg5 V c) (256 * (n / 6) + p.val) (64 * (n % 6) + j) q.val)
    (fun j => iblk5_apply V c ⟨n, h⟩ p j q)).trans ?_
  exact congrArg (· + _) (zeros_apply p q)

/-- After a position that continues the sum: what the position before left plus the position's block sums. -/
theorem outsAt5_continue (c : Dev nD) (p : Fin 256) (q : Fin 128) (n : ℕ) (h : n + 1 < cfg5.N) (h0 : ¬(n + 1) % 6 = 0) :
    outsAt5 V c (n + 1) h (ix2 p q)
      = outsAt5 V c n (Nat.lt_of_succ_lt h) (ix2 p q)
        + ∑ j ∈ Finset.range 64, ext3 (arg5 V c) (256 * ((n + 1) / 6) + p.val) (64 * ((n + 1) % 6) + j) q.val := by
  refine (congrFun (outsAt5_B V c ⟨n + 1, h⟩ h0) (ix2 p q)).trans ?_
  refine (congrFun (out5_B_eq (F := Ideal) c (grid5.coords ⟨n + 1, h⟩) (ms5_0 ⟨n + 1, h⟩) (hs5_0 ⟨n + 1, h⟩) (ms5_1 ⟨n + 1, h⟩) (hs5_1 ⟨n + 1, h⟩)
    (fun hc => h0 ((hcond5 ⟨n + 1, h⟩).mp hc)) (iblk5 V c 0 ⟨n + 1, h⟩) (outsAt5 V c n (Nat.lt_of_succ_lt h))) (ix2 p q)).trans ?_
  unfold k5_pay2
  exact acc_apply (outsAt5 V c n (Nat.lt_of_succ_lt h)) (iblk5 V c 0 ⟨n + 1, h⟩) rfl p q
    (fun j => ext3 (arg5 V c) (256 * ((n + 1) / 6) + p.val) (64 * ((n + 1) % 6) + j) q.val)
    (fun j => iblk5_apply V c ⟨n + 1, h⟩ p j q)

/-- After the last position of a row block the running block holds the row sums of that row block. -/
theorem outsAt5_last (c : Dev nD) (p : Fin 256) (q : Fin 128) (n : ℕ) (h : n < cfg5.N) (hl : n % 6 + 1 = 6) :
    outsAt5 V c n h (ix2 p q) = ∑ s ∈ Finset.range (64 * 6), ext3 (arg5 V c) (256 * (n / 6) + p.val) s q.val :=
  running_last 64 6 cfg5.N (fun n h => outsAt5 V c n h (ix2 p q))
    (fun r s => ext3 (arg5 V c) (256 * r + p.val) s q.val)
    (outsAt5_restart V c p q) (outsAt5_continue V c p q) n h hl

/-! ## What is written back, and where -/

/-- At a position that writes back, the running block is the block of the row sums the output window cuts there. -/
theorem flushed5_point (c : Dev nD) (t : Fin cfg5.N) (hl : t.val % 6 + 1 = 6) (y : S256x128.Idx) :
    outsAt5 V c t.val t.isLt y = sums5 V c (((cfg5.win 1).blk t).view.emb y) := by
  obtain ⟨p, q, rfl⟩ : ∃ (p : Fin 256) (q : Fin 128), y = ix2 p q := ⟨y 0, y 1, eq_ix2 y⟩
  have hN : t.val < 12 := lt_of_lt_of_eq t.isLt (show cfg5.N = 12 from N_5)
  obtain ⟨-, -, -, e3, e4⟩ := idx_facts5 t
  have hr : 256 * (t.val / 6) + p.val < 512 := by omega
  refine (outsAt5_last V c p q t.val t.isLt hl).trans ?_
  refine (sum_range_ext3_rowSums (arg5 V c) (256 * (t.val / 6) + p.val) hr q).trans ?_
  refine congrArg (sums5 V c) (funext fun a => Fin.ext ?_)
  match a with
  | ⟨0, _⟩ => show 256 * (t.val / 6) + p.val = win5_1.index t (0 : Fin 2) * 256 + 1 * p.val; rw [e3]; omega
  | ⟨1, _⟩ => show q.val = win5_1.index t (1 : Fin 2) * 128 + 1 * q.val; rw [e4]; omega

theorem flushed5_eq (c : Dev nD) (t : Fin cfg5.N) (hf : (cfg5.win 1).flush t = true) :
    (dat5 (F := Ideal) V c).flushed 1 t = ((cfg5.win 1).blk t).view.read (Elt Ideal) (sums5 V c) := by
  have hN : t.val < 12 := lt_of_lt_of_eq t.isLt (show cfg5.N = 12 from N_5)
  have hl : t.val % 6 + 1 = 6 := by have := (flush5_1 t).mp hf; omega
  show (cfg5.win 1).cut (grid5.coords t) ((dat5 V c).after 1 t) = _
  rw [after5_1]
  funext y
  exact flushed5_point V c t hl y

/-- An index of the output array is in position t's block iff each coordinate is in the block's range on its axis. -/
theorem mem_blk5 (t : Fin cfg5.N) (i : S512x128.Idx) :
    i ∈ ((cfg5.win 1).blk t).view.set ↔ ∀ a : Fin 2, win5_1.index t a * S256x128.size a ≤ (i a).val ∧ (i a).val < win5_1.index t a * S256x128.size a + S256x128.size a := by
  show i ∈ ((View.whole main_v5).slice (win5_1.rect t)).set ↔ _
  rw [View.set_slice_whole, Rect.mem_set_unit]
  exact Iff.rfl

/-- Row r is written back at the last position of its row block, position 6 (r / 256) + 5. -/
theorem cover5 (i : S512x128.Idx) : ∃ t : Fin cfg5.N, (cfg5.win 1).flush t = true ∧ i ∈ ((cfg5.win 1).blk t).view.set := by
  have h0 : (i 0).val < 512 := (i 0).isLt
  have h1 : (i 1).val < 128 := (i 1).isLt
  have hN : cfg5.N = 12 := N_5
  have ht : 6 * ((i 0).val / 256) + 5 < cfg5.N := by rw [hN]; omega
  obtain ⟨-, -, -, e3, e4⟩ := idx_facts5 ⟨6 * ((i 0).val / 256) + 5, ht⟩
  refine ⟨⟨6 * ((i 0).val / 256) + 5, ht⟩, (flush5_1 _).mpr (by show (6 * ((i 0).val / 256) + 5) % 6 = 5; omega), ?_⟩
  rw [mem_blk5]
  intro a
  match a with
  | ⟨0, _⟩ =>
    show win5_1.index ⟨6 * ((i 0).val / 256) + 5, ht⟩ (0 : Fin 2) * 256 ≤ (i 0).val
      ∧ (i 0).val < win5_1.index ⟨6 * ((i 0).val / 256) + 5, ht⟩ (0 : Fin 2) * 256 + 256
    rw [e3]; show (6 * ((i 0).val / 256) + 5) / 6 * 256 ≤ (i 0).val ∧ (i 0).val < (6 * ((i 0).val / 256) + 5) / 6 * 256 + 256; omega
  | ⟨1, _⟩ =>
    show win5_1.index ⟨6 * ((i 0).val / 256) + 5, ht⟩ (1 : Fin 2) * 128 ≤ (i 1).val
      ∧ (i 1).val < win5_1.index ⟨6 * ((i 0).val / 256) + 5, ht⟩ (1 : Fin 2) * 128 + 128
    rw [e4]; omega

/-! ## The output array after the region, and the reference's reduce -/

/-- After the region the output array holds the row sums of the input array. -/
theorem arr5_rowSums (c : Dev nD) : (dat5 (F := Ideal) V c).arrAt 1 cfg5.N = sums5 V c :=
  (dat5 (F := Ideal) V c).arrAt_eq_of_cover 1 (sums5 V c) (flushed5_eq V c) cover5

/-- The reference's reduce along the sequence axis, from zero, is the same row sums. -/
theorem ref5_rowSums (x : (⟨3, ![512, 384, 128]⟩ : Shape).Idx → EReal) :
    Host.reduceAdd (F := Ideal) x (constant Cert.ReferenceIdeal.S_ .f32 0x00000000#32)
        Cert.ReferenceIdeal.Gen.reducesTo_S512x384x128_S512x128_d1 Cert.ReferenceIdeal.Gen.h_S_ = rowSums x := by
  funext i
  refine (Cert.ReferenceIdeal.Read.val_main_v10_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 5's output array after the region is the reference's reduce of the input array. -/
theorem arr5_eq (c : Dev nD) :
    (dat5 (F := Ideal) V c).arrAt 1 cfg5.N
      = Host.reduceAdd (F := Ideal) (V c main_arg5) (constant Cert.ReferenceIdeal.S_ .f32 0x00000000#32)
          Cert.ReferenceIdeal.Gen.reducesTo_S512x384x128_S512x128_d1 Cert.ReferenceIdeal.Gen.h_S_ :=
  (arr5_rowSums V c).trans (ref5_rowSums (arg5 V c)).symm

end Cert.KernelIdeal.Hand

end
-- ==== Proof.KernelIdealSums6.lean ====
/-
  Pallas call 6 of the program, read as a value: after the region the output array holds, at row r and lane q, the sum
  of the input over the whole sequence axis (448 positions) — the same array the reference's reduce produces.

  The grid visits each of the two row blocks 7 times in a row; the running block is restarted with zeros at the first visit and
  written back after the last. So the block written back for row block i is the sum over l < 7 of the sums over the 64
  positions of sequence block l: the sum over all 448 positions, regrouped. Only commutativity and associativity of
  addition on the extended reals are used; nothing is assumed finite.
-/
import proofs.«145553_j48773648613703_2_alg».proof.Proof.KernelIdealRegion6
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out6_B_eq (c : Dev nD) (i : grid6.Coords) (arg2 : Memref sig .tc .vmem S256x64x128 .f32) (harg2 : arg2.IsWhole)
    (arg3 : Memref sig .tc .vmem S256x128 .f32) (harg3 : arg3.IsWhole) (hc0 : ¬cond6 i)
    (x0 : Vec F S256x64x128 .f32) (xo1 : Vec F S256x128 .f32) :
    out6_B c i arg2 harg2 arg3 harg3 hc0 x0 xo1 = k6_pay2 xo1 x0 := by
  unfold out6_B
  rw [View.read_writes_eq_canon _ _ _ (cover6_B c i arg2 harg2 arg3 harg3 hc0 x0 xo1)]
  unfold kernelRun6_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out6_A_eq (c : Dev nD) (i : grid6.Coords) (arg2 : Memref sig .tc .vmem S256x64x128 .f32) (harg2 : arg2.IsWhole)
    (arg3 : Memref sig .tc .vmem S256x128 .f32) (harg3 : arg3.IsWhole) (hc0 : cond6 i)
    (x0 : Vec F S256x64x128 .f32) :
    out6_A c i arg2 harg2 arg3 harg3 hc0 x0 = k6_pay2 k6_pay1 x0 := by
  unfold out6_A
  rw [View.read_writes_eq_canon _ _ _ (cover6_A c i arg2 harg2 arg3 harg3 hc0 x0)]
  unfold kernelRun6_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg6 (c : Dev nD) : (⟨3, ![512, 448, 128]⟩ : Shape).Idx → EReal := V c main_arg6

/-- Its sums along the sequence axis: what the output array is to hold. -/
abbrev sums6 (c : Dev nD) : (⟨2, ![512, 128]⟩ : Shape).Idx → EReal := rowSums (arg6 V c)

/-- The printed index maps, decided over the grid: position t is row block t / 7 and sequence block t % 7. -/
theorem idx_facts6 : ∀ t : Fin cfg6.N, win6_0.index t (0 : Fin 3) = t.val / 7 ∧ win6_0.index t (1 : Fin 3) = t.val % 7
    ∧ win6_0.index t (2 : Fin 3) = 0 ∧ win6_1.index t (0 : Fin 2) = t.val / 7 ∧ win6_1.index t (1 : Fin 2) = 0 :=
  (by decide +kernel : ∀ t : Fin grid6.N, win6_0.index t (0 : Fin 3) = t.val / 7 ∧ win6_0.index t (1 : Fin 3) = t.val % 7
    ∧ win6_0.index t (2 : Fin 3) = 0 ∧ win6_1.index t (0 : Fin 2) = t.val / 7 ∧ win6_1.index t (1 : Fin 2) = 0)

/-- The input block at position t, at (p, j, q), is the array at row 256 (t / 7) + p, sequence position 64 (t % 7) + j, lane q. -/
theorem iblk6_apply (c : Dev nD) (t : Fin cfg6.N) (p : Fin 256) (j : Fin 64) (q : Fin 128) :
    (iblk6 V c 0 t : Vec Ideal S256x64x128 .f32) (ix3 p j q)
      = ext3 (arg6 V c) (256 * (t.val / 7) + p.val) (64 * (t.val % 7) + j.val) q.val := by
  have hN : t.val < 14 := lt_of_lt_of_eq t.isLt (show cfg6.N = 14 from N_6)
  obtain ⟨e0, e1, e2, -, -⟩ := idx_facts6 t
  rw [ext3_of_lt (arg6 V c) (by omega) (by omega) q.isLt]
  unfold iblk6
  rw [View.read_apply]
  show V c main_arg6 _ = V c main_arg6 _
  refine congrArg (V c main_arg6) (funext fun a => Fin.ext ?_)
  match a with
  | ⟨0, _⟩ => show win6_0.index t (0 : Fin 3) * 256 + 1 * p.val = 256 * (t.val / 7) + p.val; rw [e0]; omega
  | ⟨1, _⟩ => show win6_0.index t (1 : Fin 3) * 64 + 1 * j.val = 64 * (t.val % 7) + j.val; rw [e1]; omega
  | ⟨2, _⟩ => show win6_0.index t (2 : Fin 3) * 128 + 1 * q.val = q.val; rw [e2]; omega

/-! ## The running block, position by position -/

/-- After a position that restarts the sum: zero plus the position's block sums. -/
theorem outsAt6_restart (c : Dev nD) (p : Fin 256) (q : Fin 128) (n : ℕ) (h : n < cfg6.N) (h0 : n % 7 = 0) :
    outsAt6 V c n h (ix2 p q)
      = 0 + ∑ j ∈ Finset.range 64, ext3 (arg6 V c) (256 * (n / 7) + p.val) (64 * (n % 7) + j) q.val := by
  refine (congrFun (outsAt6_A V c ⟨n, h⟩ h0) (ix2 p q)).trans ?_
  refine (congrFun (out6_A_eq (F := Ideal) c (grid6.coords ⟨n, h⟩) (ms6_0 ⟨n, h⟩) (hs6_0 ⟨n, h⟩) (ms6_1 ⟨n, h⟩) (hs6_1 ⟨n, h⟩)
    ((hcond6 ⟨n, h⟩).mpr h0) (iblk6 V c 0 ⟨n, h⟩)) (ix2 p q)).trans ?_
  unfold k6_pay2 k6_pay1
  refine (acc_apply _ (iblk6 V c 0 ⟨n, h⟩) rfl p q
    (fun j => ext3 (arg6 V c) (256 * (n / 7) + p.val) (64 * (n % 7) + j) q.val)
    (fun j => iblk6_apply V c ⟨n, h⟩ p j q)).trans ?_
  exact congrArg (· + _) (zeros_apply p q)

/-- After a position that continues the sum: what the position before left plus the position's block sums. -/
theorem outsAt6_continue (c : Dev nD) (p : Fin 256) (q : Fin 128) (n : ℕ) (h : n + 1 < cfg6.N) (h0 : ¬(n + 1) % 7 = 0) :
    outsAt6 V c (n + 1) h (ix2 p q)
      = outsAt6 V c n (Nat.lt_of_succ_lt h) (ix2 p q)
        + ∑ j ∈ Finset.range 64, ext3 (arg6 V c) (256 * ((n + 1) / 7) + p.val) (64 * ((n + 1) % 7) + j) q.val := by
  refine (congrFun (outsAt6_B V c ⟨n + 1, h⟩ h0) (ix2 p q)).trans ?_
  refine (congrFun (out6_B_eq (F := Ideal) c (grid6.coords ⟨n + 1, h⟩) (ms6_0 ⟨n + 1, h⟩) (hs6_0 ⟨n + 1, h⟩) (ms6_1 ⟨n + 1, h⟩) (hs6_1 ⟨n + 1, h⟩)
    (fun hc => h0 ((hcond6 ⟨n + 1, h⟩).mp hc)) (iblk6 V c 0 ⟨n + 1, h⟩) (outsAt6 V c n (Nat.lt_of_succ_lt h))) (ix2 p q)).trans ?_
  unfold k6_pay2
  exact acc_apply (outsAt6 V c n (Nat.lt_of_succ_lt h)) (iblk6 V c 0 ⟨n + 1, h⟩) rfl p q
    (fun j => ext3 (arg6 V c) (256 * ((n + 1) / 7) + p.val) (64 * ((n + 1) % 7) + j) q.val)
    (fun j => iblk6_apply V c ⟨n + 1, h⟩ p j q)

/-- After the last position of a row block the running block holds the row sums of that row block. -/
theorem outsAt6_last (c : Dev nD) (p : Fin 256) (q : Fin 128) (n : ℕ) (h : n < cfg6.N) (hl : n % 7 + 1 = 7) :
    outsAt6 V c n h (ix2 p q) = ∑ s ∈ Finset.range (64 * 7), ext3 (arg6 V c) (256 * (n / 7) + p.val) s q.val :=
  running_last 64 7 cfg6.N (fun n h => outsAt6 V c n h (ix2 p q))
    (fun r s => ext3 (arg6 V c) (256 * r + p.val) s q.val)
    (outsAt6_restart V c p q) (outsAt6_continue V c p q) n h hl

/-! ## What is written back, and where -/

/-- At a position that writes back, the running block is the block of the row sums the output window cuts there. -/
theorem flushed6_point (c : Dev nD) (t : Fin cfg6.N) (hl : t.val % 7 + 1 = 7) (y : S256x128.Idx) :
    outsAt6 V c t.val t.isLt y = sums6 V c (((cfg6.win 1).blk t).view.emb y) := by
  obtain ⟨p, q, rfl⟩ : ∃ (p : Fin 256) (q : Fin 128), y = ix2 p q := ⟨y 0, y 1, eq_ix2 y⟩
  have hN : t.val < 14 := lt_of_lt_of_eq t.isLt (show cfg6.N = 14 from N_6)
  obtain ⟨-, -, -, e3, e4⟩ := idx_facts6 t
  have hr : 256 * (t.val / 7) + p.val < 512 := by omega
  refine (outsAt6_last V c p q t.val t.isLt hl).trans ?_
  refine (sum_range_ext3_rowSums (arg6 V c) (256 * (t.val / 7) + p.val) hr q).trans ?_
  refine congrArg (sums6 V c) (funext fun a => Fin.ext ?_)
  match a with
  | ⟨0, _⟩ => show 256 * (t.val / 7) + p.val = win6_1.index t (0 : Fin 2) * 256 + 1 * p.val; rw [e3]; omega
  | ⟨1, _⟩ => show q.val = win6_1.index t (1 : Fin 2) * 128 + 1 * q.val; rw [e4]; omega

theorem flushed6_eq (c : Dev nD) (t : Fin cfg6.N) (hf : (cfg6.win 1).flush t = true) :
    (dat6 (F := Ideal) V c).flushed 1 t = ((cfg6.win 1).blk t).view.read (Elt Ideal) (sums6 V c) := by
  have hN : t.val < 14 := lt_of_lt_of_eq t.isLt (show cfg6.N = 14 from N_6)
  have hl : t.val % 7 + 1 = 7 := by have := (flush6_1 t).mp hf; omega
  show (cfg6.win 1).cut (grid6.coords t) ((dat6 V c).after 1 t) = _
  rw [after6_1]
  funext y
  exact flushed6_point V c t hl y

/-- An index of the output array is in position t's block iff each coordinate is in the block's range on its axis. -/
theorem mem_blk6 (t : Fin cfg6.N) (i : S512x128.Idx) :
    i ∈ ((cfg6.win 1).blk t).view.set ↔ ∀ a : Fin 2, win6_1.index t a * S256x128.size a ≤ (i a).val ∧ (i a).val < win6_1.index t a * S256x128.size a + S256x128.size a := by
  show i ∈ ((View.whole main_v6).slice (win6_1.rect t)).set ↔ _
  rw [View.set_slice_whole, Rect.mem_set_unit]
  exact Iff.rfl

/-- Row r is written back at the last position of its row block, position 7 (r / 256) + 6. -/
theorem cover6 (i : S512x128.Idx) : ∃ t : Fin cfg6.N, (cfg6.win 1).flush t = true ∧ i ∈ ((cfg6.win 1).blk t).view.set := by
  have h0 : (i 0).val < 512 := (i 0).isLt
  have h1 : (i 1).val < 128 := (i 1).isLt
  have hN : cfg6.N = 14 := N_6
  have ht : 7 * ((i 0).val / 256) + 6 < cfg6.N := by rw [hN]; omega
  obtain ⟨-, -, -, e3, e4⟩ := idx_facts6 ⟨7 * ((i 0).val / 256) + 6, ht⟩
  refine ⟨⟨7 * ((i 0).val / 256) + 6, ht⟩, (flush6_1 _).mpr (by show (7 * ((i 0).val / 256) + 6) % 7 = 6; omega), ?_⟩
  rw [mem_blk6]
  intro a
  match a with
  | ⟨0, _⟩ =>
    show win6_1.index ⟨7 * ((i 0).val / 256) + 6, ht⟩ (0 : Fin 2) * 256 ≤ (i 0).val
      ∧ (i 0).val < win6_1.index ⟨7 * ((i 0).val / 256) + 6, ht⟩ (0 : Fin 2) * 256 + 256
    rw [e3]; show (7 * ((i 0).val / 256) + 6) / 7 * 256 ≤ (i 0).val ∧ (i 0).val < (7 * ((i 0).val / 256) + 6) / 7 * 256 + 256; omega
  | ⟨1, _⟩ =>
    show win6_1.index ⟨7 * ((i 0).val / 256) + 6, ht⟩ (1 : Fin 2) * 128 ≤ (i 1).val
      ∧ (i 1).val < win6_1.index ⟨7 * ((i 0).val / 256) + 6, ht⟩ (1 : Fin 2) * 128 + 128
    rw [e4]; omega

/-! ## The output array after the region, and the reference's reduce -/

/-- After the region the output array holds the row sums of the input array. -/
theorem arr6_rowSums (c : Dev nD) : (dat6 (F := Ideal) V c).arrAt 1 cfg6.N = sums6 V c :=
  (dat6 (F := Ideal) V c).arrAt_eq_of_cover 1 (sums6 V c) (flushed6_eq V c) cover6

/-- The reference's reduce along the sequence axis, from zero, is the same row sums. -/
theorem ref6_rowSums (x : (⟨3, ![512, 448, 128]⟩ : Shape).Idx → EReal) :
    Host.reduceAdd (F := Ideal) x (constant Cert.ReferenceIdeal.S_ .f32 0x00000000#32)
        Cert.ReferenceIdeal.Gen.reducesTo_S512x448x128_S512x128_d1 Cert.ReferenceIdeal.Gen.h_S_ = rowSums x := by
  funext i
  refine (Cert.ReferenceIdeal.Read.val_main_v12_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 6's output array after the region is the reference's reduce of the input array. -/
theorem arr6_eq (c : Dev nD) :
    (dat6 (F := Ideal) V c).arrAt 1 cfg6.N
      = Host.reduceAdd (F := Ideal) (V c main_arg6) (constant Cert.ReferenceIdeal.S_ .f32 0x00000000#32)
          Cert.ReferenceIdeal.Gen.reducesTo_S512x448x128_S512x128_d1 Cert.ReferenceIdeal.Gen.h_S_ :=
  (arr6_rowSums V c).trans (ref6_rowSums (arg6 V c)).symm

end Cert.KernelIdeal.Hand

end
-- ==== Proof.KernelIdealSums7.lean ====
/-
  Pallas call 7 of the program, read as a value: after the region the output array holds, at row r and lane q, the sum
  of the input over the whole sequence axis (512 positions) — the same array the reference's reduce produces.

  The grid visits each of the two row blocks 8 times in a row; the running block is restarted with zeros at the first visit and
  written back after the last. So the block written back for row block i is the sum over l < 8 of the sums over the 64
  positions of sequence block l: the sum over all 512 positions, regrouped. Only commutativity and associativity of
  addition on the extended reals are used; nothing is assumed finite.
-/
import proofs.«145553_j48773648613703_2_alg».proof.Proof.KernelIdealRegion7
import proofs.«145553_j48773648613703_2_alg».proof.Proof.KernelIdealBody
import proofs.«145553_j48773648613703_2_alg».proof.Proof.SeqSumAlgebra
import proofs.«145553_j48773648613703_2_alg».proof.Proof.Gen.ReferenceIdeal.Read
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.Hand.SeqSum

/-! ## What each run of the body leaves, as the body's arithmetic -/

section pieces
variable {F : FTy → Type} [FloatOps F]

/-- Where the sum continues, the one stored piece is the running block plus the input block's sums. -/
theorem out7_B_eq (c : Dev nD) (i : grid7.Coords) (arg2 : Memref sig .tc .vmem S256x64x128 .f32) (harg2 : arg2.IsWhole)
    (arg3 : Memref sig .tc .vmem S256x128 .f32) (harg3 : arg3.IsWhole) (hc0 : ¬cond7 i)
    (x0 : Vec F S256x64x128 .f32) (xo1 : Vec F S256x128 .f32) :
    out7_B c i arg2 harg2 arg3 harg3 hc0 x0 xo1 = k7_pay2 xo1 x0 := by
  unfold out7_B
  rw [View.read_writes_eq_canon _ _ _ (cover7_B c i arg2 harg2 arg3 harg3 hc0 x0 xo1)]
  unfold kernelRun7_B
  dsimp only
  rw [View.canon_unit_zero hz2]
  simp only [View.readAt_eq_ld, harg2.read_unread, harg3.read_unread, View.ld_unit_zero (S := S256x128) hz2,
    View.ld_unit_zero (S := S256x64x128) hz3]

/-- Where the sum restarts, the zeros are stored first and read back: the block ends at zeros plus the input block's sums. -/
theorem out7_A_eq (c : Dev nD) (i : grid7.Coords) (arg2 : Memref sig .tc .vmem S256x64x128 .f32) (harg2 : arg2.IsWhole)
    (arg3 : Memref sig .tc .vmem S256x128 .f32) (harg3 : arg3.IsWhole) (hc0 : cond7 i)
    (x0 : Vec F S256x64x128 .f32) :
    out7_A c i arg2 harg2 arg3 harg3 hc0 x0 = k7_pay2 k7_pay1 x0 := by
  unfold out7_A
  rw [View.read_writes_eq_canon _ _ _ (cover7_A c i arg2 harg2 arg3 harg3 hc0 x0)]
  unfold kernelRun7_A
  dsimp only
  sl_unfold_words
  rw [View.canon_cons_unit_zero (S := S256x128) hz2, View.readCov_unit_zero (S := S256x128) _ hz2]
  simp only [View.readAt_eq_ld, harg2.read_unread, View.ld_unit_zero (S := S256x64x128) hz3]

end pieces

/-! ## The input block, read off the array -/

variable (V : (c : Dev nD) → (b : Ref sig .tc) → Buf (Elt Ideal) ((c : Thread nD τ).loc b))

/-- The input array as the region finds it. -/
abbrev arg7 (c : Dev nD) : (⟨3, ![512, 512, 128]⟩ : Shape).Idx → EReal := V c main_arg7

/-- Its sums along the sequence axis: what the output array is to hold. -/
abbrev sums7 (c : Dev nD) : (⟨2, ![512, 128]⟩ : Shape).Idx → EReal := rowSums (arg7 V c)

/-- The printed index maps, decided over the grid: position t is row block t / 8 and sequence block t % 8. -/
theorem idx_facts7 : ∀ t : Fin cfg7.N, win7_0.index t (0 : Fin 3) = t.val / 8 ∧ win7_0.index t (1 : Fin 3) = t.val % 8
    ∧ win7_0.index t (2 : Fin 3) = 0 ∧ win7_1.index t (0 : Fin 2) = t.val / 8 ∧ win7_1.index t (1 : Fin 2) = 0 :=
  (by decide +kernel : ∀ t : Fin grid7.N, win7_0.index t (0 : Fin 3) = t.val / 8 ∧ win7_0.index t (1 : Fin 3) = t.val % 8
    ∧ win7_0.index t (2 : Fin 3) = 0 ∧ win7_1.index t (0 : Fin 2) = t.val / 8 ∧ win7_1.index t (1 : Fin 2) = 0)

/-- The input block at position t, at (p, j, q), is the array at row 256 (t / 8) + p, sequence position 64 (t % 8) + j, lane q. -/
theorem iblk7_apply (c : Dev nD) (t : Fin cfg7.N) (p : Fin 256) (j : Fin 64) (q : Fin 128) :
    (iblk7 V c 0 t : Vec Ideal S256x64x128 .f32) (ix3 p j q)
      = ext3 (arg7 V c) (256 * (t.val / 8) + p.val) (64 * (t.val % 8) + j.val) q.val := by
  have hN : t.val < 16 := lt_of_lt_of_eq t.isLt (show cfg7.N = 16 from N_7)
  obtain ⟨e0, e1, e2, -, -⟩ := idx_facts7 t
  rw [ext3_of_lt (arg7 V c) (by omega) (by omega) q.isLt]
  unfold iblk7
  rw [View.read_apply]
  show V c main_arg7 _ = V c main_arg7 _
  refine congrArg (V c main_arg7) (funext fun a => Fin.ext ?_)
  match a with
  | ⟨0, _⟩ => show win7_0.index t (0 : Fin 3) * 256 + 1 * p.val = 256 * (t.val / 8) + p.val; rw [e0]; omega
  | ⟨1, _⟩ => show win7_0.index t (1 : Fin 3) * 64 + 1 * j.val = 64 * (t.val % 8) + j.val; rw [e1]; omega
  | ⟨2, _⟩ => show win7_0.index t (2 : Fin 3) * 128 + 1 * q.val = q.val; rw [e2]; omega

/-! ## The running block, position by position -/

/-- After a position that restarts the sum: zero plus the position's block sums. -/
theorem outsAt7_restart (c : Dev nD) (p : Fin 256) (q : Fin 128) (n : ℕ) (h : n < cfg7.N) (h0 : n % 8 = 0) :
    outsAt7 V c n h (ix2 p q)
      = 0 + ∑ j ∈ Finset.range 64, ext3 (arg7 V c) (256 * (n / 8) + p.val) (64 * (n % 8) + j) q.val := by
  refine (congrFun (outsAt7_A V c ⟨n, h⟩ h0) (ix2 p q)).trans ?_
  refine (congrFun (out7_A_eq (F := Ideal) c (grid7.coords ⟨n, h⟩) (ms7_0 ⟨n, h⟩) (hs7_0 ⟨n, h⟩) (ms7_1 ⟨n, h⟩) (hs7_1 ⟨n, h⟩)
    ((hcond7 ⟨n, h⟩).mpr h0) (iblk7 V c 0 ⟨n, h⟩)) (ix2 p q)).trans ?_
  unfold k7_pay2 k7_pay1
  refine (acc_apply _ (iblk7 V c 0 ⟨n, h⟩) rfl p q
    (fun j => ext3 (arg7 V c) (256 * (n / 8) + p.val) (64 * (n % 8) + j) q.val)
    (fun j => iblk7_apply V c ⟨n, h⟩ p j q)).trans ?_
  exact congrArg (· + _) (zeros_apply p q)

/-- After a position that continues the sum: what the position before left plus the position's block sums. -/
theorem outsAt7_continue (c : Dev nD) (p : Fin 256) (q : Fin 128) (n : ℕ) (h : n + 1 < cfg7.N) (h0 : ¬(n + 1) % 8 = 0) :
    outsAt7 V c (n + 1) h (ix2 p q)
      = outsAt7 V c n (Nat.lt_of_succ_lt h) (ix2 p q)
        + ∑ j ∈ Finset.range 64, ext3 (arg7 V c) (256 * ((n + 1) / 8) + p.val) (64 * ((n + 1) % 8) + j) q.val := by
  refine (congrFun (outsAt7_B V c ⟨n + 1, h⟩ h0) (ix2 p q)).trans ?_
  refine (congrFun (out7_B_eq (F := Ideal) c (grid7.coords ⟨n + 1, h⟩) (ms7_0 ⟨n + 1, h⟩) (hs7_0 ⟨n + 1, h⟩) (ms7_1 ⟨n + 1, h⟩) (hs7_1 ⟨n + 1, h⟩)
    (fun hc => h0 ((hcond7 ⟨n + 1, h⟩).mp hc)) (iblk7 V c 0 ⟨n + 1, h⟩) (outsAt7 V c n (Nat.lt_of_succ_lt h))) (ix2 p q)).trans ?_
  unfold k7_pay2
  exact acc_apply (outsAt7 V c n (Nat.lt_of_succ_lt h)) (iblk7 V c 0 ⟨n + 1, h⟩) rfl p q
    (fun j => ext3 (arg7 V c) (256 * ((n + 1) / 8) + p.val) (64 * ((n + 1) % 8) + j) q.val)
    (fun j => iblk7_apply V c ⟨n + 1, h⟩ p j q)

/-- After the last position of a row block the running block holds the row sums of that row block. -/
theorem outsAt7_last (c : Dev nD) (p : Fin 256) (q : Fin 128) (n : ℕ) (h : n < cfg7.N) (hl : n % 8 + 1 = 8) :
    outsAt7 V c n h (ix2 p q) = ∑ s ∈ Finset.range (64 * 8), ext3 (arg7 V c) (256 * (n / 8) + p.val) s q.val :=
  running_last 64 8 cfg7.N (fun n h => outsAt7 V c n h (ix2 p q))
    (fun r s => ext3 (arg7 V c) (256 * r + p.val) s q.val)
    (outsAt7_restart V c p q) (outsAt7_continue V c p q) n h hl

/-! ## What is written back, and where -/

/-- At a position that writes back, the running block is the block of the row sums the output window cuts there. -/
theorem flushed7_point (c : Dev nD) (t : Fin cfg7.N) (hl : t.val % 8 + 1 = 8) (y : S256x128.Idx) :
    outsAt7 V c t.val t.isLt y = sums7 V c (((cfg7.win 1).blk t).view.emb y) := by
  obtain ⟨p, q, rfl⟩ : ∃ (p : Fin 256) (q : Fin 128), y = ix2 p q := ⟨y 0, y 1, eq_ix2 y⟩
  have hN : t.val < 16 := lt_of_lt_of_eq t.isLt (show cfg7.N = 16 from N_7)
  obtain ⟨-, -, -, e3, e4⟩ := idx_facts7 t
  have hr : 256 * (t.val / 8) + p.val < 512 := by omega
  refine (outsAt7_last V c p q t.val t.isLt hl).trans ?_
  refine (sum_range_ext3_rowSums (arg7 V c) (256 * (t.val / 8) + p.val) hr q).trans ?_
  refine congrArg (sums7 V c) (funext fun a => Fin.ext ?_)
  match a with
  | ⟨0, _⟩ => show 256 * (t.val / 8) + p.val = win7_1.index t (0 : Fin 2) * 256 + 1 * p.val; rw [e3]; omega
  | ⟨1, _⟩ => show q.val = win7_1.index t (1 : Fin 2) * 128 + 1 * q.val; rw [e4]; omega

theorem flushed7_eq (c : Dev nD) (t : Fin cfg7.N) (hf : (cfg7.win 1).flush t = true) :
    (dat7 (F := Ideal) V c).flushed 1 t = ((cfg7.win 1).blk t).view.read (Elt Ideal) (sums7 V c) := by
  have hN : t.val < 16 := lt_of_lt_of_eq t.isLt (show cfg7.N = 16 from N_7)
  have hl : t.val % 8 + 1 = 8 := by have := (flush7_1 t).mp hf; omega
  show (cfg7.win 1).cut (grid7.coords t) ((dat7 V c).after 1 t) = _
  rw [after7_1]
  funext y
  exact flushed7_point V c t hl y

/-- An index of the output array is in position t's block iff each coordinate is in the block's range on its axis. -/
theorem mem_blk7 (t : Fin cfg7.N) (i : S512x128.Idx) :
    i ∈ ((cfg7.win 1).blk t).view.set ↔ ∀ a : Fin 2, win7_1.index t a * S256x128.size a ≤ (i a).val ∧ (i a).val < win7_1.index t a * S256x128.size a + S256x128.size a := by
  show i ∈ ((View.whole main_v7).slice (win7_1.rect t)).set ↔ _
  rw [View.set_slice_whole, Rect.mem_set_unit]
  exact Iff.rfl

/-- Row r is written back at the last position of its row block, position 8 (r / 256) + 7. -/
theorem cover7 (i : S512x128.Idx) : ∃ t : Fin cfg7.N, (cfg7.win 1).flush t = true ∧ i ∈ ((cfg7.win 1).blk t).view.set := by
  have h0 : (i 0).val < 512 := (i 0).isLt
  have h1 : (i 1).val < 128 := (i 1).isLt
  have hN : cfg7.N = 16 := N_7
  have ht : 8 * ((i 0).val / 256) + 7 < cfg7.N := by rw [hN]; omega
  obtain ⟨-, -, -, e3, e4⟩ := idx_facts7 ⟨8 * ((i 0).val / 256) + 7, ht⟩
  refine ⟨⟨8 * ((i 0).val / 256) + 7, ht⟩, (flush7_1 _).mpr (by show (8 * ((i 0).val / 256) + 7) % 8 = 7; omega), ?_⟩
  rw [mem_blk7]
  intro a
  match a with
  | ⟨0, _⟩ =>
    show win7_1.index ⟨8 * ((i 0).val / 256) + 7, ht⟩ (0 : Fin 2) * 256 ≤ (i 0).val
      ∧ (i 0).val < win7_1.index ⟨8 * ((i 0).val / 256) + 7, ht⟩ (0 : Fin 2) * 256 + 256
    rw [e3]; show (8 * ((i 0).val / 256) + 7) / 8 * 256 ≤ (i 0).val ∧ (i 0).val < (8 * ((i 0).val / 256) + 7) / 8 * 256 + 256; omega
  | ⟨1, _⟩ =>
    show win7_1.index ⟨8 * ((i 0).val / 256) + 7, ht⟩ (1 : Fin 2) * 128 ≤ (i 1).val
      ∧ (i 1).val < win7_1.index ⟨8 * ((i 0).val / 256) + 7, ht⟩ (1 : Fin 2) * 128 + 128
    rw [e4]; omega

/-! ## The output array after the region, and the reference's reduce -/

/-- After the region the output array holds the row sums of the input array. -/
theorem arr7_rowSums (c : Dev nD) : (dat7 (F := Ideal) V c).arrAt 1 cfg7.N = sums7 V c :=
  (dat7 (F := Ideal) V c).arrAt_eq_of_cover 1 (sums7 V c) (flushed7_eq V c) cover7

/-- The reference's reduce along the sequence axis, from zero, is the same row sums. -/
theorem ref7_rowSums (x : (⟨3, ![512, 512, 128]⟩ : Shape).Idx → EReal) :
    Host.reduceAdd (F := Ideal) x (constant Cert.ReferenceIdeal.S_ .f32 0x00000000#32)
        Cert.ReferenceIdeal.Gen.reducesTo_S512x512x128_S512x128_d1 Cert.ReferenceIdeal.Gen.h_S_ = rowSums x := by
  funext i
  refine (Cert.ReferenceIdeal.Read.val_main_v14_apply x i).trans ?_
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl
    | ⟨2, _⟩ => rfl))

/-- Pallas call 7's output array after the region is the reference's reduce of the input array. -/
theorem arr7_eq (c : Dev nD) :
    (dat7 (F := Ideal) V c).arrAt 1 cfg7.N
      = Host.reduceAdd (F := Ideal) (V c main_arg7) (constant Cert.ReferenceIdeal.S_ .f32 0x00000000#32)
          Cert.ReferenceIdeal.Gen.reducesTo_S512x512x128_S512x128_d1 Cert.ReferenceIdeal.Gen.h_S_ :=
  (arr7_rowSums V c).trans (ref7_rowSums (arg7 V c)).symm

end Cert.KernelIdeal.Hand

end
-- ==== Proof.SameResult.lean ====
/-
  The two idealized programs compute one function of the eight argument arrays: for each input its sums along the sequence
  axis, as a [512, 128] array, given a unit middle axis, the eight laid side by side along that axis.

  The reference's run states its result in exactly this form. The kernel program's host operations are the same two steps
  applied to the eight pallas calls' results, and each call's result array is the input's sequence-axis sums (the grid
  accumulates them tile by tile from zero, which over the extended reals is the sum taken at once).
-/
import proofs.«145553_j48773648613703_2_alg».proof.Defs
import proofs.«145553_j48773648613703_2_alg».proof.Proof.Gen.ReferenceIdeal.Run
import proofs.«145553_j48773648613703_2_alg».proof.Proof.KernelIdealRun
import proofs.«145553_j48773648613703_2_alg».proof.Proof.Gen.Pre_finite_inputs
import proofs.«145553_j48773648613703_2_alg».proof.Proof.KernelIdealSums0
import proofs.«145553_j48773648613703_2_alg».proof.Proof.KernelIdealSums1
import proofs.«145553_j48773648613703_2_alg».proof.Proof.KernelIdealSums2
import proofs.«145553_j48773648613703_2_alg».proof.Proof.KernelIdealSums3
import proofs.«145553_j48773648613703_2_alg».proof.Proof.KernelIdealSums4
import proofs.«145553_j48773648613703_2_alg».proof.Proof.KernelIdealSums5
import proofs.«145553_j48773648613703_2_alg».proof.Proof.KernelIdealSums6
import proofs.«145553_j48773648613703_2_alg».proof.Proof.KernelIdealSums7
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

section
variable {F : FTy → Type} [FloatOps F]

/-- The host operations' result from the buffers they start from: each call's result broadcast to a unit middle axis,
    the eight concatenated along it. -/
theorem tail_result (W : Valuation τ sig (Elt F)) :
    StableHlo.after hostOps8 W (Proc.devRef .tc main_v16)
      = concatenate S512x8x128 1 [⟨S512x1x128, broadcastInDim S512x1x128 ![0, 2] bcast_S512x128_S512x1x128_0_2 (W (Proc.devRef .tc main_v0) : (⟨S512x128, .f32⟩ : BufTy).Contents (Elt F))⟩, ⟨S512x1x128, broadcastInDim S512x1x128 ![0, 2] bcast_S512x128_S512x1x128_0_2 (W (Proc.devRef .tc main_v1) : (⟨S512x128, .f32⟩ : BufTy).Contents (Elt F))⟩, ⟨S512x1x128, broadcastInDim S512x1x128 ![0, 2] bcast_S512x128_S512x1x128_0_2 (W (Proc.devRef .tc main_v2) : (⟨S512x128, .f32⟩ : BufTy).Contents (Elt F))⟩, ⟨S512x1x128, broadcastInDim S512x1x128 ![0, 2] bcast_S512x128_S512x1x128_0_2 (W (Proc.devRef .tc main_v3) : (⟨S512x128, .f32⟩ : BufTy).Contents (Elt F))⟩, ⟨S512x1x128, broadcastInDim S512x1x128 ![0, 2] bcast_S512x128_S512x1x128_0_2 (W (Proc.devRef .tc main_v4) : (⟨S512x128, .f32⟩ : BufTy).Contents (Elt F))⟩, ⟨S512x1x128, broadcastInDim S512x1x128 ![0, 2] bcast_S512x128_S512x1x128_0_2 (W (Proc.devRef .tc main_v5) : (⟨S512x128, .f32⟩ : BufTy).Contents (Elt F))⟩, ⟨S512x1x128, broadcastInDim S512x1x128 ![0, 2] bcast_S512x128_S512x1x128_0_2 (W (Proc.devRef .tc main_v6) : (⟨S512x128, .f32⟩ : BufTy).Contents (Elt F))⟩, ⟨S512x1x128, broadcastInDim S512x1x128 ![0, 2] bcast_S512x128_S512x1x128_0_2 (W (Proc.devRef .tc main_v7) : (⟨S512x128, .f32⟩ : BufTy).Contents (Elt F))⟩] concatenates_S512x1x128_S512x1x128_S512x1x128_S512x1x128_S512x1x128_S512x1x128_S512x1x128_S512x1x128_S512x8x128_d1 := by
  after_results <;> rfl
end

/-- The common result, as a function of the eight argument arrays (in the reference's own spelling). -/
def sumsSideBySide (x0 : FVec Ideal Cert.ReferenceIdeal.S512x64x128 .f32) (x1 : FVec Ideal Cert.ReferenceIdeal.S512x128x128 .f32) (x2 : FVec Ideal Cert.ReferenceIdeal.S512x192x128 .f32) (x3 : FVec Ideal Cert.ReferenceIdeal.S512x256x128 .f32) (x4 : FVec Ideal Cert.ReferenceIdeal.S512x320x128 .f32) (x5 : FVec Ideal Cert.ReferenceIdeal.S512x384x128 .f32) (x6 : FVec Ideal Cert.ReferenceIdeal.S512x448x128 .f32) (x7 : FVec Ideal Cert.ReferenceIdeal.S512x512x128 .f32) :
    FVec Ideal Cert.ReferenceIdeal.S512x8x128 .f32 :=
  concatenate Cert.ReferenceIdeal.S512x8x128 1 [⟨Cert.ReferenceIdeal.S512x1x128, broadcastInDim Cert.ReferenceIdeal.S512x1x128 ![0, 2] Cert.ReferenceIdeal.Gen.bcast_S512x128_S512x1x128_0_2 (Host.reduceAdd (F := Ideal) x0 (constant (F := Ideal) Cert.ReferenceIdeal.S_ .f32 0x00000000#32) Cert.ReferenceIdeal.Gen.reducesTo_S512x64x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x1 (constant (F := Ideal) Cert.ReferenceIdeal.S_ .f32 0x00000000#32) Cert.ReferenceIdeal.Gen.reducesTo_S512x128x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x2 (constant (F := Ideal) Cert.ReferenceIdeal.S_ .f32 0x00000000#32) Cert.ReferenceIdeal.Gen.reducesTo_S512x192x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x3 (constant (F := Ideal) Cert.ReferenceIdeal.S_ .f32 0x00000000#32) Cert.ReferenceIdeal.Gen.reducesTo_S512x256x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x4 (constant (F := Ideal) Cert.ReferenceIdeal.S_ .f32 0x00000000#32) Cert.ReferenceIdeal.Gen.reducesTo_S512x320x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x5 (constant (F := Ideal) Cert.ReferenceIdeal.S_ .f32 0x00000000#32) Cert.ReferenceIdeal.Gen.reducesTo_S512x384x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x6 (constant (F := Ideal) Cert.ReferenceIdeal.S_ .f32 0x00000000#32) Cert.ReferenceIdeal.Gen.reducesTo_S512x448x128_S512x128_d1 Cert.ReferenceIdeal.Gen.h_S_)⟩,
      ⟨Cert.ReferenceIdeal.S512x1x128, broadcastInDim Cert.ReferenceIdeal.S512x1x128 ![0, 2] Cert.ReferenceIdeal.Gen.bcast_S512x128_S512x1x128_0_2 (Host.reduceAdd (F := Ideal) x7 (constant (F := Ideal) Cert.ReferenceIdeal.S_ .f32 0x00000000#32) Cert.ReferenceIdeal.Gen.reducesTo_S512x512x128_S512x128_d1 Cert.ReferenceIdeal.Gen.h_S_)⟩] Cert.ReferenceIdeal.Gen.concatenates_S512x1x128_S512x1x128_S512x1x128_S512x1x128_S512x1x128_S512x1x128_S512x1x128_S512x1x128_S512x8x128_d1

variable (m : (ℓ : Loc nD τ sig) → Buf (Elt Ideal) ℓ) (ρ : Dev nD → PrngReg)

/-- The kernel program's result buffer after the run, from the launch memory. -/
theorem result_eq (c : Dev nD) :
    EF m ρ c (Proc.devRef .tc main_v16)
      = sumsSideBySide (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show EF m ρ c = StableHlo.after hostOps8 (E8 m ρ c) from rfl, tail_result,
    E8_main_v0 m ρ c, arr0_eq, VE0_main_arg0 m ρ c,
    E8_main_v1 m ρ c, arr1_eq, VE1_main_arg1 m ρ c,
    E8_main_v2 m ρ c, arr2_eq, VE2_main_arg2 m ρ c,
    E8_main_v3 m ρ c, arr3_eq, VE3_main_arg3 m ρ c,
    E8_main_v4 m ρ c, arr4_eq, VE4_main_arg4 m ρ c,
    E8_main_v5 m ρ c, arr5_eq, VE5_main_arg5 m ρ c,
    E8_main_v6 m ρ c, arr6_eq, VE6_main_arg6 m ρ c,
    E8_main_v7 m ρ c, arr7_eq, VE7_main_arg7 m ρ c]
  rfl

end Cert.KernelIdeal.Hand

namespace Cert.Proof

open Idealize.ShloMosaic Idealize.SL.Sem Cert.KernelIdeal.Hand

/-- From memories agreeing on the arguments both idealized programs run, leave their arguments unchanged, and end with
    the same result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => sumsSideBySide (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c =>
      ⟨(h c _ (mem_uc Cert.KernelIdeal.main_v16 (by decide))).trans (result_eq m ρ c),
       (h c _ (mem_uc Cert.KernelIdeal.main_arg0 (by decide))).trans (EF_main_arg0 m ρ c),
       (h c _ (mem_uc Cert.KernelIdeal.main_arg1 (by decide))).trans (EF_main_arg1 m ρ c),
       (h c _ (mem_uc Cert.KernelIdeal.main_arg2 (by decide))).trans (EF_main_arg2 m ρ c),
       (h c _ (mem_uc Cert.KernelIdeal.main_arg3 (by decide))).trans (EF_main_arg3 m ρ c),
       (h c _ (mem_uc Cert.KernelIdeal.main_arg4 (by decide))).trans (EF_main_arg4 m ρ c),
       (h c _ (mem_uc Cert.KernelIdeal.main_arg5 (by decide))).trans (EF_main_arg5 m ρ c),
       (h c _ (mem_uc Cert.KernelIdeal.main_arg6 (by decide))).trans (EF_main_arg6 m ρ c),
       (h c _ (mem_uc Cert.KernelIdeal.main_arg7 (by decide))).trans (EF_main_arg7 m ρ c)⟩)
      (run_all m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    rfl

end Cert.Proof

end
-- ==== Proof.lean ====
/-
  The certificate of the sequence-sum kernel against its reference.

  The kernel program runs eight pallas calls, one per input x_k : [512, 64 (k+1), 128]. Call k walks a grid of 2 row
  blocks by k+1 sequence tiles; at tile 0 it zeroes the [256, 128] output block and at every tile it adds to that block the
  [256, 64, 128] input block summed along the sequence axis, so that after the last tile the block holds the rows' sums over
  the whole sequence axis. The host then gives each [512, 128] result a unit middle axis and concatenates the eight along
  it. The reference sums each input along the sequence axis, keeping the axis, and concatenates. Over the extended reals
  both are the same sums: a sum over 64 (k+1) terms taken tile by tile, starting from zero, is the sum taken at once, by
  commutativity and associativity of addition alone; no finiteness of the inputs is used.

  Frames: each program runs to the end without a fault and leaves its arguments as launched. For the two kernel programs
  this is read off the run of the nine segments (eight calls, then the host operations); for the reference off its run.
  The idealized kernel is the printed kernel's own text read over the extended reals: nothing was rewritten, so there is
  nothing to preserve.
-/
import proofs.«145553_j48773648613703_2_alg».proof.Defs
import proofs.«145553_j48773648613703_2_alg».proof.Proof.Gen.Kernel
import proofs.«145553_j48773648613703_2_alg».proof.Proof.Gen.KernelIdeal
import proofs.«145553_j48773648613703_2_alg».proof.Proof.Gen.ReferenceIdeal
import proofs.«145553_j48773648613703_2_alg».proof.Proof.Gen.Pre_finite_inputs
import proofs.«145553_j48773648613703_2_alg».proof.Proof.Gen.ReferenceIdeal.Run
import proofs.«145553_j48773648613703_2_alg».proof.Proof.KernelRun
import proofs.«145553_j48773648613703_2_alg».proof.Proof.KernelIdealRun
import proofs.«145553_j48773648613703_2_alg».proof.Proof.SameResult
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Hand.frameH m ρ

/-- So does the same program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frameH m ρ

/-- The reference is host operations only: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
